-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v158) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S256x256 : Shape := ⟨2, ![256, 256]⟩
abbrev S256 : Shape := ⟨1, ![256]⟩
abbrev S256x10 : Shape := ⟨2, ![256, 10]⟩
abbrev S10 : Shape := ⟨1, ![10]⟩
abbrev S2x320000 : Shape := ⟨2, ![2, 320000]⟩
abbrev S10000 : Shape := ⟨1, ![10000]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S256x10 : S_.BroadcastsInDim S256x10 (![] : Fin 0 → Fin S256x10.rank)
  reducesTo_S256x10_S_d0_1 : S256x10.ReducesTo [0, 1] S_
  bcast_S_S10 : S_.BroadcastsInDim S10 (![] : Fin 0 → Fin S10.rank)
  reducesTo_S10_S_d0 : S10.ReducesTo [0] S_
  bcast_S_S2x320000 : S_.BroadcastsInDim S2x320000 (![] : Fin 0 → Fin S2x320000.rank)
  reducesTo_S2x320000_S_d0_1 : S2x320000.ReducesTo [0, 1] S_

variable [Facts]

def fn_part3 {F : FTy → Type} [FloatOps F] (main_v47 : IVec S_ 1) (main_v49 : IVec S2x320000 1) (main_c_19 : IVec S_ 1) : IVec S_ 1 :=
  let main_v50 : IVec S_ 1 := (fun x v => Host.reduce IntOp.andi x v reducesTo_S2x320000_S_d0_1 h_S_) main_v49 main_c_19
  let main_v51 : IVec S_ 1 := andi main_v47 main_v50
  main_v51

def fn_part2 {F : FTy → Type} [FloatOps F] (main_arg7 : FVec F S256x10 .f32) (main_arg8 : FVec F S10 .f32) (main_arg9 : IVec S2x320000 32) (main_v33 : IVec S_ 1) : IVec S_ 1 :=
  let main_v34 : FVec F S256x10 .f32 := Host.absf main_arg7
  let main_cst_12 : FVec F S_ .f32 := constant S_ .f32 0x7F800000#32
  let main_v35 : FVec F S256x10 .f32 := broadcastInDim S256x10 ![] bcast_S_S256x10 main_cst_12
  let main_v36 : IVec S256x10 1 := cmpf .olt main_v34 main_v35
  let main_c_13 : IVec S_ 1 := constantI S_ 1 1#1
  let main_v37 : IVec S_ 1 := (fun x v => Host.reduce IntOp.andi x v reducesTo_S256x10_S_d0_1 h_S_) main_v36 main_c_13
  let main_v38 : IVec S_ 1 := andi main_v33 main_v37
  let main_v39 : FVec F S10 .f32 := Host.absf main_arg8
  let main_cst_14 : FVec F S_ .f32 := constant S_ .f32 0x7F800000#32
  let main_v40 : FVec F S10 .f32 := broadcastInDim S10 ![] bcast_S_S10 main_cst_14
  let main_v41 : IVec S10 1 := cmpf .olt main_v39 main_v40
  let main_c_15 : IVec S_ 1 := constantI S_ 1 1#1
  let main_v42 : IVec S_ 1 := (fun x v => Host.reduce IntOp.andi x v reducesTo_S10_S_d0 h_S_) main_v41 main_c_15
  let main_v43 : IVec S_ 1 := andi main_v38 main_v42
  let main_c_16 : IVec S_ 32 := constantI S_ 32 0#32
  let main_v44 : IVec S2x320000 32 := broadcastInDim S2x320000 ![] bcast_S_S2x320000 main_c_16
  let main_v45 : IVec S2x320000 1 := cmpi .sge main_arg9 main_v44
  let main_c_17 : IVec S_ 1 := constantI S_ 1 1#1
  let main_v46 : IVec S_ 1 := (fun x v => Host.reduce IntOp.andi x v reducesTo_S2x320000_S_d0_1 h_S_) main_v45 main_c_17
  let main_v47 : IVec S_ 1 := andi main_v43 main_v46
  let main_c_18 : IVec S_ 32 := constantI S_ 32 10000#32
  let main_v48 : IVec S2x320000 32 := broadcastInDim S2x320000 ![] bcast_S_S2x320000 main_c_18
  let main_v49 : IVec S2x320000 1 := cmpi .slt main_arg9 main_v48
  let main_c_19 : IVec S_ 1 := constantI S_ 1 1#1
  fn_part3 (F := F) main_v47 main_v49 main_c_19

def fn_part1 {F : FTy → Type} [FloatOps F] (main_arg4 : FVec F S256 .f32) (main_arg5 : FVec F S256x256 .f32) (main_arg6 : FVec F S256 .f32) (main_arg7 : FVec F S256x10 .f32) (main_arg8 : FVec F S10 .f32) (main_arg9 : IVec S2x320000 32) (main_v13 : IVec S_ 1) (main_v16 : IVec S256x256 1) : IVec S_ 1 :=
  let main_c_5 : IVec S_ 1 := constantI S_ 1 1#1
  let main_v17 : IVec S_ 1 := (fun x v => Host.reduce IntOp.andi x v reducesTo_S256x256_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256x256 .f32 := Host.absf main_arg5
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg6
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg7 main_arg8 main_arg9 main_v33

def fn {F : FTy → Type} [FloatOps F] (main_arg0 : FVec F S10000x256 .f32) (main_arg1 : FVec F S256x256 .f32) (main_arg2 : FVec F S256 .f32) (main_arg3 : FVec F S256x256 .f32) (main_arg4 : FVec F S256 .f32) (main_arg5 : FVec F S256x256 .f32) (main_arg6 : FVec F S256 .f32) (main_arg7 : FVec F S256x10 .f32) (main_arg8 : FVec F S10 .f32) (main_arg9 : IVec S2x320000 32) (main_arg10 : IVec S10000 32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  let main_v14 : FVec F S256x256 .f32 := Host.absf main_arg3
  let main_cst_4 : FVec F S_ .f32 := constant S_ .f32 0x7F800000#32
  let main_v15 : FVec F S256x256 .f32 := broadcastInDim S256x256 ![] bcast_S_S256x256 main_cst_4
  let main_v16 : IVec S256x256 1 := cmpf .olt main_v14 main_v15
  fn_part1 (F := F) main_arg4 main_arg5 main_arg6 main_arg7 main_arg8 main_arg9 main_v13 main_v16
-- ==== Kernel.lean ====
abbrev S10000x256 : Shape := ⟨2, ![10000, 256]⟩
abbrev S256x256 : Shape := ⟨2, ![256, 256]⟩
abbrev S256 : Shape := ⟨1, ![256]⟩
abbrev S256x10 : Shape := ⟨2, ![256, 10]⟩
abbrev S10 : Shape := ⟨1, ![10]⟩
abbrev S2x320000 : Shape := ⟨2, ![2, 320000]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S10240x10240 : Shape := ⟨2, ![10240, 10240]⟩
abbrev S330000x2 : Shape := ⟨2, ![330000, 2]⟩
abbrev S10240x256 : Shape := ⟨2, ![10240, 256]⟩
abbrev S1024x256 : Shape := ⟨2, ![1024, 256]⟩
abbrev S1x256 : Shape := ⟨2, ![1, 256]⟩
abbrev S512x10240 : Shape := ⟨2, ![512, 10240]⟩
abbrev S512x256 : Shape := ⟨2, ![512, 256]⟩
abbrev S64x256 : Shape := ⟨2, ![64, 256]⟩
abbrev S10000x1 : Shape := ⟨2, ![10000, 1]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 123
  | .vmem => 33
  | .smem => 0
  | _ => 0

abbrev bufTy : (tb : Table) → Fin (tcTables nBuf tb) → BufTy
  | .hbm, ⟨0, _⟩ => ⟨S10000x256, .f32⟩
  | .hbm, ⟨1, _⟩ => ⟨S256x256, .f32⟩
  | .hbm, ⟨2, _⟩ => ⟨S256, .f32⟩
  | .hbm, ⟨3, _⟩ => ⟨S256x256, .f32⟩
  | .hbm, ⟨4, _⟩ => ⟨S256, .f32⟩
  | .hbm, ⟨5, _⟩ => ⟨S256x256, .f32⟩
  | .hbm, ⟨6, _⟩ => ⟨S256, .f32⟩
  | .hbm, ⟨7, _⟩ => ⟨S256x10, .f32⟩
  | .hbm, ⟨8, _⟩ => ⟨S10, .f32⟩
  | .hbm, ⟨9, _⟩ => ⟨S2x320000, .i32⟩
  | .hbm, ⟨10, _⟩ => ⟨S10000, .i32⟩
  | .hbm, ⟨11, _⟩ => ⟨S1x320000, .i32⟩
  | .hbm, ⟨12, _⟩ => ⟨S320000, .i32⟩
  | .hbm, ⟨13, _⟩ => ⟨S1x320000, .i32⟩
  | .hbm, ⟨14, _⟩ => ⟨S320000, .i32⟩
  | .hbm, ⟨15, _⟩ => ⟨S10000, .i32⟩
  | .hbm, ⟨16, _⟩ => ⟨S330000, .i32⟩
  | .hbm, ⟨17, _⟩ => ⟨S330000, .i32⟩
  | .hbm, ⟨18, _⟩ => ⟨S_, .f32⟩
  | .hbm, ⟨19, _⟩ => ⟨S330000, .f32⟩
  | .hbm, ⟨20, _⟩ => ⟨S_, .f32⟩
  | .hbm, ⟨21, _⟩ => ⟨S10000, .f32⟩
  | .hbm, ⟨22, _⟩ => ⟨S330000x1, .i32⟩
  | .hbm, ⟨23, _⟩ => ⟨S10000, .f32⟩
  | .hbm, ⟨24, _⟩ => ⟨S_, .f32⟩
  | .hbm, ⟨25, _⟩ => ⟨S10000, .f32⟩
  | .hbm, ⟨26, _⟩ => ⟨S10000, .i1⟩
  | .hbm, ⟨27, _⟩ => ⟨S_, .f32⟩
  | .hbm, ⟨28, _⟩ => ⟨S10000, .f32⟩
  | .hbm, ⟨29, _⟩ => ⟨S10000, .f32⟩
  | .hbm, ⟨30, _⟩ => ⟨S10000, .f32⟩
  | .hbm, ⟨31, _⟩ => ⟨S_, .f32⟩
  | .hbm, ⟨32, _⟩ => ⟨S_, .f32⟩
  | .hbm, ⟨33, _⟩ => ⟨S10000, .f32⟩
  | .hbm, ⟨34, _⟩ => ⟨S10000, .f32⟩
  | .hbm, ⟨35, _⟩ => ⟨S_, .i32⟩
  | .hbm, ⟨36, _⟩ => ⟨S330000, .i32⟩
  | .hbm, ⟨37, _⟩ => ⟨S330000, .i1⟩
  | .hbm, ⟨38, _⟩ => ⟨S_, .i32⟩
  | .hbm, ⟨39, _⟩ => ⟨S330000, .i32⟩
  | .hbm, ⟨40, _⟩ => ⟨S330000, .i32⟩
  | .hbm, ⟨41, _⟩ => ⟨S330000, .i32⟩
  | .hbm, ⟨42, _⟩ => ⟨S330000x1, .i32⟩
  | .hbm, ⟨43, _⟩ => ⟨S330000, .f32⟩
  | .hbm, ⟨44, _⟩ => ⟨S_, .i32⟩
  | .hbm, ⟨45, _⟩ => ⟨S330000, .i32⟩
  | .hbm, ⟨46, _⟩ => ⟨S330000, .i1⟩
  | .hbm, ⟨47, _⟩ => ⟨S_, .i32⟩
  | .hbm, ⟨48, _⟩ => ⟨S330000, .i32⟩
  | .hbm, ⟨49, _⟩ => ⟨S330000, .i32⟩
  | .hbm, ⟨50, _⟩ => ⟨S330000, .i32⟩
  | .hbm, ⟨51, _⟩ => ⟨S330000x1, .i32⟩
  | .hbm, ⟨52, _⟩ => ⟨S330000, .f32⟩
  | .hbm, ⟨53, _⟩ => ⟨S330000, .f32⟩
  | .hbm, ⟨54, _⟩ => ⟨S_, .f32⟩
  | .hbm, ⟨55, _⟩ => ⟨S10240x10240, .f32⟩
  | .hbm, ⟨56, _⟩ => ⟨S_, .i32⟩
  | .hbm, ⟨57, _⟩ => ⟨S330000, .i32⟩
  | .hbm, ⟨58, _⟩ => ⟨S330000, .i1⟩
  | .hbm, ⟨59, _⟩ => ⟨S_, .i32⟩
  | .hbm, ⟨60, _⟩ => ⟨S330000, .i32⟩
  | .hbm, ⟨61, _⟩ => ⟨S330000, .i32⟩
  | .hbm, ⟨62, _⟩ => ⟨S330000, .i32⟩
  | .hbm, ⟨63, _⟩ => ⟨S_, .i32⟩
  | .hbm, ⟨64, _⟩ => ⟨S330000, .i32⟩
  | .hbm, ⟨65, _⟩ => ⟨S330000, .i1⟩
  | .hbm, ⟨66, _⟩ => ⟨S_, .i32⟩
  | .hbm, ⟨67, _⟩ => ⟨S330000, .i32⟩
  | .hbm, ⟨68, _⟩ => ⟨S330000, .i32⟩
  | .hbm, ⟨69, _⟩ => ⟨S330000, .i32⟩
  | .hbm, ⟨70, _⟩ => ⟨S330000x1, .i32⟩
  | .hbm, ⟨71, _⟩ => ⟨S330000x1, .i32⟩
  | .hbm, ⟨72, _⟩ => ⟨S330000x2, .i32⟩
  | .hbm, ⟨73, _⟩ => ⟨S10240x10240, .f32⟩
  | .hbm, ⟨74, _⟩ => ⟨S10240x10240, .bf16⟩
  | .hbm, ⟨75, _⟩ => ⟨S_, .i32⟩
  | .hbm, ⟨76, _⟩ => ⟨S_, .f32⟩
  | .hbm, ⟨77, _⟩ => ⟨S10240x256, .f32⟩
  | .hbm, ⟨78, _⟩ => ⟨S10240x256, .bf16⟩
  | .hbm, ⟨79, _⟩ => ⟨S1x256, .f32⟩
  | .hbm, ⟨80, _⟩ => ⟨S10240x256, .f32⟩
  | .hbm, ⟨81, _⟩ => ⟨S10240x256, .bf16⟩
  | .hbm, ⟨82, _⟩ => ⟨S1x256, .f32⟩
  | .hbm, ⟨83, _⟩ => ⟨S10240x256, .f32⟩
  | .hbm, ⟨84, _⟩ => ⟨S10240x256, .bf16⟩
  | .hbm, ⟨85, _⟩ => ⟨S1x256, .f32⟩
  | .hbm, ⟨86, _⟩ => ⟨S10240x256, .f32⟩
  | .hbm, ⟨87, _⟩ => ⟨S10000x256, .f32⟩
  | .hbm, ⟨88, _⟩ => ⟨S_, .f32⟩
  | .hbm, ⟨89, _⟩ => ⟨S64x256, .f32⟩
  | .hbm, ⟨90, _⟩ => ⟨S10000x1, .i32⟩
  | .hbm, ⟨91, _⟩ => ⟨S64x256, .f32⟩
  | .hbm, ⟨92, _⟩ => ⟨S_, .f32⟩
  | .hbm, ⟨93, _⟩ => ⟨S10000, .f32⟩
  | .hbm, ⟨94, _⟩ => ⟨S_, .f32⟩
  | .hbm, ⟨95, _⟩ => ⟨S64, .f32⟩
  | .hbm, ⟨96, _⟩ => ⟨S10000x1, .i32⟩
  | .hbm, ⟨97, _⟩ => ⟨S64, .f32⟩
  | .hbm, ⟨98, _⟩ => ⟨S_, .f32⟩
  | .hbm, ⟨99, _⟩ => ⟨S64, .f32⟩
  | .hbm, ⟨100, _⟩ => ⟨S64, .f32⟩
  | .hbm, ⟨101, _⟩ => ⟨S64x1, .f32⟩
  | .hbm, ⟨102, _⟩ => ⟨S64x256, .f32⟩
  | .hbm, ⟨103, _⟩ => ⟨S64x256, .f32⟩
  | .hbm, ⟨104, _⟩ => ⟨S64x10, .f32⟩
  | .hbm, ⟨105, _⟩ => ⟨S1x10, .f32⟩
  | .hbm, ⟨106, _⟩ => ⟨S64x10, .f32⟩
  | .hbm, ⟨107, _⟩ => ⟨S64x10, .f32⟩
  | .hbm, ⟨108, _⟩ => ⟨S_, .f32⟩
  | .hbm, ⟨109, _⟩ => ⟨S64, .f32⟩
  | .hbm, ⟨110, _⟩ => ⟨S_, .f32⟩
  | .hbm, ⟨111, _⟩ => ⟨S64, .f32⟩
  | .hbm, ⟨112, _⟩ => ⟨S64, .f32⟩
  | .hbm, ⟨113, _⟩ => ⟨S64x1, .f32⟩
  | .hbm, ⟨114, _⟩ => ⟨S64x10, .f32⟩
  | .hbm, ⟨115, _⟩ => ⟨S64x10, .f32⟩
  | .hbm, ⟨116, _⟩ => ⟨S64x10, .f32⟩
  | .hbm, ⟨117, _⟩ => ⟨S_, .f32⟩
  | .hbm, ⟨118, _⟩ => ⟨S64, .f32⟩
  | .hbm, ⟨119, _⟩ => ⟨S64x1, .f32⟩
  | .hbm, ⟨120, _⟩ => ⟨S64x1, .f32⟩
  | .hbm, ⟨121, _⟩ => ⟨S64x10, .f32⟩
  | .hbm, ⟨122, _⟩ => ⟨S64x10, .f32⟩
  | .local _ .vmem, ⟨0, _⟩ => ⟨S1024x256, .f32⟩
  | .local _ .vmem, ⟨1, _⟩ => ⟨S1024x256, .f32⟩
  | .local _ .vmem, ⟨2, _⟩ => ⟨S256x256, .f32⟩
  | .local _ .vmem, ⟨3, _⟩ => ⟨S1024x256, .bf16⟩
  | .local _ .vmem, ⟨4, _⟩ => ⟨S1024x256, .bf16⟩
  | .local _ .vmem, ⟨5, _⟩ => ⟨S512x10240, .bf16⟩
  | .local _ .vmem, ⟨6, _⟩ => ⟨S512x10240, .bf16⟩
  | .local _ .vmem, ⟨7, _⟩ => ⟨S10240x256, .bf16⟩
  | .local _ .vmem, ⟨8, _⟩ => ⟨S1x256, .f32⟩
  | .local _ .vmem, ⟨9, _⟩ => ⟨S512x256, .f32⟩
  | .local _ .vmem, ⟨10, _⟩ => ⟨S512x256, .f32⟩
  | .local _ .vmem, ⟨11, _⟩ => ⟨S1024x256, .f32⟩
  | .local _ .vmem, ⟨12, _⟩ => ⟨S1024x256, .f32⟩
  | .local _ .vmem, ⟨13, _⟩ => ⟨S256x256, .f32⟩
  | .local _ .vmem, ⟨14, _⟩ => ⟨S1024x256, .bf16⟩
  | .local _ .vmem, ⟨15, _⟩ => ⟨S1024x256, .bf16⟩
  | .local _ .vmem, ⟨16, _⟩ => ⟨S512x10240, .bf16⟩
  | .local _ .vmem, ⟨17, _⟩ => ⟨S512x10240, .bf16⟩
  | .local _ .vmem, ⟨18, _⟩ => ⟨S10240x256, .bf16⟩
  | .local _ .vmem, ⟨19, _⟩ => ⟨S1x256, .f32⟩
  | .local _ .vmem, ⟨20, _⟩ => ⟨S512x256, .f32⟩
  | .local _ .vmem, ⟨21, _⟩ => ⟨S512x256, .f32⟩
  | .local _ .vmem, ⟨22, _⟩ => ⟨S1024x256, .f32⟩
  | .local _ .vmem, ⟨23, _⟩ => ⟨S1024x256, .f32⟩
  | .local _ .vmem, ⟨24, _⟩ => ⟨S256x256, .f32⟩
  | .local _ .vmem, ⟨25, _⟩ => ⟨S1024x256, .bf16⟩
  | .local _ .vmem, ⟨26, _⟩ => ⟨S1024x256, .bf16⟩
  | .local _ .vmem, ⟨27, _⟩ => ⟨S512x10240, .bf16⟩
  | .local _ .vmem, ⟨28, _⟩ => ⟨S512x10240, .bf16⟩
  | .local _ .vmem, ⟨29, _⟩ => ⟨S10240x256, .bf16⟩
  | .local _ .vmem, ⟨30, _⟩ => ⟨S1x256, .f32⟩
  | .local _ .vmem, ⟨31, _⟩ => ⟨S512x256, .f32⟩
  | .local _ .vmem, ⟨32, _⟩ => ⟨S512x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 33 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | _ => false

abbrev sig : RefSig :=
  ofTc nBuf bufTy 0 33 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_cst : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_1 : Ref sig .tc := ⟨.hbm, 24, rfl⟩
abbrev main_v11 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v16 : Ref sig .tc := ⟨.hbm, 34, rfl⟩
abbrev main_c : Ref sig .tc := ⟨.hbm, 35, rfl⟩
abbrev main_v17 : Ref sig .tc := ⟨.hbm, 36, rfl⟩
abbrev main_v18 : Ref sig .tc := ⟨.hbm, 37, rfl⟩
abbrev main_c_4 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_c_5 : Ref sig .tc := ⟨.hbm, 44, rfl⟩
abbrev main_v24 : Ref sig .tc := ⟨.hbm, 45, rfl⟩
abbrev main_v25 : Ref sig .tc := ⟨.hbm, 46, rfl⟩
abbrev main_c_6 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_7 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_c_9 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_c_10 : Ref sig .tc := ⟨.hbm, 63, rfl⟩
abbrev main_v38 : Ref sig .tc := ⟨.hbm, 64, rfl⟩
abbrev main_v39 : Ref sig .tc := ⟨.hbm, 65, rfl⟩
abbrev main_c_11 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_v45 : Ref sig .tc := ⟨.hbm, 72, rfl⟩
abbrev main_v46 : Ref sig .tc := ⟨.hbm, 73, rfl⟩
abbrev main_v47 : Ref sig .tc := ⟨.hbm, 74, rfl⟩
abbrev main_c_12 : Ref sig .tc := ⟨.hbm, 75, rfl⟩
abbrev main_call1_v0 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_cst_13 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_cst_14 : Ref sig .tc := ⟨.hbm, 92, rfl⟩
abbrev main_v62 : Ref sig .tc := ⟨.hbm, 93, rfl⟩
abbrev main_cst_15 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_cst_16 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_call2_cst : Ref sig .tc := ⟨.hbm, 108, rfl⟩
abbrev main_call2_v0 : Ref sig .tc := ⟨.hbm, 109, rfl⟩
abbrev main_call2_cst_0 : Ref sig .tc := ⟨.hbm, 110, rfl⟩
abbrev main_call2_v1 : Ref sig .tc := ⟨.hbm, 111, rfl⟩
abbrev main_call2_v2 : Ref sig .tc := ⟨.hbm, 112, rfl⟩
abbrev main_call2_v3 : Ref sig .tc := ⟨.hbm, 113, rfl⟩
abbrev main_call2_v4 : Ref sig .tc := ⟨.hbm, 114, rfl⟩
abbrev main_call2_v5 : Ref sig .tc := ⟨.hbm, 115, rfl⟩
abbrev main_call2_v6 : Ref sig .tc := ⟨.hbm, 116, rfl⟩
abbrev main_call2_cst_1 : Ref sig .tc := ⟨.hbm, 117, rfl⟩
abbrev main_call2_v7 : Ref sig .tc := ⟨.hbm, 118, rfl⟩
abbrev main_call2_v8 : Ref sig .tc := ⟨.hbm, 119, rfl⟩
abbrev main_call2_v9 : Ref sig .tc := ⟨.hbm, 120, rfl⟩
abbrev main_call2_v10 : Ref sig .tc := ⟨.hbm, 121, rfl⟩
abbrev main_v75 : Ref sig .tc := ⟨.hbm, 122, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg3_0 : Ref sig .tc := ⟨.vmem, 20, rfl⟩
abbrev cc3_stg3_1 : Ref sig .tc := ⟨.vmem, 21, rfl⟩
abbrev cc4_stg0_0 : Ref sig .tc := ⟨.vmem, 22, rfl⟩
abbrev cc4_stg0_1 : Ref sig .tc := ⟨.vmem, 23, rfl⟩
abbrev cc4_stg1_0 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg3_0 : Ref sig .tc := ⟨.vmem, 31, rfl⟩
abbrev cc5_stg3_1 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem3_0 : DmaSem sig := 20
abbrev cc3_sem3_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem3_1 : DmaSem sig := 32

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x10240 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10240x256 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S512x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S1024x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S1024x256 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x10240 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10240x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x256 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S512x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S1024x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S1024x256 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S512x10240 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S10240x256 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S512x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S10000_S330000_d0 : Shape.Concatenates [S320000, S10000] S330000 0
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S_S10240x10240 : S_.BroadcastsInDim S10240x10240 (![] : Fin 0 → Fin S10240x10240.rank)
  concatenates_S330000x1_S330000x1_S330000x2_d1 : Shape.Concatenates [S330000x1, S330000x1] S330000x2 1
  bitsLt_bf16_f32 : FTy.bits .bf16 < FTy.bits .f32
  pads_S10000x256_S10240x256_02400_000 : S10000x256.Pads (![0, 0] : Fin 2 → Nat) ![240, 0] ![0, 0] S10240x256
  h_S_ : 0 < S_.numel
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S256x256_S256x256_0_0 : ∀ a, (![0, 0] : Fin 2 → Nat) a + S256x256.size a ≤ S256x256.size a
  h_S256x256 : 0 < S256x256.numel
  packedbf16_S1024x256_S1024x256_0_0 : (Rect.unit (s := S1024x256) ![0, 0] S1024x256.size inb_S1024x256_S1024x256_0_0).PackedRows (EltTy.packing .bf16)
  shapeCasts_S256_S1x256 : S256.ShapeCasts S1x256
  inb_S512x10240_S512x10240_0_0 : ∀ a, (![0, 0] : Fin 2 → Nat) a + S512x10240.size a ≤ S512x10240.size a
  h_S512x10240 : 0 < S512x10240.numel
  shapeCasts_S512x10240_S512x10240 : S512x10240.ShapeCasts S512x10240
  inb_S10240x256_S10240x256_0_0 : ∀ a, (![0, 0] : Fin 2 → Nat) a + S10240x256.size a ≤ S10240x256.size a
  h_S10240x256 : 0 < S10240x256.numel
  shapeCasts_S10240x256_S10240x256 : S10240x256.ShapeCasts S10240x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S512x256_S512x256_0_0 : ∀ a, (![0, 0] : Fin 2 → Nat) a + S512x256.size a ≤ S512x256.size a
  h_S512x256 : 0 < S512x256.numel
  slices_S10240x256_S10000x256_0_0 : S10240x256.Slices ![0, 0] S10000x256
  bcast_S_S64x256 : S_.BroadcastsInDim S64x256 (![] : Fin 0 → Fin S64x256.rank)
  bcast_S10000_S10000x1_0 : S10000.BroadcastsInDim S10000x1 (![0] : Fin 1 → Fin S10000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S64_d1 : S64x10.ReducesTo [1] S64
  bcast_S64x1_S64x10_0_1 : S64x1.BroadcastsInDim S64x10 (![0, 1] : Fin 2 → Fin S64x10.rank)
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  scatter_S10240x10240_S330000x2_S330000_n_01_01_1_wf : ScatterDims.WF S10240x10240 S330000x2 S330000 [] [0, 1] [0, 1] 1
  dot_S1024x256_S256x256_S1024x256_1_0_0_1_n_n_wf : DotDims.WF S1024x256 S256x256 S1024x256 [1] [0] [0] [1] [] []
  dot_S512x10240_S10240x256_S512x256_1_0_0_1_n_n_wf : DotDims.WF S512x10240 S10240x256 S512x256 [1] [0] [0] [1] [] []
  scatter_S64x256_S10000x1_S10000x256_1_0_0_1_wf : ScatterDims.WF S64x256 S10000x1 S10000x256 [1] [0] [0] 1
  scatter_S64_S10000x1_S10000_n_0_0_1_wf : ScatterDims.WF S64 S10000x1 S10000 [] [0] [0] 1
  dot_S64x256_S256x10_S64x10_1_0_0_1_n_n_wf : DotDims.WF S64x256 S256x10 S64x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S10240x256.size a
  hwx0_0 : ∀ i : grid0.Coords, EltTy.bits .f32 = 32 ∨ (Rect.block (s := S10240x256) S1024x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S10240x256.size a
  hwx0_2 : ∀ i : grid0.Coords, EltTy.bits .bf16 = 32 ∨ (Rect.block (s := S10240x256) S1024x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x10240.size a ≤ S10240x10240.size a
  hwx1_0 : ∀ i : grid1.Coords, EltTy.bits .bf16 = 32 ∨ (Rect.block (s := S10240x10240) S512x10240.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10240x256.size a ≤ S10240x256.size a
  hwx1_1 : ∀ i : grid1.Coords, EltTy.bits .bf16 = 32 ∨ (Rect.block (s := S10240x256) S10240x256.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x256.size a ≤ S1x256.size a
  hwx1_2 : ∀ i : grid1.Coords, EltTy.bits .f32 = 32 ∨ (Rect.block (s := S1x256) S1x256.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x256.size a ≤ S10240x256.size a
  hwx1_3 : ∀ i : grid1.Coords, EltTy.bits .f32 = 32 ∨ (Rect.block (s := S10240x256) S512x256.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1024x256.size a ≤ S10240x256.size a
  hwx2_0 : ∀ i : grid2.Coords, EltTy.bits .f32 = 32 ∨ (Rect.block (s := S10240x256) S1024x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S1024x256.size a ≤ S10240x256.size a
  hwx2_2 : ∀ i : grid2.Coords, EltTy.bits .bf16 = 32 ∨ (Rect.block (s := S10240x256) S1024x256.size (cc2_transform_2 i) (hinb2_2 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S512x10240.size a ≤ S10240x10240.size a
  hwx3_0 : ∀ i : grid3.Coords, EltTy.bits .bf16 = 32 ∨ (Rect.block (s := S10240x10240) S512x10240.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10240x256.size a ≤ S10240x256.size a
  hwx3_1 : ∀ i : grid3.Coords, EltTy.bits .bf16 = 32 ∨ (Rect.block (s := S10240x256) S10240x256.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x256.size a ≤ S1x256.size a
  hwx3_2 : ∀ i : grid3.Coords, EltTy.bits .f32 = 32 ∨ (Rect.block (s := S1x256) S1x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S512x256.size a ≤ S10240x256.size a
  hwx3_3 : ∀ i : grid3.Coords, EltTy.bits .f32 = 32 ∨ (Rect.block (s := S10240x256) S512x256.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S1024x256.size a ≤ S10240x256.size a
  hwx4_0 : ∀ i : grid4.Coords, EltTy.bits .f32 = 32 ∨ (Rect.block (s := S10240x256) S1024x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S1024x256.size a ≤ S10240x256.size a
  hwx4_2 : ∀ i : grid4.Coords, EltTy.bits .bf16 = 32 ∨ (Rect.block (s := S10240x256) S1024x256.size (cc4_transform_2 i) (hinb4_2 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S512x10240.size a ≤ S10240x10240.size a
  hwx5_0 : ∀ i : grid5.Coords, EltTy.bits .bf16 = 32 ∨ (Rect.block (s := S10240x10240) S512x10240.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S10240x256.size a ≤ S10240x256.size a
  hwx5_1 : ∀ i : grid5.Coords, EltTy.bits .bf16 = 32 ∨ (Rect.block (s := S10240x256) S10240x256.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S512x256.size a ≤ S10240x256.size a
  hwx5_3 : ∀ i : grid5.Coords, EltTy.bits .f32 = 32 ∨ (Rect.block (s := S10240x256) S512x256.size (cc5_transform_3 i) (hinb5_3 i)).WholeWords (EltTy.packing .f32)

variable [Facts₀]

def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def scatter_S10240x10240_S330000x2_S330000_n_01_01_1 : ScatterDims S10240x10240 S330000x2 S330000 where
  updateWindowDims := []
  insertedWindowDims := [0, 1]
  scatterDimsToOperandDims := [0, 1]
  indexVectorDim := 1
  wf := scatter_S10240x10240_S330000x2_S330000_n_01_01_1_wf
def dot_S1024x256_S256x256_S1024x256_1_0_0_1_n_n : DotDims S1024x256 S256x256 S1024x256 where
  lhsContracting := [1]
  rhsContracting := [0]
  lhsNonContracting := [0]
  rhsNonContracting := [1]
  lhsBatch := []
  rhsBatch := []
  wf := dot_S1024x256_S256x256_S1024x256_1_0_0_1_n_n_wf
def dot_S512x10240_S10240x256_S512x256_1_0_0_1_n_n : DotDims S512x10240 S10240x256 S512x256 where
  lhsContracting := [1]
  rhsContracting := [0]
  lhsNonContracting := [0]
  rhsNonContracting := [1]
  lhsBatch := []
  rhsBatch := []
  wf := dot_S512x10240_S10240x256_S512x256_1_0_0_1_n_n_wf
def scatter_S64x256_S10000x1_S10000x256_1_0_0_1 : ScatterDims S64x256 S10000x1 S10000x256 where
  updateWindowDims := [1]
  insertedWindowDims := [0]
  scatterDimsToOperandDims := [0]
  indexVectorDim := 1
  wf := scatter_S64x256_S10000x1_S10000x256_1_0_0_1_wf
def scatter_S64_S10000x1_S10000_n_0_0_1 : ScatterDims S64 S10000x1 S10000 where
  updateWindowDims := []
  insertedWindowDims := [0]
  scatterDimsToOperandDims := [0]
  indexVectorDim := 1
  wf := scatter_S64_S10000x1_S10000_n_0_0_1_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

abbrev win0_0 : Pipeline.Window sig grid0 :=
  Pipeline.Window.ofSpec (Memref.whole main_v48) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v49) S1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S512x10240.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S10240x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v51) S512x256.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v51) S1024x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg3) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v52) S1024x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v47) S512x10240.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v52) S10240x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v53) S1x256.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v54) S512x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v54) S1024x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg5) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v55) S1024x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v47) S512x10240.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v55) S10240x256.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v56) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v57) S512x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

class Facts : Prop extends Facts₀ where

variable [Facts]
-- ==== ReferenceIdeal.lean ====
abbrev S10000x256 : Shape := ⟨2, ![10000, 256]⟩
abbrev S256x256 : Shape := ⟨2, ![256, 256]⟩
abbrev S256 : Shape := ⟨1, ![256]⟩
abbrev S256x10 : Shape := ⟨2, ![256, 10]⟩
abbrev S10 : Shape := ⟨1, ![10]⟩
abbrev S2x320000 : Shape := ⟨2, ![2, 320000]⟩
abbrev S10000 : Shape := ⟨1, ![10000]⟩
abbrev S1x320000 : Shape := ⟨2, ![1, 320000]⟩
abbrev S320000 : Shape := ⟨1, ![320000]⟩
abbrev S330000 : Shape := ⟨1, ![330000]⟩
abbrev S_ : Shape := ⟨0, ![]⟩
abbrev S330000x1 : Shape := ⟨2, ![330000, 1]⟩
abbrev S330000x256 : Shape := ⟨2, ![330000, 256]⟩
abbrev S1x256 : Shape := ⟨2, ![1, 256]⟩
abbrev S64x256 : Shape := ⟨2, ![64, 256]⟩
abbrev S10000x1 : Shape := ⟨2, ![10000, 1]⟩
abbrev S64 : Shape := ⟨1, ![64]⟩
abbrev S64x1 : Shape := ⟨2, ![64, 1]⟩
abbrev S64x10 : Shape := ⟨2, ![64, 10]⟩
abbrev S1x10 : Shape := ⟨2, ![1, 10]⟩

abbrev nBuf : Space → Nat
  | .hbm => 236
  | .vmem => 0
  | .smem => 0
  | _ => 0

abbrev hbmTy0_0 (i : Nat) : BufTy := match i % 128 with
  | 0 => ⟨S10000x256, .f32⟩
  | 1 => ⟨S256x256, .f32⟩
  | 2 => ⟨S256, .f32⟩
  | 3 => ⟨S256x256, .f32⟩
  | 4 => ⟨S256, .f32⟩
  | 5 => ⟨S256x256, .f32⟩
  | 6 => ⟨S256, .f32⟩
  | 7 => ⟨S256x10, .f32⟩
  | 8 => ⟨S10, .f32⟩
  | 9 => ⟨S2x320000, .i32⟩
  | 10 => ⟨S10000, .i32⟩
  | 11 => ⟨S1x320000, .i32⟩
  | 12 => ⟨S320000, .i32⟩
  | 13 => ⟨S1x320000, .i32⟩
  | 14 => ⟨S320000, .i32⟩
  | 15 => ⟨S10000x256, .f32⟩
  | 16 => ⟨S10000, .i32⟩
  | 17 => ⟨S330000, .i32⟩
  | 18 => ⟨S330000, .i32⟩
  | 19 => ⟨S_, .f32⟩
  | 20 => ⟨S330000, .f32⟩
  | 21 => ⟨S_, .f32⟩
  | 22 => ⟨S10000, .f32⟩
  | 23 => ⟨S330000x1, .i32⟩
  | 24 => ⟨S10000, .f32⟩
  | 25 => ⟨S_, .f32⟩
  | 26 => ⟨S10000, .f32⟩
  | 27 => ⟨S10000, .i1⟩
  | 28 => ⟨S_, .f32⟩
  | 29 => ⟨S10000, .f32⟩
  | 30 => ⟨S10000, .f32⟩
  | 31 => ⟨S10000, .f32⟩
  | 32 => ⟨S_, .f32⟩
  | 33 => ⟨S_, .f32⟩
  | 34 => ⟨S10000, .f32⟩
  | 35 => ⟨S10000, .f32⟩
  | 36 => ⟨S_, .i32⟩
  | 37 => ⟨S330000, .i32⟩
  | 38 => ⟨S330000, .i1⟩
  | 39 => ⟨S_, .i32⟩
  | 40 => ⟨S330000, .i32⟩
  | 41 => ⟨S330000, .i32⟩
  | 42 => ⟨S330000, .i32⟩
  | 43 => ⟨S330000x1, .i32⟩
  | 44 => ⟨S330000, .f32⟩
  | 45 => ⟨S_, .i32⟩
  | 46 => ⟨S330000, .i32⟩
  | 47 => ⟨S330000, .i1⟩
  | 48 => ⟨S_, .i32⟩
  | 49 => ⟨S330000, .i32⟩
  | 50 => ⟨S330000, .i32⟩
  | 51 => ⟨S330000, .i32⟩
  | 52 => ⟨S330000x1, .i32⟩
  | 53 => ⟨S330000, .f32⟩
  | 54 => ⟨S330000, .f32⟩
  | 55 => ⟨S_, .i32⟩
  | 56 => ⟨S330000, .i32⟩
  | 57 => ⟨S330000, .i1⟩
  | 58 => ⟨S_, .i32⟩
  | 59 => ⟨S330000, .i32⟩
  | 60 => ⟨S330000, .i32⟩
  | 61 => ⟨S330000, .i32⟩
  | 62 => ⟨S330000x1, .i32⟩
  | 63 => ⟨S330000x256, .f32⟩
  | 64 => ⟨S330000x1, .f32⟩
  | 65 => ⟨S330000x256, .f32⟩
  | 66 => ⟨S330000x256, .f32⟩
  | 67 => ⟨S_, .f32⟩
  | 68 => ⟨S10000x256, .f32⟩
  | 69 => ⟨S330000x1, .i32⟩
  | 70 => ⟨S10000x256, .f32⟩
  | 71 => ⟨S1x256, .f32⟩
  | 72 => ⟨S10000x256, .f32⟩
  | 73 => ⟨S10000x256, .f32⟩
  | 74 => ⟨S_, .f32⟩
  | 75 => ⟨S10000x256, .f32⟩
  | 76 => ⟨S10000x256, .f32⟩
  | 77 => ⟨S10000x256, .f32⟩
  | 78 => ⟨S10000, .i32⟩
  | 79 => ⟨S330000, .i32⟩
  | 80 => ⟨S330000, .i32⟩
  | 81 => ⟨S_, .f32⟩
  | 82 => ⟨S330000, .f32⟩
  | 83 => ⟨S_, .f32⟩
  | 84 => ⟨S10000, .f32⟩
  | 85 => ⟨S330000x1, .i32⟩
  | 86 => ⟨S10000, .f32⟩
  | 87 => ⟨S_, .f32⟩
  | 88 => ⟨S10000, .f32⟩
  | 89 => ⟨S10000, .i1⟩
  | 90 => ⟨S_, .f32⟩
  | 91 => ⟨S10000, .f32⟩
  | 92 => ⟨S10000, .f32⟩
  | 93 => ⟨S10000, .f32⟩
  | 94 => ⟨S_, .f32⟩
  | 95 => ⟨S_, .f32⟩
  | 96 => ⟨S10000, .f32⟩
  | 97 => ⟨S10000, .f32⟩
  | 98 => ⟨S_, .i32⟩
  | 99 => ⟨S330000, .i32⟩
  | 100 => ⟨S330000, .i1⟩
  | 101 => ⟨S_, .i32⟩
  | 102 => ⟨S330000, .i32⟩
  | 103 => ⟨S330000, .i32⟩
  | 104 => ⟨S330000, .i32⟩
  | 105 => ⟨S330000x1, .i32⟩
  | 106 => ⟨S330000, .f32⟩
  | 107 => ⟨S_, .i32⟩
  | 108 => ⟨S330000, .i32⟩
  | 109 => ⟨S330000, .i1⟩
  | 110 => ⟨S_, .i32⟩
  | 111 => ⟨S330000, .i32⟩
  | 112 => ⟨S330000, .i32⟩
  | 113 => ⟨S330000, .i32⟩
  | 114 => ⟨S330000x1, .i32⟩
  | 115 => ⟨S330000, .f32⟩
  | 116 => ⟨S330000, .f32⟩
  | 117 => ⟨S_, .i32⟩
  | 118 => ⟨S330000, .i32⟩
  | 119 => ⟨S330000, .i1⟩
  | 120 => ⟨S_, .i32⟩
  | 121 => ⟨S330000, .i32⟩
  | 122 => ⟨S330000, .i32⟩
  | 123 => ⟨S330000, .i32⟩
  | 124 => ⟨S330000x1, .i32⟩
  | 125 => ⟨S330000x256, .f32⟩
  | 126 => ⟨S330000x1, .f32⟩
  | 127 => ⟨S330000x256, .f32⟩
  | _ => ⟨S10000x256, .f32⟩

abbrev hbmTy0_1 (i : Nat) : BufTy := match i % 128 with
  | 0 => ⟨S330000x256, .f32⟩
  | 1 => ⟨S_, .f32⟩
  | 2 => ⟨S10000x256, .f32⟩
  | 3 => ⟨S330000x1, .i32⟩
  | 4 => ⟨S10000x256, .f32⟩
  | 5 => ⟨S1x256, .f32⟩
  | 6 => ⟨S10000x256, .f32⟩
  | 7 => ⟨S10000x256, .f32⟩
  | 8 => ⟨S_, .f32⟩
  | 9 => ⟨S10000x256, .f32⟩
  | 10 => ⟨S10000x256, .f32⟩
  | 11 => ⟨S10000x256, .f32⟩
  | 12 => ⟨S10000, .i32⟩
  | 13 => ⟨S330000, .i32⟩
  | 14 => ⟨S330000, .i32⟩
  | 15 => ⟨S_, .f32⟩
  | 16 => ⟨S330000, .f32⟩
  | 17 => ⟨S_, .f32⟩
  | 18 => ⟨S10000, .f32⟩
  | 19 => ⟨S330000x1, .i32⟩
  | 20 => ⟨S10000, .f32⟩
  | 21 => ⟨S_, .f32⟩
  | 22 => ⟨S10000, .f32⟩
  | 23 => ⟨S10000, .i1⟩
  | 24 => ⟨S_, .f32⟩
  | 25 => ⟨S10000, .f32⟩
  | 26 => ⟨S10000, .f32⟩
  | 27 => ⟨S10000, .f32⟩
  | 28 => ⟨S_, .f32⟩
  | 29 => ⟨S_, .f32⟩
  | 30 => ⟨S10000, .f32⟩
  | 31 => ⟨S10000, .f32⟩
  | 32 => ⟨S_, .i32⟩
  | 33 => ⟨S330000, .i32⟩
  | 34 => ⟨S330000, .i1⟩
  | 35 => ⟨S_, .i32⟩
  | 36 => ⟨S330000, .i32⟩
  | 37 => ⟨S330000, .i32⟩
  | 38 => ⟨S330000, .i32⟩
  | 39 => ⟨S330000x1, .i32⟩
  | 40 => ⟨S330000, .f32⟩
  | 41 => ⟨S_, .i32⟩
  | 42 => ⟨S330000, .i32⟩
  | 43 => ⟨S330000, .i1⟩
  | 44 => ⟨S_, .i32⟩
  | 45 => ⟨S330000, .i32⟩
  | 46 => ⟨S330000, .i32⟩
  | 47 => ⟨S330000, .i32⟩
  | 48 => ⟨S330000x1, .i32⟩
  | 49 => ⟨S330000, .f32⟩
  | 50 => ⟨S330000, .f32⟩
  | 51 => ⟨S_, .i32⟩
  | 52 => ⟨S330000, .i32⟩
  | 53 => ⟨S330000, .i1⟩
  | 54 => ⟨S_, .i32⟩
  | 55 => ⟨S330000, .i32⟩
  | 56 => ⟨S330000, .i32⟩
  | 57 => ⟨S330000, .i32⟩
  | 58 => ⟨S330000x1, .i32⟩
  | 59 => ⟨S330000x256, .f32⟩
  | 60 => ⟨S330000x1, .f32⟩
  | 61 => ⟨S330000x256, .f32⟩
  | 62 => ⟨S330000x256, .f32⟩
  | 63 => ⟨S_, .f32⟩
  | 64 => ⟨S10000x256, .f32⟩
  | 65 => ⟨S330000x1, .i32⟩
  | 66 => ⟨S10000x256, .f32⟩
  | 67 => ⟨S1x256, .f32⟩
  | 68 => ⟨S10000x256, .f32⟩
  | 69 => ⟨S10000x256, .f32⟩
  | 70 => ⟨S_, .f32⟩
  | 71 => ⟨S10000x256, .f32⟩
  | 72 => ⟨S10000x256, .f32⟩
  | 73 => ⟨S_, .f32⟩
  | 74 => ⟨S64x256, .f32⟩
  | 75 => ⟨S10000x1, .i32⟩
  | 76 => ⟨S64x256, .f32⟩
  | 77 => ⟨S_, .f32⟩
  | 78 => ⟨S10000, .f32⟩
  | 79 => ⟨S_, .f32⟩
  | 80 => ⟨S64, .f32⟩
  | 81 => ⟨S10000x1, .i32⟩
  | 82 => ⟨S64, .f32⟩
  | 83 => ⟨S_, .f32⟩
  | 84 => ⟨S64, .f32⟩
  | 85 => ⟨S64, .f32⟩
  | 86 => ⟨S64x1, .f32⟩
  | 87 => ⟨S64x256, .f32⟩
  | 88 => ⟨S64x256, .f32⟩
  | 89 => ⟨S64x10, .f32⟩
  | 90 => ⟨S1x10, .f32⟩
  | 91 => ⟨S64x10, .f32⟩
  | 92 => ⟨S64x10, .f32⟩
  | 93 => ⟨S_, .f32⟩
  | 94 => ⟨S64, .f32⟩
  | 95 => ⟨S_, .f32⟩
  | 96 => ⟨S64, .f32⟩
  | 97 => ⟨S64, .f32⟩
  | 98 => ⟨S64x1, .f32⟩
  | 99 => ⟨S64x10, .f32⟩
  | 100 => ⟨S64x10, .f32⟩
  | 101 => ⟨S64x10, .f32⟩
  | 102 => ⟨S_, .f32⟩
  | 103 => ⟨S64, .f32⟩
  | 104 => ⟨S64x1, .f32⟩
  | 105 => ⟨S64x1, .f32⟩
  | 106 => ⟨S64x10, .f32⟩
  | 107 => ⟨S64x10, .f32⟩
  | _ => ⟨S10000x256, .f32⟩

abbrev hbmTy (i : Nat) : BufTy := match i / 128 with
  | 0 => hbmTy0_0 i
  | 1 => hbmTy0_1 i
  | _ => ⟨S10000x256, .f32⟩

abbrev bufTy : (tb : Table) → Fin (tcTables nBuf tb) → BufTy
  | .hbm, ⟨i, _⟩ => hbmTy i
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_cst : Ref sig .tc := ⟨.hbm, 19, rfl⟩
abbrev main_v8 : Ref sig .tc := ⟨.hbm, 20, rfl⟩
abbrev main_cst_0 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_1 : Ref sig .tc := ⟨.hbm, 25, rfl⟩
abbrev main_v12 : Ref sig .tc := ⟨.hbm, 26, rfl⟩
abbrev main_v13 : Ref sig .tc := ⟨.hbm, 27, rfl⟩
abbrev main_cst_2 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_call0_v0 : Ref sig .tc := ⟨.hbm, 33, rfl⟩
abbrev main_call0_v1 : Ref sig .tc := ⟨.hbm, 34, rfl⟩
abbrev main_v17 : Ref sig .tc := ⟨.hbm, 35, rfl⟩
abbrev main_c : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_5 : Ref sig .tc := ⟨.hbm, 45, rfl⟩
abbrev main_v25 : Ref sig .tc := ⟨.hbm, 46, rfl⟩
abbrev main_v26 : Ref sig .tc := ⟨.hbm, 47, rfl⟩
abbrev main_c_6 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_c_7 : Ref sig .tc := ⟨.hbm, 55, rfl⟩
abbrev main_v33 : Ref sig .tc := ⟨.hbm, 56, rfl⟩
abbrev main_v34 : Ref sig .tc := ⟨.hbm, 57, rfl⟩
abbrev main_c_8 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_call1_cst : Ref sig .tc := ⟨.hbm, 74, rfl⟩
abbrev main_call1_v0 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_cst_10 : Ref sig .tc := ⟨.hbm, 81, rfl⟩
abbrev main_v54 : Ref sig .tc := ⟨.hbm, 82, rfl⟩
abbrev main_cst_11 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_cst_12 : Ref sig .tc := ⟨.hbm, 87, rfl⟩
abbrev main_v58 : Ref sig .tc := ⟨.hbm, 88, rfl⟩
abbrev main_v59 : Ref sig .tc := ⟨.hbm, 89, rfl⟩
abbrev main_cst_13 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_cst_14 : Ref sig .tc := ⟨.hbm, 94, rfl⟩
abbrev main_call2_v0 : Ref sig .tc := ⟨.hbm, 95, rfl⟩
abbrev main_call2_v1 : Ref sig .tc := ⟨.hbm, 96, rfl⟩
abbrev main_v63 : Ref sig .tc := ⟨.hbm, 97, rfl⟩
abbrev main_c_15 : Ref sig .tc := ⟨.hbm, 98, rfl⟩
abbrev main_v64 : Ref sig .tc := ⟨.hbm, 99, rfl⟩
abbrev main_v65 : Ref sig .tc := ⟨.hbm, 100, rfl⟩
abbrev main_c_16 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_c_17 : Ref sig .tc := ⟨.hbm, 107, rfl⟩
abbrev main_v71 : Ref sig .tc := ⟨.hbm, 108, rfl⟩
abbrev main_v72 : Ref sig .tc := ⟨.hbm, 109, rfl⟩
abbrev main_c_18 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_c_19 : Ref sig .tc := ⟨.hbm, 117, rfl⟩
abbrev main_v79 : Ref sig .tc := ⟨.hbm, 118, rfl⟩
abbrev main_v80 : Ref sig .tc := ⟨.hbm, 119, rfl⟩
abbrev main_c_20 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_21 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_call3_cst : Ref sig .tc := ⟨.hbm, 136, rfl⟩
abbrev main_call3_v0 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_cst_22 : Ref sig .tc := ⟨.hbm, 143, rfl⟩
abbrev main_v100 : Ref sig .tc := ⟨.hbm, 144, rfl⟩
abbrev main_cst_23 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_cst_24 : Ref sig .tc := ⟨.hbm, 149, rfl⟩
abbrev main_v104 : Ref sig .tc := ⟨.hbm, 150, rfl⟩
abbrev main_v105 : Ref sig .tc := ⟨.hbm, 151, rfl⟩
abbrev main_cst_25 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_cst_26 : Ref sig .tc := ⟨.hbm, 156, rfl⟩
abbrev main_call4_v0 : Ref sig .tc := ⟨.hbm, 157, rfl⟩
abbrev main_call4_v1 : Ref sig .tc := ⟨.hbm, 158, rfl⟩
abbrev main_v109 : Ref sig .tc := ⟨.hbm, 159, rfl⟩
abbrev main_c_27 : Ref sig .tc := ⟨.hbm, 160, rfl⟩
abbrev main_v110 : Ref sig .tc := ⟨.hbm, 161, rfl⟩
abbrev main_v111 : Ref sig .tc := ⟨.hbm, 162, rfl⟩
abbrev main_c_28 : Ref sig .tc := ⟨.hbm, 163, rfl⟩
abbrev main_v112 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_c_29 : Ref sig .tc := ⟨.hbm, 169, rfl⟩
abbrev main_v117 : Ref sig .tc := ⟨.hbm, 170, rfl⟩
abbrev main_v118 : Ref sig .tc := ⟨.hbm, 171, rfl⟩
abbrev main_c_30 : Ref sig .tc := ⟨.hbm, 172, rfl⟩
abbrev main_v119 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_c_31 : Ref sig .tc := ⟨.hbm, 179, rfl⟩
abbrev main_v125 : Ref sig .tc := ⟨.hbm, 180, rfl⟩
abbrev main_v126 : Ref sig .tc := ⟨.hbm, 181, rfl⟩
abbrev main_c_32 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_v134 : Ref sig .tc := ⟨.hbm, 190, rfl⟩
abbrev main_cst_33 : Ref sig .tc := ⟨.hbm, 191, rfl⟩
abbrev main_v135 : Ref sig .tc := ⟨.hbm, 192, rfl⟩
abbrev main_v136 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_call5_cst : Ref sig .tc := ⟨.hbm, 198, rfl⟩
abbrev main_call5_v0 : Ref sig .tc := ⟨.hbm, 199, rfl⟩
abbrev main_v141 : Ref sig .tc := ⟨.hbm, 200, rfl⟩
abbrev main_cst_34 : Ref sig .tc := ⟨.hbm, 201, rfl⟩
abbrev main_v142 : Ref sig .tc := ⟨.hbm, 202, rfl⟩
abbrev main_v143 : Ref sig .tc := ⟨.hbm, 203, rfl⟩
abbrev main_v144 : Ref sig .tc := ⟨.hbm, 204, rfl⟩
abbrev main_cst_35 : Ref sig .tc := ⟨.hbm, 205, rfl⟩
abbrev main_v145 : Ref sig .tc := ⟨.hbm, 206, rfl⟩
abbrev main_cst_36 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_cst_37 : Ref sig .tc := ⟨.hbm, 211, rfl⟩
abbrev main_v149 : Ref sig .tc := ⟨.hbm, 212, rfl⟩
abbrev main_v150 : Ref sig .tc := ⟨.hbm, 213, rfl⟩
abbrev main_v151 : Ref sig .tc := ⟨.hbm, 214, rfl⟩
abbrev main_v152 : Ref sig .tc := ⟨.hbm, 215, rfl⟩
abbrev main_v153 : Ref sig .tc := ⟨.hbm, 216, rfl⟩
abbrev main_v154 : Ref sig .tc := ⟨.hbm, 217, rfl⟩
abbrev main_v155 : Ref sig .tc := ⟨.hbm, 218, rfl⟩
abbrev main_v156 : Ref sig .tc := ⟨.hbm, 219, rfl⟩
abbrev main_v157 : Ref sig .tc := ⟨.hbm, 220, rfl⟩
abbrev main_call6_cst : Ref sig .tc := ⟨.hbm, 221, rfl⟩
abbrev main_call6_v0 : Ref sig .tc := ⟨.hbm, 222, rfl⟩
abbrev main_call6_cst_0 : Ref sig .tc := ⟨.hbm, 223, rfl⟩
abbrev main_call6_v1 : Ref sig .tc := ⟨.hbm, 224, rfl⟩
abbrev main_call6_v2 : Ref sig .tc := ⟨.hbm, 225, rfl⟩
abbrev main_call6_v3 : Ref sig .tc := ⟨.hbm, 226, rfl⟩
abbrev main_call6_v4 : Ref sig .tc := ⟨.hbm, 227, rfl⟩
abbrev main_call6_v5 : Ref sig .tc := ⟨.hbm, 228, rfl⟩
abbrev main_call6_v6 : Ref sig .tc := ⟨.hbm, 229, rfl⟩
abbrev main_call6_cst_1 : Ref sig .tc := ⟨.hbm, 230, rfl⟩
abbrev main_call6_v7 : Ref sig .tc := ⟨.hbm, 231, rfl⟩
abbrev main_call6_v8 : Ref sig .tc := ⟨.hbm, 232, rfl⟩
abbrev main_call6_v9 : Ref sig .tc := ⟨.hbm, 233, rfl⟩
abbrev main_call6_v10 : Ref sig .tc := ⟨.hbm, 234, rfl⟩
abbrev main_v158 : Ref sig .tc := ⟨.hbm, 235, rfl⟩

abbrev nD : Nat := 1
abbrev τ : Topo := Topo.v7x

variable {F : FTy → Type} [FloatOps F]

class Facts₀ : Prop where
  slices_S2x320000_S1x320000_0_0 : S2x320000.Slices ![0, 0] S1x320000
  shapeCasts_S1x320000_S320000 : S1x320000.ShapeCasts S320000
  slices_S2x320000_S1x320000_1_0 : S2x320000.Slices ![1, 0] S1x320000
  concatenates_S320000_S10000_S330000_d0 : Shape.Concatenates [S320000, S10000] S330000 0
  bcast_S_S330000 : S_.BroadcastsInDim S330000 (![] : Fin 0 → Fin S330000.rank)
  bcast_S_S10000 : S_.BroadcastsInDim S10000 (![] : Fin 0 → Fin S10000.rank)
  bcast_S330000_S330000x1_0 : S330000.BroadcastsInDim S330000x1 (![0] : Fin 1 → Fin S330000x1.rank)
  bcast_S330000x1_S330000x256_0_1 : S330000x1.BroadcastsInDim S330000x256 (![0, 1] : Fin 2 → Fin S330000x256.rank)
  bcast_S_S10000x256 : S_.BroadcastsInDim S10000x256 (![] : Fin 0 → Fin S10000x256.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S_S64x256 : S_.BroadcastsInDim S64x256 (![] : Fin 0 → Fin S64x256.rank)
  bcast_S10000_S10000x1_0 : S10000.BroadcastsInDim S10000x1 (![0] : Fin 1 → Fin S10000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x256_0_1 : S64x1.BroadcastsInDim S64x256 (![0, 1] : Fin 2 → Fin S64x256.rank)
  bcast_S10_S1x10_1 : S10.BroadcastsInDim S1x10 (![1] : Fin 1 → Fin S1x10.rank)
  bcast_S1x10_S64x10_0_1 : S1x10.BroadcastsInDim S64x10 (![0, 1] : Fin 2 → Fin S64x10.rank)
  reducesTo_S64x10_S64_d1 : S64x10.ReducesTo [1] S64
  h_S_ : 0 < S_.numel
  bcast_S64x1_S64x10_0_1 : S64x1.BroadcastsInDim S64x10 (![0, 1] : Fin 2 → Fin S64x10.rank)
  dot_S10000x256_S256x256_S10000x256_1_0_0_1_n_n_wf : DotDims.WF S10000x256 S256x256 S10000x256 [1] [0] [0] [1] [] []
  scatter_S10000_S330000x1_S330000_n_0_0_1_wf : ScatterDims.WF S10000 S330000x1 S330000 [] [0] [0] 1
  gather_S10000_S330000x1_S330000_n_0_n_n_0_1_1_wf : GatherDims.WF S10000 S330000x1 S330000 [] [0] [] [0] [] 1 ![1]
  gather_S10000x256_S330000x1_S330000x256_1_0_n_n_0_1_1256_wf : GatherDims.WF S10000x256 S330000x1 S330000x256 [1] [0] [] [0] [] 1 ![1, 256]
  scatter_S10000x256_S330000x1_S330000x256_1_0_0_1_wf : ScatterDims.WF S10000x256 S330000x1 S330000x256 [1] [0] [0] 1
  scatter_S64x256_S10000x1_S10000x256_1_0_0_1_wf : ScatterDims.WF S64x256 S10000x1 S10000x256 [1] [0] [0] 1
  scatter_S64_S10000x1_S10000_n_0_0_1_wf : ScatterDims.WF S64 S10000x1 S10000 [] [0] [0] 1
  dot_S64x256_S256x10_S64x10_1_0_0_1_n_n_wf : DotDims.WF S64x256 S256x10 S64x10 [1] [0] [0] [1] [] []

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def scatter_S10000_S330000x1_S330000_n_0_0_1 : ScatterDims S10000 S330000x1 S330000 where
  updateWindowDims := []
  insertedWindowDims := [0]
  scatterDimsToOperandDims := [0]
  indexVectorDim := 1
  wf := scatter_S10000_S330000x1_S330000_n_0_0_1_wf
def gather_S10000_S330000x1_S330000_n_0_n_n_0_1_1 : GatherDims S10000 S330000x1 S330000 where
  offsetDims := []
  collapsedSliceDims := [0]
  operandBatchingDims := []
  startIndicesBatchingDims := []
  startIndexMap := [0]
  indexVectorDim := 1
  sliceSizes := ![1]
  wf := gather_S10000_S330000x1_S330000_n_0_n_n_0_1_1_wf
def gather_S10000x256_S330000x1_S330000x256_1_0_n_n_0_1_1256 : GatherDims S10000x256 S330000x1 S330000x256 where
  offsetDims := [1]
  collapsedSliceDims := [0]
  operandBatchingDims := []
  startIndicesBatchingDims := []
  startIndexMap := [0]
  indexVectorDim := 1
  sliceSizes := ![1, 256]
  wf := gather_S10000x256_S330000x1_S330000x256_1_0_n_n_0_1_1256_wf
def scatter_S10000x256_S330000x1_S330000x256_1_0_0_1 : ScatterDims S10000x256 S330000x1 S330000x256 where
  updateWindowDims := [1]
  insertedWindowDims := [0]
  scatterDimsToOperandDims := [0]
  indexVectorDim := 1
  wf := scatter_S10000x256_S330000x1_S330000x256_1_0_0_1_wf
def scatter_S64x256_S10000x1_S10000x256_1_0_0_1 : ScatterDims S64x256 S10000x1 S10000x256 where
  updateWindowDims := [1]
  insertedWindowDims := [0]
  scatterDimsToOperandDims := [0]
  indexVectorDim := 1
  wf := scatter_S64x256_S10000x1_S10000x256_1_0_0_1_wf
def scatter_S64_S10000x1_S10000_n_0_0_1 : ScatterDims S64 S10000x1 S10000 where
  updateWindowDims := []
  insertedWindowDims := [0]
  scatterDimsToOperandDims := [0]
  indexVectorDim := 1
  wf := scatter_S64_S10000x1_S10000_n_0_0_1_wf
def dot_S64x256_S256x10_S64x10_1_0_0_1_n_n : DotDims S64x256 S256x10 S64x10 where
  lhsContracting := [1]
  rhsContracting := [0]
  lhsNonContracting := [0]
  rhsNonContracting := [1]
  lhsBatch := []
  rhsBatch := []
  wf := dot_S64x256_S256x10_S64x10_1_0_0_1_n_n_wf

class Facts : Prop extends Facts₀ where

variable [Facts]
-- ==== Proof.LibScatterGather.lean ====
/-
  A gather of ROWS and a scatter of ROWS, read at an index.

  `stablehlo.gather` of a rank-2 operand [H, W] at start indices [N, 1] with the row axis collapsed and named by the
  start index and the column axis kept whole (offset_dims [1], collapsed_slice_dims [0], start_index_map [0],
  index_vector_dim 1, slice sizes [1, W]) gives [N, W]: result element (e, q) is the operand at (row, q), the row being
  start index e read as a signed integer and clamped into the axis.

  `stablehlo.scatter` of updates [N, W] into an operand [H, W] at scatter indices [N, 1] (update_window_dims [1],
  inserted_window_dims [0], scatter_dims_to_operand_dims [0], index_vector_dim 1): update element (e, q) lands at
  (row, q), the row being scatter index e read as a signed integer and NOT clamped; an update whose row is outside the
  operand is dropped. With an addition as the body, at the extended reals, element (r, c) of the result is the
  operand's plus the sum over the e whose scatter index is r of update (e, c).

  Generic in the extents; the records' conditions `wf` are decided on literal shapes.
-/
import Idealize.ShloMosaic.PureOps
import Idealize.ShloMosaic.Lib.ValueIdx

noncomputable section

open scoped BigOperators

namespace Cert.LibScatterGather

open Idealize.ShloMosaic Idealize.ShloMosaic.ValueIdx

variable {α : Type}

/-! ## The row gather -/

/-- The dimension numbers of a row gather from `[H, W]` at start indices `[N, 1]` into `[N, W]`. -/
abbrev rowGatherDims (H W N : Nat)
    (wf : GatherDims.WF ⟨2, ![H, W]⟩ ⟨2, ![N, 1]⟩ ⟨2, ![N, W]⟩ [1] [0] [] [0] [] 1 ![1, W]) :
    GatherDims ⟨2, ![H, W]⟩ ⟨2, ![N, 1]⟩ ⟨2, ![N, W]⟩ where
  offsetDims := [1]
  collapsedSliceDims := [0]
  operandBatchingDims := []
  startIndicesBatchingDims := []
  startIndexMap := [0]
  indexVectorDim := 1
  sliceSizes := ![1, W]
  wf := wf

section Gather
variable {H W N w : Nat}
  (wf : GatherDims.WF ⟨2, ![H, W]⟩ ⟨2, ![N, 1]⟩ ⟨2, ![N, W]⟩ [1] [0] [] [0] [] 1 ![1, W])
  (idx : IVec ⟨2, ![N, 1]⟩ w) (e : Fin N) (q : Fin W)

/-- The operand row a result element reads: its start index, signed, clamped. -/
theorem gather_row : ((rowGatherDims H W N wf).operandIdx (ix2 e q) idx (0 : Fin 2)).val
    = min (idx (ix2 e (0 : Fin 1))).toInt.toNat (H - 1) := by
  show (rowGatherDims H W N wf).start (ix2 e q) idx 0 + (rowGatherDims H W N wf).batchCoord (ix2 e q) 0
      + (rowGatherDims H W N wf).offCoord (ix2 e q) 0 = _
  rw [GatherDims.batchCoord_eq_zero _ _ _ List.not_mem_nil,
    GatherDims.offCoord_eq_zero _ _ _ (fun h => ((GatherDims.mem_sKept _ _).mp h).1 List.mem_cons_self)]
  simp only [Nat.add_zero]
  unfold GatherDims.start
  rw [dif_pos (show (0 : Fin 2) ∈ (rowGatherDims H W N wf).startIndexMap from List.mem_cons_self)]
  have hsi : (rowGatherDims H W N wf).siIdx (ix2 e q) ⟨List.idxOf (0 : Fin 2) (rowGatherDims H W N wf).startIndexMap,
      List.idxOf_lt_length_iff.2 List.mem_cons_self⟩ = ix2 e (0 : Fin 1) := by
    funext b; refine Fin.ext ?_
    match b with
    | ⟨0, _⟩ => rfl
    | ⟨1, _⟩ => rfl
  rw [hsi]
  rfl

/-- On the kept column axis a result element reads its own column. -/
theorem gather_col : ((rowGatherDims H W N wf).operandIdx (ix2 e q) idx (1 : Fin 2)).val = q.val := by
  show (rowGatherDims H W N wf).start (ix2 e q) idx 1 + (rowGatherDims H W N wf).batchCoord (ix2 e q) 1
      + (rowGatherDims H W N wf).offCoord (ix2 e q) 1 = _
  rw [GatherDims.batchCoord_eq_zero _ _ _ List.not_mem_nil]
  have hnot : (1 : Fin 2) ∉ (rowGatherDims H W N wf).startIndexMap :=
    (by decide : (1 : Fin 2) ∉ ([0] : List (Fin 2)))
  have hk : (1 : Fin 2) ∈ (rowGatherDims H W N wf).sKept :=
    (GatherDims.mem_sKept _ _).mpr ⟨(by decide : (1 : Fin 2) ∉ ([0] : List (Fin 2))), List.not_mem_nil⟩
  unfold GatherDims.start GatherDims.offCoord
  rw [dif_neg hnot, dif_pos hk]
  simp only [Nat.add_zero, Nat.zero_add]
  rfl

/-- THE ROW GATHER READ AT `(e, q)`: the operand at (row, q), the row being start index `e` read signed and clamped
    into the axis. -/
theorem gather_rows_apply (hH : 0 < H) (x : (⟨2, ![H, W]⟩ : Shape).Idx → α) :
    Host.gather (rowGatherDims H W N wf) x idx (ix2 e q)
      = x (ix2 ⟨min (idx (ix2 e (0 : Fin 1))).toInt.toNat (H - 1), by omega⟩ q) := by
  unfold Host.gather
  refine congrArg x (funext fun a => Fin.ext ?_)
  match a with
  | ⟨0, _⟩ => exact gather_row wf idx e q
  | ⟨1, _⟩ => exact gather_col wf idx e q

end Gather

/-! ## The row scatter -/

/-- The dimension numbers of a row scatter of updates `[N, W]` into `[H, W]` at scatter indices `[N, 1]`. -/
abbrev rowScatterDims (H W N : Nat)
    (wf : ScatterDims.WF ⟨2, ![H, W]⟩ ⟨2, ![N, 1]⟩ ⟨2, ![N, W]⟩ [1] [0] [0] 1) :
    ScatterDims ⟨2, ![H, W]⟩ ⟨2, ![N, 1]⟩ ⟨2, ![N, W]⟩ where
  updateWindowDims := [1]
  insertedWindowDims := [0]
  scatterDimsToOperandDims := [0]
  indexVectorDim := 1
  wf := wf

section Scatter
variable {H W N w : Nat}
  (wf : ScatterDims.WF ⟨2, ![H, W]⟩ ⟨2, ![N, 1]⟩ ⟨2, ![N, W]⟩ [1] [0] [0] 1)
  (idx : IVec ⟨2, ![N, 1]⟩ w) (e : Fin N) (q : Fin W)

/-- The window's start on the row axis: scatter index `e`, read signed. -/
theorem scatter_start0 : (rowScatterDims H W N wf).start (ix2 e q) idx (0 : Fin 2) = (idx (ix2 e (0 : Fin 1))).toInt := by
  unfold ScatterDims.start
  rw [dif_pos (show (0 : Fin 2) ∈ (rowScatterDims H W N wf).scatterDimsToOperandDims from List.mem_cons_self)]
  have hsi : (rowScatterDims H W N wf).siIdx (ix2 e q) ⟨List.idxOf (0 : Fin 2) (rowScatterDims H W N wf).scatterDimsToOperandDims,
      List.idxOf_lt_length_iff.2 List.mem_cons_self⟩ = ix2 e (0 : Fin 1) := by
    funext b; refine Fin.ext ?_
    match b with
    | ⟨0, _⟩ => rfl
    | ⟨1, _⟩ => rfl
  rw [hsi]

/-- The window's start on the column axis is 0: the map does not name it. -/
theorem scatter_start1 : (rowScatterDims H W N wf).start (ix2 e q) idx (1 : Fin 2) = 0 := by
  unfold ScatterDims.start
  rw [dif_neg (by decide : (1 : Fin 2) ∉ ([0] : List (Fin 2)))]

/-- The window coordinate on the row axis is 0: the axis is inserted. -/
theorem scatter_window0 : (rowScatterDims H W N wf).window (ix2 e q) (0 : Fin 2) = 0 := by
  unfold ScatterDims.window
  rw [dif_neg (by simp [Shape.kept, List.mem_filter, List.mem_finRange] : (0 : Fin 2) ∉ (⟨2, ![H, W]⟩ : Shape).kept ([0] : List (Fin 2)))]

/-- The window coordinate on the column axis is the update's column. -/
theorem scatter_window1 : (rowScatterDims H W N wf).window (ix2 e q) (1 : Fin 2) = q.val := by
  unfold ScatterDims.window
  rw [dif_pos (by simp [Shape.kept, List.mem_filter, List.mem_finRange] : (1 : Fin 2) ∈ (⟨2, ![H, W]⟩ : Shape).kept ([0] : List (Fin 2)))]
  rfl

/-- THE ROW SCATTER'S LANDING INDEX: update `(e, q)` lands at `(r, c)` exactly when scatter index `e`, read signed,
    is `r`, and `q = c`. -/
theorem scatter_rows_resultIdx_eq (r : Fin H) (c : Fin W) :
    (rowScatterDims H W N wf).resultIdx? (ix2 e q) idx = some (ix2 r c)
      ↔ (idx (ix2 e (0 : Fin 1))).toInt = (r.val : Int) ∧ q = c := by
  have h0 := scatter_start0 wf idx e q
  have h1 := scatter_start1 wf idx e q
  have w0 := scatter_window0 wf e q
  have w1 := scatter_window1 wf e q
  unfold ScatterDims.resultIdx?
  constructor
  · intro h
    split at h
    · rename_i hall
      have heq := Option.some.inj h
      have e0 := congrArg (fun f => (f (0 : Fin 2)).val) heq
      have e1 := congrArg (fun f => (f (1 : Fin 2)).val) heq
      simp only at e0 e1
      have hb0 := (hall 0).1
      rw [h0, w0] at e0 hb0
      rw [h1, w1] at e1
      refine ⟨?_, Fin.ext ?_⟩
      · have : ((idx (ix2 e (0 : Fin 1))).toInt + ((0 : Nat) : Int)).toNat = r.val := e0
        omega
      · have : ((0 : Int) + (q.val : Int)).toNat = c.val := e1
        omega
    · exact absurd h (by simp)
  · rintro ⟨hr, rfl⟩
    have hall : ∀ a : Fin 2, 0 ≤ (rowScatterDims H W N wf).start (ix2 e q) idx a + ((rowScatterDims H W N wf).window (ix2 e q) a : Int)
        ∧ (rowScatterDims H W N wf).start (ix2 e q) idx a + ((rowScatterDims H W N wf).window (ix2 e q) a : Int)
          < ((⟨2, ![H, W]⟩ : Shape).size a : Int) := by
      intro a
      match a with
      | ⟨0, _⟩ =>
        show 0 ≤ (rowScatterDims H W N wf).start (ix2 e q) idx 0 + (((rowScatterDims H W N wf).window (ix2 e q) 0 : Nat) : Int)
          ∧ (rowScatterDims H W N wf).start (ix2 e q) idx 0 + (((rowScatterDims H W N wf).window (ix2 e q) 0 : Nat) : Int) < (H : Int)
        rw [h0, w0, hr]; have := r.isLt; omega
      | ⟨1, _⟩ =>
        show 0 ≤ (rowScatterDims H W N wf).start (ix2 e q) idx 1 + (((rowScatterDims H W N wf).window (ix2 e q) 1 : Nat) : Int)
          ∧ (rowScatterDims H W N wf).start (ix2 e q) idx 1 + (((rowScatterDims H W N wf).window (ix2 e q) 1 : Nat) : Int) < (W : Int)
        rw [h1, w1]; have := q.isLt; omega
    rw [dif_pos hall]
    refine congrArg some (funext fun a => Fin.ext ?_)
    match a with
    | ⟨0, _⟩ =>
      show ((rowScatterDims H W N wf).start (ix2 e q) idx 0 + (((rowScatterDims H W N wf).window (ix2 e q) 0 : Nat) : Int)).toNat = r.val
      rw [h0, w0, hr]; omega
    | ⟨1, _⟩ =>
      show ((rowScatterDims H W N wf).start (ix2 e q) idx 1 + (((rowScatterDims H W N wf).window (ix2 e q) 1 : Nat) : Int)).toNat = q.val
      rw [h1, w1]; omega

end Scatter

/-- THE ACCUMULATING ROW SCATTER READ AT `(r, c)`, at the extended reals: the operand's element plus the sum, over
    the update rows `e` whose scatter index read signed is `r`, of update `(e, c)`. -/
theorem scatterAdd_rows_apply {H W N w : Nat}
    (wf : ScatterDims.WF ⟨2, ![H, W]⟩ ⟨2, ![N, 1]⟩ ⟨2, ![N, W]⟩ [1] [0] [0] 1)
    (x : (⟨2, ![H, W]⟩ : Shape).Idx → EReal) (idx : IVec ⟨2, ![N, 1]⟩ w)
    (upd : (⟨2, ![N, W]⟩ : Shape).Idx → EReal) (r : Fin H) (c : Fin W) :
    Ideal.hostScatterAdd (rowScatterDims H W N wf) x idx upd (ix2 r c)
      = x (ix2 r c) + ∑ e ∈ Finset.univ.filter (fun e : Fin N => (idx (ix2 e (0 : Fin 1))).toInt = (r.val : Int)),
          upd (ix2 e c) := by
  unfold Ideal.hostScatterAdd
  refine congrArg (x (ix2 r c) + ·) ?_
  rw [Finset.sum_filter, sum_idx2, Finset.sum_filter]
  refine Finset.sum_congr rfl fun e _ => ?_
  by_cases he : (idx (ix2 e (0 : Fin 1))).toInt = (r.val : Int)
  · rw [if_pos he]
    rw [Finset.sum_eq_single c]
    · rw [if_pos ((scatter_rows_resultIdx_eq wf idx e c r c).mpr ⟨he, rfl⟩)]
    · intro q _ hq
      rw [if_neg (fun h => hq ((scatter_rows_resultIdx_eq wf idx e q r c).mp h).2)]
    · intro h; exact absurd (Finset.mem_univ c) h
  · rw [if_neg he]
    refine Finset.sum_eq_zero fun q _ => ?_
    rw [if_neg (fun h => he ((scatter_rows_resultIdx_eq wf idx e q r c).mp h).1)]

end Cert.LibScatterGather

end
-- ==== Proof.RefLayer.lean ====
/-
  The reference's graph-convolution layer read at an index, and its three layers as one function.

  One layer takes activations h : [10000, 256], a weight matrix W : [256, 256], a bias b : [256] and the edge list.
  It forms h · W, gathers for every edge e the row of h · W at the edge's source (read signed, wrapped by the
  reference when negative, clamped into the axis by the gather), scales that row by the edge's weight, adds the scaled
  rows into the row of the edge's destination (an accumulating scatter into zeros; an edge whose destination is not
  a row is dropped), adds the bias to every row and takes the larger of the result and 0.
  Element (r, c) is therefore
      max ((0 + ∑ over the edges e with destination r of (h · W)(source e, c) · weight e) + b c) 0.
  Layers 2 and 3 of the reference are the same operations on the previous layer's result, so they are the same
  function of their inputs; the operations after layer 3 are written once as a function of layer 3's result.
-/
import proofs.«175171_j58583353918035_2_alg».proof.Proof.RefRead
import proofs.«175171_j58583353918035_2_alg».proof.Proof.LibScatterGather

noncomputable section

open scoped BigOperators

namespace Cert.ReferenceIdeal.Layer

open Cert.ReferenceIdeal Cert.ReferenceIdeal.Gen Cert.ReferenceIdeal.ReadP Idealize.ShloMosaic Idealize.ShloMosaic.ValueIdx
  Cert.LibScatterGather

/-! ## The row scatter's landing index and the row gather at an index -/

/-- Update `(e, q)` of the row scatter lands at `(r, c)` exactly when scatter index `e`, read signed, is `r`,
    and `q = c`. -/
theorem scatter_resultIdx_eq (idx : IVec S330000x1 32) (e : Fin 330000) (q : Fin 256) (r : Fin 10000) (c : Fin 256) :
    scatter_S10000x256_S330000x1_S330000x256_1_0_0_1.resultIdx? (ix2 e q) idx = some (ix2 r c)
      ↔ (idx (ix2 e (0 : Fin 1))).toInt = (r.val : Int) ∧ q = c :=
  scatter_rows_resultIdx_eq (H := 10000) (W := 256) (N := 330000)
    scatter_S10000x256_S330000x1_S330000x256_1_0_0_1.wf idx e q r c

/-- The row gather at `(e, q)`: the operand at (row, q), the row being start index `e` read signed and clamped
    into `[0, 9999]`. -/
theorem gather_apply {α : Type} (x : S10000x256.Idx → α) (idx : IVec S330000x1 32) (e : Fin 330000) (q : Fin 256) :
    Host.gather gather_S10000x256_S330000x1_S330000x256_1_0_n_n_0_1_1256 x idx (ix2 e q)
      = x (ix2 ⟨min (idx (ix2 e (0 : Fin 1))).toInt.toNat 9999, by omega⟩ q) :=
  gather_rows_apply (H := 10000) (W := 256) (N := 330000)
    gather_S10000x256_S330000x1_S330000x256_1_0_n_n_0_1_1256.wf idx e q (by decide) x

/-- The accumulating row scatter at `(r, c)`: the operand's element plus the sum over the update rows `e` whose
    scatter index is `r` of update `(e, c)`. -/
theorem scatterAdd_apply (x : (⟨S10000x256, .f32⟩ : BufTy).Contents (Elt Ideal)) (idx : IVec S330000x1 32)
    (upd : (⟨S330000x256, .f32⟩ : BufTy).Contents (Elt Ideal)) (r : Fin 10000) (c : Fin 256) :
    Host.scatterAdd (F := Ideal) (φ := .f32) scatter_S10000x256_S330000x1_S330000x256_1_0_0_1 x idx upd (ix2 r c)
      = x (ix2 r c) + ∑ e ∈ Finset.univ.filter (fun e : Fin 330000 => (idx (ix2 e (0 : Fin 1))).toInt = (r.val : Int)),
          upd (ix2 e c) :=
  scatterAdd_rows_apply (H := 10000) (W := 256) (N := 330000)
    scatter_S10000x256_S330000x1_S330000x256_1_0_0_1.wf x idx upd r c

/-! ## The index maps of the layer's broadcasts, at an index built from coordinates -/

theorem idx_v38_ix2 (e : Fin 330000) : idx_main_v38 (ix2 e (0 : Fin 1)) = ix1 e := by
  funext a; match a with | ⟨0, _⟩ => rfl

theorem idx_v44_ix2 (e : Fin 330000) : idx_main_v44 (ix2 e (0 : Fin 1)) = ix1 e := by
  funext a; match a with | ⟨0, _⟩ => rfl

theorem idx_v40_v41_ix2 (e : Fin 330000) (c : Fin 256) : idx_main_v40 (idx_main_v41 (ix2 e c)) = ix1 e := by
  funext a; match a with | ⟨0, _⟩ => rfl

theorem idx_v46_v47_ix2 (r : Fin 10000) (c : Fin 256) : idx_main_v46 (idx_main_v47 (ix2 r c)) = ix1 c := by
  funext a; match a with | ⟨0, _⟩ => rfl

/-! ## The layer at an index -/

section Apply
variable (h : (⟨S10000x256, .f32⟩ : BufTy).Contents (Elt Ideal)) (W : (⟨S256x256, .f32⟩ : BufTy).Contents (Elt Ideal))
  (b : (⟨S256, .f32⟩ : BufTy).Contents (Elt Ideal)) (x9 : (⟨S2x320000, .i32⟩ : BufTy).Contents (Elt Ideal))

/-- The source index array on `[330000, 1]` at `(e, 0)` is the source index array at `e`. -/
theorem v38_apply (e : Fin 330000) :
    val_main_v38 (F := Ideal) x9 (ix2 e (0 : Fin 1)) = val_main_v37 (F := Ideal) x9 (ix1 e) := by
  rw [val_main_v38_apply, idx_v38_ix2]

/-- The destination index array on `[330000, 1]` at `(e, 0)` is the destination index array at `e`. -/
theorem v44_apply (e : Fin 330000) :
    val_main_v44 (F := Ideal) x9 (ix2 e (0 : Fin 1)) = val_main_v7 (F := Ideal) x9 (ix1 e) := by
  rw [val_main_v44_apply, idx_v44_ix2]

/-- The edge weights broadcast over the columns, at `(e, c)`, are the weight of `e`. -/
theorem v41_apply (e : Fin 330000) (c : Fin 256) :
    val_main_v41 (F := Ideal) x9 (ix2 e c) = val_main_v32 (F := Ideal) x9 (ix1 e) := by
  rw [val_main_v41_apply, val_main_v40_apply, idx_v40_v41_ix2]

/-- The bias broadcast over the rows, at `(r, c)`, is the bias at `c`. -/
theorem v47_apply (r : Fin 10000) (c : Fin 256) : val_main_v47 (F := Ideal) b (ix2 r c) = b (ix1 c) := by
  rw [val_main_v47_apply, val_main_v46_apply, idx_v46_v47_ix2]

/-- The scatter's zeros operand at an index. -/
theorem v43_apply (i : S10000x256.Idx) : val_main_v43 (F := Ideal) i = 0 := by
  rw [val_main_v43_apply, val_main_cst_9_apply]; exact Ideal.ofBits_zero_f32

/-- The zeros the last step compares with, at an index. -/
theorem call1_v0_apply (i : S10000x256.Idx) : val_main_call1_v0 (F := Ideal) i = 0 := by
  rw [val_main_call1_v0_apply, val_main_call1_cst_apply]; exact Ideal.ofBits_zero_f32

/-- The gathered and scaled rows at `(e, c)`: the product's row at the source of `e`, times the weight of `e`. -/
theorem v42_apply (e : Fin 330000) (c : Fin 256) :
    val_main_v42 (F := Ideal) h W x9 (ix2 e c)
      = val_main_v4 (F := Ideal) h W (ix2 ⟨min (val_main_v37 (F := Ideal) x9 (ix1 e)).toInt.toNat 9999, by omega⟩ c)
          * val_main_v32 (F := Ideal) x9 (ix1 e) := by
  show val_main_v39 (F := Ideal) h W x9 (ix2 e c) * val_main_v41 (F := Ideal) x9 (ix2 e c) = _
  rw [v41_apply]
  refine congrArg (· * val_main_v32 (F := Ideal) x9 (ix1 e)) ?_
  unfold val_main_v39
  refine (gather_apply (val_main_v4 (F := Ideal) h W) (val_main_v38 (F := Ideal) x9) e c).trans ?_
  refine congrArg (val_main_v4 (F := Ideal) h W) ?_
  refine congrArg (fun t : Fin 10000 => ix2 t c) (Fin.ext ?_)
  show min (val_main_v38 (F := Ideal) x9 (ix2 e (0 : Fin 1))).toInt.toNat 9999 = _
  rw [v38_apply]

/-- THE LAYER AT `(r, c)`: the larger of 0 and the bias at `c` plus the sum, over the edges `e` whose destination is `r`,
    of the product's element at (source of `e`, `c`) times the weight of `e` (the leading 0 is the scatter's zeros operand). -/
theorem layer_apply (r : Fin 10000) (c : Fin 256) :
    val_main_v49 (F := Ideal) h W b x9 (ix2 r c)
      = max ((0 + ∑ e ∈ Finset.univ.filter (fun e : Fin 330000 => (val_main_v7 (F := Ideal) x9 (ix1 e)).toInt = (r.val : Int)),
          val_main_v4 (F := Ideal) h W (ix2 ⟨min (val_main_v37 (F := Ideal) x9 (ix1 e)).toInt.toNat 9999, by omega⟩ c)
            * val_main_v32 (F := Ideal) x9 (ix1 e)) + b (ix1 c)) 0 := by
  show max (val_main_v45 (F := Ideal) h W x9 (ix2 r c) + val_main_v47 (F := Ideal) b (ix2 r c))
      (val_main_call1_v0 (F := Ideal) (ix2 r c)) = _
  rw [call1_v0_apply, v47_apply]
  refine congrArg (fun t => max (t + b (ix1 c)) 0) ?_
  unfold val_main_v45
  refine (scatterAdd_apply (val_main_v43 (F := Ideal)) (val_main_v44 (F := Ideal) x9)
    (val_main_v42 (F := Ideal) h W x9) r c).trans ?_
  rw [v43_apply]
  refine congrArg (0 + ·) ?_
  refine Finset.sum_congr (Finset.filter_congr fun e _ => by rw [v44_apply]) fun e _ => ?_
  exact v42_apply h W x9 e c

end Apply

/-! ## The three layers are one function -/

section Same
variable {F : FTy → Type} [FloatOps F]

/-- Layer 2 is layer 1's function of layer 1's result, the second weight matrix and the second bias. -/
theorem layer2_eq (x0 : (⟨S10000x256, .f32⟩ : BufTy).Contents (Elt F)) (x1 : (⟨S256x256, .f32⟩ : BufTy).Contents (Elt F)) (x2 : (⟨S256, .f32⟩ : BufTy).Contents (Elt F)) (x3 : (⟨S256x256, .f32⟩ : BufTy).Contents (Elt F)) (x4 : (⟨S256, .f32⟩ : BufTy).Contents (Elt F)) (x9 : (⟨S2x320000, .i32⟩ : BufTy).Contents (Elt F)) :
    val_main_v95 (F := F) x0 x1 x2 x3 x4 x9
      = val_main_v49 (F := F) (val_main_v49 (F := F) x0 x1 x2 x9) x3 x4 x9 := rfl

/-- Layer 3 is layer 1's function of layer 2's result, the third weight matrix and the third bias. -/
theorem layer3_eq (x0 : (⟨S10000x256, .f32⟩ : BufTy).Contents (Elt F)) (x1 : (⟨S256x256, .f32⟩ : BufTy).Contents (Elt F)) (x2 : (⟨S256, .f32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x9 : (⟨S2x320000, .i32⟩ : BufTy).Contents (Elt F)) :
    val_main_v141 (F := F) x0 x1 x2 x3 x4 x5 x6 x9
      = val_main_v49 (F := F) (val_main_v95 (F := F) x0 x1 x2 x3 x4 x9) x5 x6 x9 := rfl

end Same

/-! ## The operations after layer 3, as a function of layer 3's result

Mean pooling of the node rows by graph, the output layer, and a log-softmax over each row: the reference's
operations %142 … %158 with layer 3's result replaced by a variable `h`. -/

section Tail
variable {F : FTy → Type} [FloatOps F]

/-- The per-graph sums of the node rows (an accumulating scatter into zeros at the graph numbers). -/
def tail_v144 (h : (⟨S10000x256, .f32⟩ : BufTy).Contents (Elt F)) (x10 : (⟨S10000, .i32⟩ : BufTy).Contents (Elt F)) :
    (⟨S64x256, .f32⟩ : BufTy).Contents (Elt F) :=
  Host.scatterAdd scatter_S64x256_S10000x1_S10000x256_1_0_0_1 (val_main_v142 (F := F)) (val_main_v143 (F := F) x10) h

/-- The per-graph means: the sums divided by the node counts (at least 1). -/
def tail_v153 (h : (⟨S10000x256, .f32⟩ : BufTy).Contents (Elt F)) (x10 : (⟨S10000, .i32⟩ : BufTy).Contents (Elt F)) :
    (⟨S64x256, .f32⟩ : BufTy).Contents (Elt F) :=
  Host.divf (tail_v144 (F := F) h x10) (val_main_v152 (F := F) x10)

/-- The means times the output weight matrix. -/
def tail_v154 (h : (⟨S10000x256, .f32⟩ : BufTy).Contents (Elt F)) (x7 : (⟨S256x10, .f32⟩ : BufTy).Contents (Elt F)) (x10 : (⟨S10000, .i32⟩ : BufTy).Contents (Elt F)) :
    (⟨S64x10, .f32⟩ : BufTy).Contents (Elt F) :=
  Host.dotGeneral dot_S64x256_S256x10_S64x10_1_0_0_1_n_n none (tail_v153 (F := F) h x10) (x7)

/-- Plus the output bias: the logits. -/
def tail_v157 (h : (⟨S10000x256, .f32⟩ : BufTy).Contents (Elt F)) (x7 : (⟨S256x10, .f32⟩ : BufTy).Contents (Elt F)) (x8 : (⟨S10, .f32⟩ : BufTy).Contents (Elt F)) (x10 : (⟨S10000, .i32⟩ : BufTy).Contents (Elt F)) :
    (⟨S64x10, .f32⟩ : BufTy).Contents (Elt F) :=
  addf (tail_v154 (F := F) h x7 x10) (val_main_v156 (F := F) x8)

/-- The row maxima of the logits. -/
def tail_c0 (h : (⟨S10000x256, .f32⟩ : BufTy).Contents (Elt F)) (x7 : (⟨S256x10, .f32⟩ : BufTy).Contents (Elt F)) (x8 : (⟨S10, .f32⟩ : BufTy).Contents (Elt F)) (x10 : (⟨S10000, .i32⟩ : BufTy).Contents (Elt F)) :
    (⟨S64, .f32⟩ : BufTy).Contents (Elt F) :=
  Host.reduce FloatOps.maximumf (tail_v157 (F := F) h x7 x8 x10) (val_main_call6_cst (F := F)) reducesTo_S64x10_S64_d1 h_S_

/-- The larger of −∞ and the row maximum. -/
def tail_c2 (h : (⟨S10000x256, .f32⟩ : BufTy).Contents (Elt F)) (x7 : (⟨S256x10, .f32⟩ : BufTy).Contents (Elt F)) (x8 : (⟨S10, .f32⟩ : BufTy).Contents (Elt F)) (x10 : (⟨S10000, .i32⟩ : BufTy).Contents (Elt F)) :
    (⟨S64, .f32⟩ : BufTy).Contents (Elt F) :=
  maximumf (val_main_call6_v1 (F := F)) (tail_c0 (F := F) h x7 x8 x10)

/-- … as a column. -/
def tail_c3 (h : (⟨S10000x256, .f32⟩ : BufTy).Contents (Elt F)) (x7 : (⟨S256x10, .f32⟩ : BufTy).Contents (Elt F)) (x8 : (⟨S10, .f32⟩ : BufTy).Contents (Elt F)) (x10 : (⟨S10000, .i32⟩ : BufTy).Contents (Elt F)) :
    (⟨S64x1, .f32⟩ : BufTy).Contents (Elt F) :=
  broadcastInDim S64x1 ![0] bcast_S64_S64x1_0 (tail_c2 (F := F) h x7 x8 x10)

/-- … broadcast over the row. -/
def tail_c4 (h : (⟨S10000x256, .f32⟩ : BufTy).Contents (Elt F)) (x7 : (⟨S256x10, .f32⟩ : BufTy).Contents (Elt F)) (x8 : (⟨S10, .f32⟩ : BufTy).Contents (Elt F)) (x10 : (⟨S10000, .i32⟩ : BufTy).Contents (Elt F)) :
    (⟨S64x10, .f32⟩ : BufTy).Contents (Elt F) :=
  broadcastInDim S64x10 ![0, 1] bcast_S64x1_S64x10_0_1 (tail_c3 (F := F) h x7 x8 x10)

/-- The logits minus their row maximum. -/
def tail_c5 (h : (⟨S10000x256, .f32⟩ : BufTy).Contents (Elt F)) (x7 : (⟨S256x10, .f32⟩ : BufTy).Contents (Elt F)) (x8 : (⟨S10, .f32⟩ : BufTy).Contents (Elt F)) (x10 : (⟨S10000, .i32⟩ : BufTy).Contents (Elt F)) :
    (⟨S64x10, .f32⟩ : BufTy).Contents (Elt F) :=
  subf (tail_v157 (F := F) h x7 x8 x10) (tail_c4 (F := F) h x7 x8 x10)

/-- Their exponentials. -/
def tail_c6 (h : (⟨S10000x256, .f32⟩ : BufTy).Contents (Elt F)) (x7 : (⟨S256x10, .f32⟩ : BufTy).Contents (Elt F)) (x8 : (⟨S10, .f32⟩ : BufTy).Contents (Elt F)) (x10 : (⟨S10000, .i32⟩ : BufTy).Contents (Elt F)) :
    (⟨S64x10, .f32⟩ : BufTy).Contents (Elt F) :=
  Host.exp (tail_c5 (F := F) h x7 x8 x10)

/-- The row sums of the exponentials. -/
def tail_c7 (h : (⟨S10000x256, .f32⟩ : BufTy).Contents (Elt F)) (x7 : (⟨S256x10, .f32⟩ : BufTy).Contents (Elt F)) (x8 : (⟨S10, .f32⟩ : BufTy).Contents (Elt F)) (x10 : (⟨S10000, .i32⟩ : BufTy).Contents (Elt F)) :
    (⟨S64, .f32⟩ : BufTy).Contents (Elt F) :=
  Host.reduceAdd (tail_c6 (F := F) h x7 x8 x10) (val_main_call6_cst_1 (F := F)) reducesTo_S64x10_S64_d1 h_S_

/-- … as a column. -/
def tail_c8 (h : (⟨S10000x256, .f32⟩ : BufTy).Contents (Elt F)) (x7 : (⟨S256x10, .f32⟩ : BufTy).Contents (Elt F)) (x8 : (⟨S10, .f32⟩ : BufTy).Contents (Elt F)) (x10 : (⟨S10000, .i32⟩ : BufTy).Contents (Elt F)) :
    (⟨S64x1, .f32⟩ : BufTy).Contents (Elt F) :=
  broadcastInDim S64x1 ![0] bcast_S64_S64x1_0 (tail_c7 (F := F) h x7 x8 x10)

/-- Their logarithms. -/
def tail_c9 (h : (⟨S10000x256, .f32⟩ : BufTy).Contents (Elt F)) (x7 : (⟨S256x10, .f32⟩ : BufTy).Contents (Elt F)) (x8 : (⟨S10, .f32⟩ : BufTy).Contents (Elt F)) (x10 : (⟨S10000, .i32⟩ : BufTy).Contents (Elt F)) :
    (⟨S64x1, .f32⟩ : BufTy).Contents (Elt F) :=
  Host.log (tail_c8 (F := F) h x7 x8 x10)

/-- … broadcast over the row. -/
def tail_c10 (h : (⟨S10000x256, .f32⟩ : BufTy).Contents (Elt F)) (x7 : (⟨S256x10, .f32⟩ : BufTy).Contents (Elt F)) (x8 : (⟨S10, .f32⟩ : BufTy).Contents (Elt F)) (x10 : (⟨S10000, .i32⟩ : BufTy).Contents (Elt F)) :
    (⟨S64x10, .f32⟩ : BufTy).Contents (Elt F) :=
  broadcastInDim S64x10 ![0, 1] bcast_S64x1_S64x10_0_1 (tail_c9 (F := F) h x7 x8 x10)

/-- THE TAIL: the log-softmax of the logits, as a function of layer 3's result `h`. -/
def tailOf (h : (⟨S10000x256, .f32⟩ : BufTy).Contents (Elt F)) (x7 : (⟨S256x10, .f32⟩ : BufTy).Contents (Elt F)) (x8 : (⟨S10, .f32⟩ : BufTy).Contents (Elt F)) (x10 : (⟨S10000, .i32⟩ : BufTy).Contents (Elt F)) :
    (⟨S64x10, .f32⟩ : BufTy).Contents (Elt F) :=
  subf (tail_c5 (F := F) h x7 x8 x10) (tail_c10 (F := F) h x7 x8 x10)

/-- The reference's result is the tail of layer 3's result. -/
theorem tail_eq (x0 : (⟨S10000x256, .f32⟩ : BufTy).Contents (Elt F)) (x1 : (⟨S256x256, .f32⟩ : BufTy).Contents (Elt F)) (x2 : (⟨S256, .f32⟩ : BufTy).Contents (Elt F)) (x3 : (⟨S256x256, .f32⟩ : BufTy).Contents (Elt F)) (x4 : (⟨S256, .f32⟩ : BufTy).Contents (Elt F)) (x5 : (⟨S256x256, .f32⟩ : BufTy).Contents (Elt F)) (x6 : (⟨S256, .f32⟩ : BufTy).Contents (Elt F)) (x7 : (⟨S256x10, .f32⟩ : BufTy).Contents (Elt F)) (x8 : (⟨S10, .f32⟩ : BufTy).Contents (Elt F)) (x9 : (⟨S2x320000, .i32⟩ : BufTy).Contents (Elt F)) (x10 : (⟨S10000, .i32⟩ : BufTy).Contents (Elt F)) :
    val_main_v158 (F := F) x0 x1 x2 x3 x4 x5 x6 x7 x8 x9 x10
      = tailOf (F := F) (val_main_v141 (F := F) x0 x1 x2 x3 x4 x5 x6 x9) x7 x8 x10 := rfl

end Tail

end Cert.ReferenceIdeal.Layer

end
-- ==== Proof.EdgeRange.lean ====
/-
  The precondition, read at the edge-index argument: every entry of the [2, 320000] array of edge
  endpoints is a node number, 0 ≤ v < 10000 (read signed).

  The precondition is a chain of one-bit conjunctions, each conjunct the conjunction over a whole array
  (a reduction by "and" from 1) of an elementwise comparison. Two of its conjuncts compare the edge
  array, signed, with the constants 0 (≥) and 10000 (<). A conjunction that is 1 has both sides 1; a
  reduction by "and" into a single cell that is 1 met a 1 at every element; and a signed comparison
  word that is 1 is the order relation between the two words read as integers.
-/
import proofs.«175171_j58583353918035_2_alg».proof.Pre_finite_inputs
import Idealize.ShloMosaic.Lib.ReduceAll
import Idealize.ShloMosaic.Lib.ValueIdx
import Idealize.ShloMosaic.PureOps.Ideal

noncomputable section

namespace Cert.EdgeRange

open Idealize.ShloMosaic Cert.Pre_finite_inputs

/-- The shape with no axis has one index. -/
instance subsingleton_scalar_idx : Subsingleton S_.Idx := ⟨fun a b => funext fun d => d.elim0⟩

theorem toInt_zero32 : (0#32 : BitVec 32).toInt = 0 := by decide
theorem toInt_tenThousand32 : (10000#32 : BitVec 32).toInt = 10000 := by decide

/-- A word that tests ≥ 0 and < 10000, signed, lies in [0, 10000) read as an integer. -/
theorem word_range (v : BitVec 32) (h0 : IntOp.cmpi .sge v 0#32 = 1#1) (h1 : IntOp.cmpi .slt v 10000#32 = 1#1) :
    0 ≤ v.toInt ∧ v.toInt < 10000 := by
  have a := IntOp.cmpi_sge.1 h0
  have b := IntOp.cmpi_slt.1 h1
  rw [toInt_zero32] at a
  rw [toInt_tenThousand32] at b
  exact ⟨a, b⟩

/-- THE PRECONDITION DECODED at the edge array: every endpoint is a node number. -/
theorem edge_range [Facts]
    (a0 : FVec Ideal S10000x256 .f32) (a1 : FVec Ideal S256x256 .f32) (a2 : FVec Ideal S256 .f32)
    (a3 : FVec Ideal S256x256 .f32) (a4 : FVec Ideal S256 .f32) (a5 : FVec Ideal S256x256 .f32)
    (a6 : FVec Ideal S256 .f32) (a7 : FVec Ideal S256x10 .f32) (a8 : FVec Ideal S10 .f32)
    (a9 : IVec S2x320000 32) (a10 : IVec S10000 32)
    (h : Cert.Pre_finite_inputs.fn (F := Ideal) a0 a1 a2 a3 a4 a5 a6 a7 a8 a9 a10 = fun _ => 1#1) :
    ∀ j : S2x320000.Idx, 0 ≤ (a9 j).toInt ∧ (a9 j).toInt < 10000 := by
  have e := congrFun h ValueIdx.ix0
  dsimp only [fn, fn_part1, fn_part2, fn_part3] at e
  -- the last conjunction: (… ∧ all (x9 ≥ 0)) ∧ all (x9 < 10000)
  obtain ⟨e47, e50⟩ := IntOp.andi_eq_one.1 e
  obtain ⟨-, e46⟩ := IntOp.andi_eq_one.1 e47
  have hge := Host.reduce_andi_all _ _ _ _ _ e46
  have hlt := Host.reduce_andi_all _ _ _ _ _ e50
  intro j
  exact word_range (a9 j) (hge j) (hlt j)

end Cert.EdgeRange

end
-- ==== Proof.KernelLayout.lean ====
/-
  Three layout operations of the kernel's program, read at an index.

  (i) The slice of the first 10000 rows of a [10240, 256] array reads row r, column q of the array.
  (ii) The array padded with 240 rows below holds, in a row below 10000, the array's own entry.
  (iii) A [256] vector reshaped to [1, 256] holds at (0, q) the vector's entry q.
-/
import proofs.«175171_j58583353918035_2_alg».proof.KernelIdeal
import Idealize.ShloMosaic.Lib.Pipeline.Value
import Idealize.ShloMosaic.Lib.ValueIdx

noncomputable section

namespace Cert.KernelLayout

open Idealize.ShloMosaic Idealize.ShloMosaic.ValueIdx Cert.KernelIdeal

variable {α : Type}

/-- A row number below 10000 is a row number below 10240. -/
abbrev up (r : Fin 10000) : Fin 10240 := ⟨r.val, Nat.lt_of_lt_of_le r.isLt (by decide)⟩

/-- (i) The first 10000 rows of a [10240, 256] array, at (r, q). -/
theorem slice_rows_apply (x : S10240x256.Idx → α) (h : S10240x256.Slices ![0, 0] S10000x256) (r : Fin 10000) (q : Fin 256) :
    extractStridedSlice S10000x256 ![0, 0] x h (ix2 r q) = x (ix2 (up r) q) := by
  refine extractStridedSlice_apply ![0, 0] x h (ix2 r q) (ix2 (up r) q) (fun a => ?_)
  match a with
  | ⟨0, _⟩ => show r.val = 0 + r.val; omega
  | ⟨1, _⟩ => show q.val = 0 + q.val; omega

/-- (ii) A [10000, 256] array padded with 240 rows below, at a row below 10000. -/
theorem pad_rows_apply (x : S10000x256.Idx → α) {u : Shape} (v : u.Idx → α)
    (h : S10000x256.Pads (![0, 0] : Fin 2 → Nat) ![240, 0] ![0, 0] S10240x256) (hu : 0 < u.numel) (r : Fin 10000) (q : Fin 256) :
    pad S10240x256 ![0, 0] ![240, 0] ![0, 0] x v h hu (ix2 (up r) q) = x (ix2 r q) := by
  unfold pad
  split
  · refine congrArg x (funext fun a => Fin.ext ?_)
    match a with
    | ⟨0, _⟩ => show (r.val - 0) / (0 + 1) = r.val; omega
    | ⟨1, _⟩ => show (q.val - 0) / (0 + 1) = q.val; omega
  · rename_i hn
    refine absurd (fun a => ?_) hn
    match a with
    | ⟨0, _⟩ =>
      have := r.isLt
      show 0 ≤ r.val ∧ (r.val - 0) % (0 + 1) = 0 ∧ (r.val - 0) / (0 + 1) < 10000
      omega
    | ⟨1, _⟩ =>
      have := q.isLt
      show 0 ≤ q.val ∧ (q.val - 0) % (0 + 1) = 0 ∧ (q.val - 0) / (0 + 1) < 256
      omega

/-- (iii) A [256] vector reshaped to one row, at (0, q). -/
theorem reshape_row_apply (b : S256.Idx → α) (h : S256.ShapeCasts S1x256) (q : Fin 256) :
    shapeCast S1x256 b h (ix2 (0 : Fin 1) q) = b (ix1 q) := by
  refine shapeCast_apply b h (ix2 (0 : Fin 1) q) (ix1 q) ?_
  rewrite [Shape.rowMajor_val_two, Shape.rowMajor_val_one]
  show q.val = 0 * 256 + q.val
  omega

end Cert.KernelLayout

end
-- ==== Proof.KernelRun.lean ====
/-
  The idealized kernel program's run with its RESULT named.

  Every weakly fair execution of the program terminates without a fault, leaves the argument arrays as launched, and
  leaves in the result buffer what the fold of the program's segments — the stretches of host operations and the six
  regions' write-backs, in order — leaves there: the last boundary's contents at the result's reference.
-/
import proofs.«175171_j58583353918035_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- The run, with the result buffer read off the last boundary's contents and every argument as launched. -/
theorem run_result : θ_run defs (onTc (τ := τ) (main (F := F))) ⟨m, fun _ => 0, ρ⟩ (fun r => ∀ c : Dev nD,
      r.2.mem ((c.tc : Thread nD τ).loc main_v75) = W15 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v75 (by decide)),
       (h c _ (mem_uc main_arg0 (by decide))).trans (W15_main_arg0 m ρ c),
       (h c _ (mem_uc main_arg1 (by decide))).trans (W15_main_arg1 m ρ c),
       (h c _ (mem_uc main_arg2 (by decide))).trans (W15_main_arg2 m ρ c),
       (h c _ (mem_uc main_arg3 (by decide))).trans (W15_main_arg3 m ρ c),
       (h c _ (mem_uc main_arg4 (by decide))).trans (W15_main_arg4 m ρ c),
       (h c _ (mem_uc main_arg5 (by decide))).trans (W15_main_arg5 m ρ c),
       (h c _ (mem_uc main_arg6 (by decide))).trans (W15_main_arg6 m ρ c),
       (h c _ (mem_uc main_arg7 (by decide))).trans (W15_main_arg7 m ρ c),
       (h c _ (mem_uc main_arg8 (by decide))).trans (W15_main_arg8 m ρ c),
       (h c _ (mem_uc main_arg9 (by decide))).trans (W15_main_arg9 m ρ c),
       (h c _ (mem_uc main_arg10 (by decide))).trans (W15_main_arg10 m ρ c)⟩)

end Cert.KernelIdeal.RunValue

end
-- ==== Proof.LibStages.lean ====
/-
  Reading a long line of host operations in stretches.

  What a line of operations leaves in a buffer is a fold over the line (`StableHlo.after`). Read in one piece, the
  fold's term repeats every shared intermediate result once per use and its evaluation compares every buffer with
  every operation. Cut into stretches the fold is read stretch by stretch: a stretch's results as functions of what
  an ARBITRARY valuation holds in the buffers the stretch reads, and the buffers a stretch does not write kept as
  they were. The whole line's results are then the stretches' functions composed.
  `after_append`, `after_take_drop`: the fold over a line cut in two. `reads_stretch`: a stretch's result read off
  (the literal list computed, each operation's result rewritten once, the rest by unfolding). `keeps_stretch`: a buffer no
  operation of a stretch writes is kept (the references' inequalities decided one by one).
-/
import Idealize.ShloMosaic.Lib.StableHlo.Run

noncomputable section

namespace Cert.LibStages

open Idealize.ShloMosaic Idealize.ShloMosaic.StableHlo

variable {τ : Topo} {sig : RefSig} {Val : EltTy → Type}

/-- Two stretches run one after the other: the second from what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line cut after its first `k` operations. -/
theorem after_take_drop (k : Nat) (l : List (HloOp τ sig Val)) (V : Valuation τ sig Val) :
    after l V = after (l.drop k) (after (l.take k) V) := by
  rw [← after_append, List.take_append_drop]

/-- `reads_stretch [defs]`: closes `after ‹literal stretch› W ↑b = ‹the stretch's function of W's contents›`. -/
syntax "reads_stretch" "[" Lean.Parser.Tactic.simpLemma,* "]" : tactic
macro_rules
  | `(tactic| reads_stretch [$defs,*]) => `(tactic| (
      simp only [$defs,*, List.take_succ_cons, List.take_zero, List.drop_succ_cons, List.drop_zero,
        List.flatten_cons, List.flatten_nil, List.append_nil, List.cons_append, List.nil_append]
      after_results_simp
      rfl))

/-- `keeps_stretch [defs]`: closes `after ‹literal stretch› W ↑r = W ↑r` when no operation of the stretch writes `r`. -/
syntax "keeps_stretch" "[" Lean.Parser.Tactic.simpLemma,* "]" : tactic
macro_rules
  | `(tactic| keeps_stretch [$defs,*]) => `(tactic| (
      refine StableHlo.after_of_forall_not_mem _ _ (List.forall_iff_forall_mem.mp ?_)
      simp only [$defs,*, List.take_succ_cons, List.take_zero, List.drop_succ_cons, List.drop_zero,
        List.flatten_cons, List.flatten_nil, List.append_nil, List.cons_append, List.nil_append, List.Forall,
        StableHlo.nullary_writes, StableHlo.unary_writes, StableHlo.binary_writes, StableHlo.ternary_writes,
        StableHlo.quaternary_writes, StableHlo.reshape_writes, StableHlo.binaryIndexed_writes, StableHlo.nary_writes,
        Finset.mem_singleton]
      repeat' apply And.intro
      all_goals exact StableHlo.devRef_ne_of_ne (by decide)))

end Cert.LibStages

end
-- ==== Proof.KernelWalk.lean ====
/-
  Which buffers the segments of the idealized kernel program leave alone.

  The program is a line of segments: stretches of host operations and six regions. A stretch changes only the buffers
  its operations write, and a region only its own arrays. So an argument array, the propagation matrix and each
  region's result are found unchanged at every later boundary up to the segment that reads them: the contents at one
  boundary equal the contents at an earlier (or later) one, step by step.
-/
import proofs.«175171_j58583353918035_2_alg».proof.Proof.Gen.KernelIdeal.Frame
import proofs.«175171_j58583353918035_2_alg».proof.Proof.LibStages
import Idealize.ShloMosaic.PureOps.Ideal

noncomputable section

namespace Cert.KernelIdeal.Walk

open Cert.KernelIdeal Cert.KernelIdeal.Gen Cert.LibStages
open Idealize.ShloMosaic Idealize.ShloMosaic.TcCoe Idealize.SL.Sem Idealize.ShloMosaic.StableHlo

variable (m : (ℓ : Loc nD τ sig) → Buf (Elt Ideal) ℓ) (ρ : Dev nD → PrngReg)

/-! ## The argument arrays at the boundaries where a segment reads them -/

theorem arg1_at4 (c : Dev nD) : W4 m ρ c (Proc.devRef .tc main_arg1) = m ((c : Thread nD τ).loc main_arg1) :=
  calc W4 m ρ c (Proc.devRef .tc main_arg1)
    _ = W3 m ρ c (Proc.devRef .tc main_arg1) := (by keeps_stretch [hostOps0_3])
    _ = W2 m ρ c (Proc.devRef .tc main_arg1) := (by keeps_stretch [hostOps0_2])
    _ = W1 m ρ c (Proc.devRef .tc main_arg1) := (by keeps_stretch [hostOps0_1])
    _ = W0 m ρ c (Proc.devRef .tc main_arg1) := (by keeps_stretch [hostOps0])
    _ = m ((c : Thread nD τ).loc main_arg1) := rfl

theorem arg2_at5 (c : Dev nD) : W5 m ρ c (Proc.devRef .tc main_arg2) = m ((c : Thread nD τ).loc main_arg2) :=
  calc W5 m ρ c (Proc.devRef .tc main_arg2)
    _ = W4 m ρ c (Proc.devRef .tc main_arg2) := (W5_of_ne m ρ c main_arg2 (by decide))
    _ = W3 m ρ c (Proc.devRef .tc main_arg2) := (by keeps_stretch [hostOps0_3])
    _ = W2 m ρ c (Proc.devRef .tc main_arg2) := (by keeps_stretch [hostOps0_2])
    _ = W1 m ρ c (Proc.devRef .tc main_arg2) := (by keeps_stretch [hostOps0_1])
    _ = W0 m ρ c (Proc.devRef .tc main_arg2) := (by keeps_stretch [hostOps0])
    _ = m ((c : Thread nD τ).loc main_arg2) := rfl

theorem arg3_at7 (c : Dev nD) : W7 m ρ c (Proc.devRef .tc main_arg3) = m ((c : Thread nD τ).loc main_arg3) :=
  calc W7 m ρ c (Proc.devRef .tc main_arg3)
    _ = W6 m ρ c (Proc.devRef .tc main_arg3) := (W7_of_ne m ρ c main_arg3 (by decide))
    _ = W5 m ρ c (Proc.devRef .tc main_arg3) := (by keeps_stretch [hostOps1])
    _ = W4 m ρ c (Proc.devRef .tc main_arg3) := (W5_of_ne m ρ c main_arg3 (by decide))
    _ = W3 m ρ c (Proc.devRef .tc main_arg3) := (by keeps_stretch [hostOps0_3])
    _ = W2 m ρ c (Proc.devRef .tc main_arg3) := (by keeps_stretch [hostOps0_2])
    _ = W1 m ρ c (Proc.devRef .tc main_arg3) := (by keeps_stretch [hostOps0_1])
    _ = W0 m ρ c (Proc.devRef .tc main_arg3) := (by keeps_stretch [hostOps0])
    _ = m ((c : Thread nD τ).loc main_arg3) := rfl

theorem arg4_at8 (c : Dev nD) : W8 m ρ c (Proc.devRef .tc main_arg4) = m ((c : Thread nD τ).loc main_arg4) :=
  calc W8 m ρ c (Proc.devRef .tc main_arg4)
    _ = W9 m ρ c (Proc.devRef .tc main_arg4) := Eq.symm (by keeps_stretch [hostOps3])
    _ = W10 m ρ c (Proc.devRef .tc main_arg4) := Eq.symm (W10_of_ne m ρ c main_arg4 (by decide))
    _ = W11 m ρ c (Proc.devRef .tc main_arg4) := Eq.symm (W11_of_ne m ρ c main_arg4 (by decide))
    _ = W12 m ρ c (Proc.devRef .tc main_arg4) := Eq.symm (by keeps_stretch [hostOps5])
    _ = W13 m ρ c (Proc.devRef .tc main_arg4) := Eq.symm (W13_of_ne m ρ c main_arg4 (by decide))
    _ = W14 m ρ c (Proc.devRef .tc main_arg4) := Eq.symm (by keeps_stretch [hostOps6])
    _ = W15 m ρ c (Proc.devRef .tc main_arg4) := Eq.symm (by keeps_stretch [hostOps6_1])
    _ = m ((c : Thread nD τ).loc main_arg4) := W15_main_arg4 m ρ c

theorem arg5_at10 (c : Dev nD) : W10 m ρ c (Proc.devRef .tc main_arg5) = m ((c : Thread nD τ).loc main_arg5) :=
  calc W10 m ρ c (Proc.devRef .tc main_arg5)
    _ = W11 m ρ c (Proc.devRef .tc main_arg5) := Eq.symm ((W11_arr m ρ c 1).trans (((dat4 (V10 m ρ) c).arrAt_in 1 rfl _).trans (A_eq4 (V10 m ρ) c 1)))
    _ = W12 m ρ c (Proc.devRef .tc main_arg5) := Eq.symm (by keeps_stretch [hostOps5])
    _ = W13 m ρ c (Proc.devRef .tc main_arg5) := Eq.symm (W13_of_ne m ρ c main_arg5 (by decide))
    _ = W14 m ρ c (Proc.devRef .tc main_arg5) := Eq.symm (by keeps_stretch [hostOps6])
    _ = W15 m ρ c (Proc.devRef .tc main_arg5) := Eq.symm (by keeps_stretch [hostOps6_1])
    _ = m ((c : Thread nD τ).loc main_arg5) := W15_main_arg5 m ρ c

theorem arg6_at11 (c : Dev nD) : W11 m ρ c (Proc.devRef .tc main_arg6) = m ((c : Thread nD τ).loc main_arg6) :=
  calc W11 m ρ c (Proc.devRef .tc main_arg6)
    _ = W12 m ρ c (Proc.devRef .tc main_arg6) := Eq.symm (by keeps_stretch [hostOps5])
    _ = W13 m ρ c (Proc.devRef .tc main_arg6) := Eq.symm (W13_of_ne m ρ c main_arg6 (by decide))
    _ = W14 m ρ c (Proc.devRef .tc main_arg6) := Eq.symm (by keeps_stretch [hostOps6])
    _ = W15 m ρ c (Proc.devRef .tc main_arg6) := Eq.symm (by keeps_stretch [hostOps6_1])
    _ = m ((c : Thread nD τ).loc main_arg6) := W15_main_arg6 m ρ c

theorem arg7_at13 (c : Dev nD) : W13 m ρ c (Proc.devRef .tc main_arg7) = m ((c : Thread nD τ).loc main_arg7) :=
  calc W13 m ρ c (Proc.devRef .tc main_arg7)
    _ = W14 m ρ c (Proc.devRef .tc main_arg7) := Eq.symm (by keeps_stretch [hostOps6])
    _ = W15 m ρ c (Proc.devRef .tc main_arg7) := Eq.symm (by keeps_stretch [hostOps6_1])
    _ = m ((c : Thread nD τ).loc main_arg7) := W15_main_arg7 m ρ c

theorem arg8_at13 (c : Dev nD) : W13 m ρ c (Proc.devRef .tc main_arg8) = m ((c : Thread nD τ).loc main_arg8) :=
  calc W13 m ρ c (Proc.devRef .tc main_arg8)
    _ = W14 m ρ c (Proc.devRef .tc main_arg8) := Eq.symm (by keeps_stretch [hostOps6])
    _ = W15 m ρ c (Proc.devRef .tc main_arg8) := Eq.symm (by keeps_stretch [hostOps6_1])
    _ = m ((c : Thread nD τ).loc main_arg8) := W15_main_arg8 m ρ c

theorem arg10_at13 (c : Dev nD) : W13 m ρ c (Proc.devRef .tc main_arg10) = m ((c : Thread nD τ).loc main_arg10) :=
  calc W13 m ρ c (Proc.devRef .tc main_arg10)
    _ = W14 m ρ c (Proc.devRef .tc main_arg10) := Eq.symm (by keeps_stretch [hostOps6])
    _ = W15 m ρ c (Proc.devRef .tc main_arg10) := Eq.symm (by keeps_stretch [hostOps6_1])
    _ = m ((c : Thread nD τ).loc main_arg10) := W15_main_arg10 m ρ c

/-! ## The propagation matrix, written before the first region, at the three regions that read it -/

theorem adj_at6 (c : Dev nD) : W6 m ρ c (Proc.devRef .tc main_v47) = W4 m ρ c (Proc.devRef .tc main_v47) :=
  calc W6 m ρ c (Proc.devRef .tc main_v47)
    _ = W5 m ρ c (Proc.devRef .tc main_v47) := (by keeps_stretch [hostOps1])
    _ = W4 m ρ c (Proc.devRef .tc main_v47) := (W5_of_ne m ρ c main_v47 (by decide))

theorem adj_at9 (c : Dev nD) : W9 m ρ c (Proc.devRef .tc main_v47) = W6 m ρ c (Proc.devRef .tc main_v47) :=
  calc W9 m ρ c (Proc.devRef .tc main_v47)
    _ = W8 m ρ c (Proc.devRef .tc main_v47) := (by keeps_stretch [hostOps3])
    _ = W7 m ρ c (Proc.devRef .tc main_v47) := (W8_of_ne m ρ c main_v47 (by decide))
    _ = W6 m ρ c (Proc.devRef .tc main_v47) := ((W7_arr m ρ c 0).trans (((dat1 (V6 m ρ) c).arrAt_in 0 rfl _).trans (A_eq1 (V6 m ρ) c 0)))

theorem adj_at12 (c : Dev nD) : W12 m ρ c (Proc.devRef .tc main_v47) = W9 m ρ c (Proc.devRef .tc main_v47) :=
  calc W12 m ρ c (Proc.devRef .tc main_v47)
    _ = W11 m ρ c (Proc.devRef .tc main_v47) := (by keeps_stretch [hostOps5])
    _ = W10 m ρ c (Proc.devRef .tc main_v47) := (W11_of_ne m ρ c main_v47 (by decide))
    _ = W9 m ρ c (Proc.devRef .tc main_v47) := ((W10_arr m ρ c 0).trans (((dat3 (V9 m ρ) c).arrAt_in 0 rfl _).trans (A_eq3 (V9 m ρ) c 0)))

/-! ## Each transform's result across the bias reshape that follows it -/

theorem xw1_at6 (c : Dev nD) : W6 m ρ c (Proc.devRef .tc main_v49) = W5 m ρ c (Proc.devRef .tc main_v49) :=
  calc W6 m ρ c (Proc.devRef .tc main_v49)
    _ = W5 m ρ c (Proc.devRef .tc main_v49) := (by keeps_stretch [hostOps1])

theorem xw2_at9 (c : Dev nD) : W9 m ρ c (Proc.devRef .tc main_v52) = W8 m ρ c (Proc.devRef .tc main_v52) :=
  calc W9 m ρ c (Proc.devRef .tc main_v52)
    _ = W8 m ρ c (Proc.devRef .tc main_v52) := (by keeps_stretch [hostOps3])

theorem xw3_at12 (c : Dev nD) : W12 m ρ c (Proc.devRef .tc main_v55) = W11 m ρ c (Proc.devRef .tc main_v55) :=
  calc W12 m ρ c (Proc.devRef .tc main_v55)
    _ = W11 m ρ c (Proc.devRef .tc main_v55) := (by keeps_stretch [hostOps5])

end Cert.KernelIdeal.Walk

end
-- ==== Proof.KernelPrelude.lean ====
/-
  What the host operations before the first region leave in the buffers the regions read.

  The propagation matrix is a dense [10240, 10240] array of zeros into which every edge's weight is added at
  (destination, source); the activations are the input rows followed by 240 rows of padding; each bias is re-laid as
  one row. The edges' sources, destinations and weights are the same functions of the edge-index input that the
  reference program computes, so they are named by the reference's own stage functions.
-/
import proofs.«175171_j58583353918035_2_alg».proof.Proof.Gen.KernelIdeal.Frame
import proofs.«175171_j58583353918035_2_alg».proof.Proof.LibStages
import proofs.«175171_j58583353918035_2_alg».proof.Proof.RefRead
import Idealize.ShloMosaic.PureOps.Ideal

noncomputable section

namespace Cert.KernelIdeal.Prelude

open Cert.KernelIdeal Cert.KernelIdeal.Gen Cert.LibStages
open Idealize.ShloMosaic Idealize.ShloMosaic.TcCoe Idealize.SL.Sem Idealize.ShloMosaic.StableHlo
open Cert.ReferenceIdeal.ReadP

/-- A negative index counted from the end of a padded axis of extent 10240; a non-negative one is kept. -/
def wrapPad (v : IVec S330000 32) : IVec S330000 32 :=
  select (cmpi .slt v (broadcastInDim S330000 ![] bcast_S_S330000 (constantI S_ 32 0#32)))
    (addi v (broadcastInDim S330000 ![] bcast_S_S330000 (constantI S_ 32 10240#32))) v

/-- The (destination, source) pairs of the edges, as the scatter reads them: column 0 the destination, column 1 the source. -/
def idxPairs (x9 : IVec S2x320000 32) : IVec S330000x2 32 :=
  concatenate S330000x2 1
    [⟨S330000x1, broadcastInDim S330000x1 ![0] bcast_S330000_S330000x1_0 (wrapPad (val_main_v7 (F := Ideal) x9))⟩,
     ⟨S330000x1, broadcastInDim S330000x1 ![0] bcast_S330000_S330000x1_0 (wrapPad (val_main_v6 (F := Ideal) x9))⟩]
    concatenates_S330000x1_S330000x1_S330000x2_d1

/-- The propagation matrix as a function of the edge-index input: zeros plus every edge's weight at (destination, source). -/
def adjOf (x9 : IVec S2x320000 32) : FVec Ideal S10240x10240 .bf16 :=
  truncf .bf16 (Host.scatterAdd scatter_S10240x10240_S330000x2_S330000_n_01_01_1
    (broadcastInDim S10240x10240 ![] bcast_S_S10240x10240 (constant S_ .f32 0x00000000#32))
    (idxPairs x9) (val_main_v32 (F := Ideal) x9)) bitsLt_bf16_f32

variable (m : (ℓ : Loc nD τ sig) → Buf (Elt Ideal) ℓ) (ρ : Dev nD → PrngReg)

/-! ## The line of host operations before the first region, read in seven stretches

The line is cut so that each joining of two arrays is the FIRST operation of its stretch: the two rows of the edge array
and the self-loop numbers; the sources; the destinations; the degrees and their inverse square roots; the wrapped
index columns, the zero matrix and the edge weights; the joined index pairs and the scatter into the zero matrix.
Each stretch is read from an ARBITRARY valuation, so its results are functions of the buffers it reads, and a buffer
it does not write is kept. -/

/-- The 67 host operations before the first region, as one line. -/
abbrev lineAll : List (HloOp τ sig (Elt Ideal)) := hostOps0 ++ hostOps0_1 ++ hostOps0_2 ++ hostOps0_3

/-- The stretch of `n` operations from position `a`. -/
abbrev seg (a n : Nat) : List (HloOp τ sig (Elt Ideal)) := (lineAll.drop a).take n

/-- The whole line is its six stretches, one after the other. -/
theorem line_eq (V : Valuation τ sig (Elt Ideal)) : StableHlo.after lineAll V
    = StableHlo.after (seg 61 6) (StableHlo.after (seg 24 37) (StableHlo.after (seg 21 3) (StableHlo.after (seg 7 14) (StableHlo.after (seg 6 1)
        (StableHlo.after (seg 5 1) (StableHlo.after (seg 0 5) V)))))) := by
  simp only [seg, lineAll, hostOps0, hostOps0_1, hostOps0_2, hostOps0_3, List.take_succ_cons, List.take_zero, List.drop_succ_cons,
    List.drop_zero, List.cons_append, List.nil_append, List.append_nil]
  simp only [StableHlo.after_cons, StableHlo.after_nil]

/-- Stretch 1: the two rows of the edge array, flattened, and the self-loop numbers. -/
theorem s1 (V : Valuation τ sig (Elt Ideal)) :
    StableHlo.after (seg 0 5) V (Proc.devRef .tc main_v1) = val_main_v1 (F := Ideal) (V (Proc.devRef .tc main_arg9))
    ∧ StableHlo.after (seg 0 5) V (Proc.devRef .tc main_v3) = val_main_v3 (F := Ideal) (V (Proc.devRef .tc main_arg9))
    ∧ StableHlo.after (seg 0 5) V (Proc.devRef .tc main_v4) = val_main_v5 (F := Ideal) := by
  refine ⟨?_, ?_, ?_⟩ <;> (simp only [seg, lineAll, hostOps0, hostOps0_1, hostOps0_2, hostOps0_3, List.take_succ_cons, List.take_zero, List.drop_succ_cons,
    List.drop_zero, List.cons_append, List.nil_append, List.append_nil]; after_results_simp; rfl)

/-- Stretch 2: the sources (row 0 joined with the self loops); the destinations' pieces are kept. -/
theorem s2 (V : Valuation τ sig (Elt Ideal)) (x9 : IVec S2x320000 32)
    (h1 : V (Proc.devRef .tc main_v1) = val_main_v1 (F := Ideal) x9) (h4 : V (Proc.devRef .tc main_v4) = val_main_v5 (F := Ideal)) :
    StableHlo.after (seg 5 1) V (Proc.devRef .tc main_v5) = val_main_v6 (F := Ideal) x9
    ∧ StableHlo.after (seg 5 1) V (Proc.devRef .tc main_v3) = V (Proc.devRef .tc main_v3)
    ∧ StableHlo.after (seg 5 1) V (Proc.devRef .tc main_v4) = V (Proc.devRef .tc main_v4) := by
  refine ⟨?_, ?_, ?_⟩
  · simp only [seg, lineAll, hostOps0, hostOps0_1, hostOps0_2, hostOps0_3, List.take_succ_cons, List.take_zero, List.drop_succ_cons,
    List.drop_zero, List.cons_append, List.nil_append, List.append_nil]
    after_results_simp
    rw [h1, h4]; rfl
  · simp only [seg, lineAll, hostOps0, hostOps0_1, hostOps0_2, hostOps0_3, List.take_succ_cons, List.take_zero, List.drop_succ_cons,
    List.drop_zero, List.cons_append, List.nil_append, List.append_nil]
    after_results_simp
  · simp only [seg, lineAll, hostOps0, hostOps0_1, hostOps0_2, hostOps0_3, List.take_succ_cons, List.take_zero, List.drop_succ_cons,
    List.drop_zero, List.cons_append, List.nil_append, List.append_nil]
    after_results_simp

/-- Stretch 3: the destinations (row 1 joined with the self loops); the sources are kept. -/
theorem s3 (V : Valuation τ sig (Elt Ideal)) (x9 : IVec S2x320000 32)
    (h3 : V (Proc.devRef .tc main_v3) = val_main_v3 (F := Ideal) x9) (h4 : V (Proc.devRef .tc main_v4) = val_main_v5 (F := Ideal)) :
    StableHlo.after (seg 6 1) V (Proc.devRef .tc main_v6) = val_main_v7 (F := Ideal) x9
    ∧ StableHlo.after (seg 6 1) V (Proc.devRef .tc main_v5) = V (Proc.devRef .tc main_v5) := by
  refine ⟨?_, ?_⟩
  · simp only [seg, lineAll, hostOps0, hostOps0_1, hostOps0_2, hostOps0_3, List.take_succ_cons, List.take_zero, List.drop_succ_cons,
    List.drop_zero, List.cons_append, List.nil_append, List.append_nil]
    after_results_simp
    rw [h3, h4]; rfl
  · simp only [seg, lineAll, hostOps0, hostOps0_1, hostOps0_2, hostOps0_3, List.take_succ_cons, List.take_zero, List.drop_succ_cons,
    List.drop_zero, List.cons_append, List.nil_append, List.append_nil]
    after_results_simp

/-- Stretch 4: the degrees, the test "degree > 0", the inverse square roots of max(degree, 1), and the zero that stands for
    a node of degree 0; sources and destinations are kept. -/
theorem s4a (V : Valuation τ sig (Elt Ideal)) (x9 : IVec S2x320000 32)
    (h6 : V (Proc.devRef .tc main_v6) = val_main_v7 (F := Ideal) x9) :
    StableHlo.after (seg 7 14) V (Proc.devRef .tc main_v12) = val_main_v13 (F := Ideal) x9
    ∧ StableHlo.after (seg 7 14) V (Proc.devRef .tc main_v15) = val_main_v16 (F := Ideal) x9
    ∧ StableHlo.after (seg 7 14) V (Proc.devRef .tc main_cst_3) = val_main_cst_3 (F := Ideal)
    ∧ StableHlo.after (seg 7 14) V (Proc.devRef .tc main_v5) = V (Proc.devRef .tc main_v5)
    ∧ StableHlo.after (seg 7 14) V (Proc.devRef .tc main_v6) = V (Proc.devRef .tc main_v6) := by
  refine ⟨?_, ?_, ?_, ?_, ?_⟩
  · simp only [seg, lineAll, hostOps0, hostOps0_1, hostOps0_2, hostOps0_3, List.take_succ_cons, List.take_zero, List.drop_succ_cons,
    List.drop_zero, List.cons_append, List.nil_append, List.append_nil]
    after_results_simp
    rw [h6]
    simp only [val_main_v13, val_main_v12, val_main_cst_1, val_main_v11, val_main_v10, val_main_v9, val_main_cst_0,
      val_main_v8, val_main_cst]
    exact rfl
  · simp only [seg, lineAll, hostOps0, hostOps0_1, hostOps0_2, hostOps0_3, List.take_succ_cons, List.take_zero, List.drop_succ_cons,
    List.drop_zero, List.cons_append, List.nil_append, List.append_nil]
    after_results_simp
    rw [h6]
    simp only [val_main_v16, val_main_v15, val_main_v14, val_main_cst_2, val_main_v11, val_main_v10, val_main_v9, val_main_cst_0,
      val_main_v8, val_main_cst]
    exact rfl
  · simp only [seg, lineAll, hostOps0, hostOps0_1, hostOps0_2, hostOps0_3, List.take_succ_cons, List.take_zero, List.drop_succ_cons,
    List.drop_zero, List.cons_append, List.nil_append, List.append_nil]
    after_results_simp
    exact rfl
  · simp only [seg, lineAll, hostOps0, hostOps0_1, hostOps0_2, hostOps0_3, List.take_succ_cons, List.take_zero, List.drop_succ_cons,
    List.drop_zero, List.cons_append, List.nil_append, List.append_nil]
    after_results_simp
  · simp only [seg, lineAll, hostOps0, hostOps0_1, hostOps0_2, hostOps0_3, List.take_succ_cons, List.take_zero, List.drop_succ_cons,
    List.drop_zero, List.cons_append, List.nil_append, List.append_nil]
    after_results_simp

/-- Stretch 4, continued: the inverse square root of the degree where it is positive, 0 elsewhere. -/
theorem s4b (V : Valuation τ sig (Elt Ideal)) (x9 : IVec S2x320000 32)
    (h12 : V (Proc.devRef .tc main_v12) = val_main_v13 (F := Ideal) x9) (h15 : V (Proc.devRef .tc main_v15) = val_main_v16 (F := Ideal) x9)
    (hc : V (Proc.devRef .tc main_cst_3) = val_main_cst_3 (F := Ideal)) :
    StableHlo.after (seg 21 3) V (Proc.devRef .tc main_v16) = val_main_v17 (F := Ideal) x9
    ∧ StableHlo.after (seg 21 3) V (Proc.devRef .tc main_v5) = V (Proc.devRef .tc main_v5)
    ∧ StableHlo.after (seg 21 3) V (Proc.devRef .tc main_v6) = V (Proc.devRef .tc main_v6) := by
  refine ⟨?_, ?_, ?_⟩
  · simp only [seg, lineAll, hostOps0, hostOps0_1, hostOps0_2, hostOps0_3, List.take_succ_cons, List.take_zero, List.drop_succ_cons,
    List.drop_zero, List.cons_append, List.nil_append, List.append_nil]
    after_results_simp
    show select (V (Proc.devRef .tc main_v12)) (V (Proc.devRef .tc main_v15))
      (broadcastInDim S10000 ![] bcast_S_S10000 (id (V (Proc.devRef .tc main_cst_3)))) = _
    rw [h12, h15, hc]
    exact rfl
  · simp only [seg, lineAll, hostOps0, hostOps0_1, hostOps0_2, hostOps0_3, List.take_succ_cons, List.take_zero, List.drop_succ_cons,
    List.drop_zero, List.cons_append, List.nil_append, List.append_nil]
    after_results_simp
  · simp only [seg, lineAll, hostOps0, hostOps0_1, hostOps0_2, hostOps0_3, List.take_succ_cons, List.take_zero, List.drop_succ_cons,
    List.drop_zero, List.cons_append, List.nil_append, List.append_nil]
    after_results_simp

set_option maxRecDepth 65536 in
/-- Stretch 5: the wrapped destination and source columns, the zero matrix and the edge weights. -/
theorem s5 (V : Valuation τ sig (Elt Ideal)) (x9 : IVec S2x320000 32)
    (h5 : V (Proc.devRef .tc main_v5) = val_main_v6 (F := Ideal) x9) (h6 : V (Proc.devRef .tc main_v6) = val_main_v7 (F := Ideal) x9)
    (h16 : V (Proc.devRef .tc main_v16) = val_main_v17 (F := Ideal) x9) :
    StableHlo.after (seg 24 37) V (Proc.devRef .tc main_v43)
        = broadcastInDim S330000x1 ![0] bcast_S330000_S330000x1_0 (wrapPad (val_main_v7 (F := Ideal) x9))
    ∧ StableHlo.after (seg 24 37) V (Proc.devRef .tc main_v44)
        = broadcastInDim S330000x1 ![0] bcast_S330000_S330000x1_0 (wrapPad (val_main_v6 (F := Ideal) x9))
    ∧ StableHlo.after (seg 24 37) V (Proc.devRef .tc main_v32)
        = broadcastInDim S10240x10240 ![] bcast_S_S10240x10240 (constant (F := Ideal) S_ .f32 0x00000000#32)
    ∧ StableHlo.after (seg 24 37) V (Proc.devRef .tc main_v31) = val_main_v32 (F := Ideal) x9 := by
  refine ⟨?_, ?_, ?_, ?_⟩
  · simp only [seg, lineAll, hostOps0, hostOps0_1, hostOps0_2, hostOps0_3, List.take_succ_cons, List.take_zero, List.drop_succ_cons,
    List.drop_zero, List.cons_append, List.nil_append, List.append_nil]
    after_results_simp
    rw [h6]; rfl
  · simp only [seg, lineAll, hostOps0, hostOps0_1, hostOps0_2, hostOps0_3, List.take_succ_cons, List.take_zero, List.drop_succ_cons,
    List.drop_zero, List.cons_append, List.nil_append, List.append_nil]
    after_results_simp
    rw [h5]; rfl
  · simp only [seg, lineAll, hostOps0, hostOps0_1, hostOps0_2, hostOps0_3, List.take_succ_cons, List.take_zero, List.drop_succ_cons,
    List.drop_zero, List.cons_append, List.nil_append, List.append_nil]
    after_results_simp
  · simp only [seg, lineAll, hostOps0, hostOps0_1, hostOps0_2, hostOps0_3, List.take_succ_cons, List.take_zero, List.drop_succ_cons,
    List.drop_zero, List.cons_append, List.nil_append, List.append_nil]
    after_results_simp
    rw [h5, h6, h16]
    simp only [val_main_v32, val_main_v31, val_main_v30, val_main_v29, val_main_v28, val_main_v27, val_main_v26, val_main_v25,
      val_main_c_6, val_main_c_5, val_main_v24, val_main_v23, val_main_v22, val_main_v21, val_main_v20, val_main_c_4,
      val_main_v19, val_main_v18, val_main_c]
    exact rfl

/-- Stretch 6: the propagation matrix from the index columns, the zero matrix and the weights. -/
theorem s6 (V : Valuation τ sig (Elt Ideal)) :
    StableHlo.after (seg 61 6) V (Proc.devRef .tc main_v47)
      = truncf .bf16 (Host.scatterAdd (F := Ideal) (φ := .f32) scatter_S10240x10240_S330000x2_S330000_n_01_01_1 (V (Proc.devRef .tc main_v32))
          (concatenate S330000x2 1 [⟨S330000x1, V (Proc.devRef .tc main_v43)⟩, ⟨S330000x1, V (Proc.devRef .tc main_v44)⟩]
            concatenates_S330000x1_S330000x1_S330000x2_d1) (V (Proc.devRef .tc main_v31))) bitsLt_bf16_f32 := by
  simp only [seg, lineAll, hostOps0, hostOps0_1, hostOps0_2, hostOps0_3, List.take_succ_cons, List.take_zero, List.drop_succ_cons,
    List.drop_zero, List.cons_append, List.nil_append, List.append_nil]
  after_results_simp

/-- The first region's entry contents are the whole line run from the launch contents. -/
theorem W4_eq (c : Dev nD) : W4 m ρ c = StableHlo.after lineAll (W0 m ρ c) := by
  show StableHlo.after hostOps0_3 (StableHlo.after hostOps0_2 (StableHlo.after hostOps0_1 (StableHlo.after hostOps0 (W0 m ρ c)))) = _
  simp only [lineAll, StableHlo.after_append]

/-- The propagation matrix's buffer at the first region's entry. -/
theorem adj_eq (c : Dev nD) : W4 m ρ c (Proc.devRef .tc main_v47) = adjOf (m ((c : Thread nD τ).loc main_arg9)) := by
  rw [W4_eq, line_eq, s6]
  obtain ⟨a1, a3, a4⟩ := s1 (W0 m ρ c)
  obtain ⟨b5, b3, b4⟩ := s2 _ (m ((c : Thread nD τ).loc main_arg9)) a1 a4
  obtain ⟨c6, c5⟩ := s3 _ (m ((c : Thread nD τ).loc main_arg9)) (b3.trans a3) (b4.trans a4)
  obtain ⟨d12, d15, dc, d5, d6⟩ := s4a _ (m ((c : Thread nD τ).loc main_arg9)) c6
  obtain ⟨f16, f5, f6⟩ := s4b _ (m ((c : Thread nD τ).loc main_arg9)) d12 d15 dc
  obtain ⟨e43, e44, e32, e31⟩ := s5 _ (m ((c : Thread nD τ).loc main_arg9)) (f5.trans (d5.trans (c5.trans b5))) (f6.trans (d6.trans c6)) f16
  rw [e43, e44, e32, e31]
  rfl

/-- The padded activations' buffer at the first region's entry. -/
theorem x0_eq (c : Dev nD) : W4 m ρ c (Proc.devRef .tc main_v48)
    = pad S10240x256 ![0, 0] ![240, 0] ![0, 0] (m ((c : Thread nD τ).loc main_arg0))
        (sitofp (F := Ideal) .f32 (constantI S_ 32 0#32)) pads_S10000x256_S10240x256_02400_000 h_S_ := by
  show StableHlo.after hostOps0_3 (StableHlo.after hostOps0_2 (StableHlo.after hostOps0_1 (StableHlo.after hostOps0 (W0 m ρ c)))) _ = _
  simp only [← Cert.LibStages.after_append]
  simp only [hostOps0, hostOps0_1, hostOps0_2, hostOps0_3, List.cons_append, List.nil_append, List.append_nil]
  after_results_simp
  rfl

end Cert.KernelIdeal.Prelude

end
-- ==== Proof.KernelTail.lean ====
/-
  The kernel program's last two stretches of host operations are the reference's tail.

  After the sixth region the program slices the padded activations [10240, 256] to their first 10000 rows, pools the
  rows by graph (sums by an accumulating scatter, divided by the node counts, at least 1), applies the output layer
  and takes a log-softmax over each row. These are the operations the reference applies to its third layer's result,
  so what the program leaves in its result buffer is the reference's tail function of the sliced activations, the
  output weights, the output bias and the graph numbers as they stand after the sixth region.
-/
import proofs.«175171_j58583353918035_2_alg».proof.Proof.Gen.KernelIdeal.Frame
import proofs.«175171_j58583353918035_2_alg».proof.Proof.LibStages
import proofs.«175171_j58583353918035_2_alg».proof.Proof.RefLayer
import Idealize.ShloMosaic.PureOps.Ideal

noncomputable section

namespace Cert.KernelIdeal.Tail

open Cert.KernelIdeal Cert.KernelIdeal.Gen Cert.LibStages
open Idealize.ShloMosaic Idealize.ShloMosaic.TcCoe Idealize.SL.Sem Idealize.ShloMosaic.StableHlo

variable (m : (ℓ : Loc nD τ sig) → Buf (Elt Ideal) ℓ) (ρ : Dev nD → PrngReg)

/-- What the program leaves in its result buffer: the reference's tail function of the first 10000 rows of the
    padded activations, the output weights, the output bias and the graph numbers, each as it stands after the
    sixth region. The two stretches are read as one line of operations; each buffer lookup resolves to its
    operation's function of earlier buffers, and the resulting term is the tail's definition unfolded. -/
theorem tail_value (c : Dev nD) :
    W15 m ρ c (Proc.devRef .tc main_v75)
      = Cert.ReferenceIdeal.Layer.tailOf (F := Ideal)
          (extractStridedSlice S10000x256 ![0, 0] (W13 m ρ c (Proc.devRef .tc main_v57)) slices_S10240x256_S10000x256_0_0)
          (W13 m ρ c (Proc.devRef .tc main_arg7)) (W13 m ρ c (Proc.devRef .tc main_arg8))
          (W13 m ρ c (Proc.devRef .tc main_arg10)) := by
  show StableHlo.after hostOps6_1 (StableHlo.after hostOps6 (W13 m ρ c)) _ = _
  simp only [← Cert.LibStages.after_append]
  simp only [hostOps6, hostOps6_1, List.cons_append, List.nil_append, List.append_nil]
  after_results_simp
  generalize W13 m ρ c (Proc.devRef .tc main_v57) = a57
  generalize W13 m ρ c (Proc.devRef .tc main_arg7) = a7
  generalize W13 m ρ c (Proc.devRef .tc main_arg8) = a8
  generalize W13 m ρ c (Proc.devRef .tc main_arg10) = a10
  unfold Cert.ReferenceIdeal.Layer.tailOf
    Cert.ReferenceIdeal.Layer.tail_c10
    Cert.ReferenceIdeal.Layer.tail_c9
    Cert.ReferenceIdeal.Layer.tail_c8
    Cert.ReferenceIdeal.Layer.tail_c7
    Cert.ReferenceIdeal.Layer.tail_c6
    Cert.ReferenceIdeal.Layer.tail_c5
    Cert.ReferenceIdeal.Layer.tail_c4
    Cert.ReferenceIdeal.Layer.tail_c3
    Cert.ReferenceIdeal.Layer.tail_c2
    Cert.ReferenceIdeal.Layer.tail_c0
    Cert.ReferenceIdeal.Layer.tail_v157
    Cert.ReferenceIdeal.Layer.tail_v154
    Cert.ReferenceIdeal.Layer.tail_v153
    Cert.ReferenceIdeal.Layer.tail_v144
  simp only [Cert.ReferenceIdeal.ReadP.val_main_v142,
    Cert.ReferenceIdeal.ReadP.val_main_cst_34,
    Cert.ReferenceIdeal.ReadP.val_main_v143,
    Cert.ReferenceIdeal.ReadP.val_main_v152,
    Cert.ReferenceIdeal.ReadP.val_main_v151,
    Cert.ReferenceIdeal.ReadP.val_main_v150,
    Cert.ReferenceIdeal.ReadP.val_main_v148,
    Cert.ReferenceIdeal.ReadP.val_main_v149,
    Cert.ReferenceIdeal.ReadP.val_main_cst_37,
    Cert.ReferenceIdeal.ReadP.val_main_v146,
    Cert.ReferenceIdeal.ReadP.val_main_cst_36,
    Cert.ReferenceIdeal.ReadP.val_main_v147,
    Cert.ReferenceIdeal.ReadP.val_main_v145,
    Cert.ReferenceIdeal.ReadP.val_main_cst_35,
    Cert.ReferenceIdeal.ReadP.val_main_v156,
    Cert.ReferenceIdeal.ReadP.val_main_v155,
    Cert.ReferenceIdeal.ReadP.val_main_call6_cst,
    Cert.ReferenceIdeal.ReadP.val_main_call6_v1,
    Cert.ReferenceIdeal.ReadP.val_main_call6_cst_0,
    Cert.ReferenceIdeal.ReadP.val_main_call6_cst_1]
  rfl

end Cert.KernelIdeal.Tail

end
-- ==== Proof.Spec.lean ====
/-
  The graph-convolution network's two dense stages as plain functions on extended-real matrices, index by index.

  `transform H W` is the product of the activations with a square weight matrix: entry (r, c) is the sum over k of
  H(r, k) · W(k, c). `aggregate A X B` is one propagation step through a dense propagation matrix A: entry (r, c) is
  the larger of 0 and (sum over k of A(r, k) · X(k, c)) + B(0, c). Both are stated over literal extents, with
  indices built from their coordinates.
-/
import Idealize.ShloMosaic.PureOps.Ideal
import Idealize.ShloMosaic.Lib.ValueIdx

noncomputable section

open scoped BigOperators

namespace Cert.Gcn

open Idealize.ShloMosaic Idealize.ShloMosaic.ValueIdx

/-- An `a × b` matrix of extended reals, indexed by a rank-2 index. -/
abbrev Mat (a b : Nat) := (⟨2, ![a, b]⟩ : Shape).Idx → EReal

/-- The activations times a square weight matrix: entry (r, c) is `∑ k, H(r, k) · W(k, c)`. -/
def transform {n : Nat} (H : Mat n 256) (W : Mat 256 256) : Mat n 256 :=
  fun i => ∑ k : Fin 256, H (ix2 (⟨(i 0).val, idx2_lt0 i⟩ : Fin n) k) * W (ix2 k (⟨(i 1).val, idx2_lt1 i⟩ : Fin 256))

theorem transform_apply {n : Nat} (H : Mat n 256) (W : Mat 256 256) (r : Fin n) (c : Fin 256) :
    transform H W (ix2 r c) = ∑ k : Fin 256, H (ix2 r k) * W (ix2 k c) := rfl

/-- One propagation step: entry (r, c) is `max (∑ k, A(r, k) · X(k, c) + B(0, c)) 0`. -/
def aggregate {n : Nat} (A : Mat n n) (X : Mat n 256) (B : Mat 1 256) : Mat n 256 :=
  fun i => max (∑ k : Fin n, A (ix2 (⟨(i 0).val, idx2_lt0 i⟩ : Fin n) k) * X (ix2 k (⟨(i 1).val, idx2_lt1 i⟩ : Fin 256))
    + B (ix2 (0 : Fin 1) (⟨(i 1).val, idx2_lt1 i⟩ : Fin 256))) 0

theorem aggregate_apply {n : Nat} (A : Mat n n) (X : Mat n 256) (B : Mat 1 256) (r : Fin n) (c : Fin 256) :
    aggregate A X B (ix2 r c) = max (∑ k : Fin n, A (ix2 r k) * X (ix2 k c) + B (ix2 (0 : Fin 1) c)) 0 := rfl

end Cert.Gcn

end
-- ==== Proof.RegionValuesPay.lean ====
/-
  The two kernel bodies' arithmetic, read at one index.

  The transform body multiplies a 1024 × 256 block of activations by the 256 × 256 weight matrix: its entry (p, q) is
  the sum over k of x(p, k) · w(k, q). The aggregate body multiplies a 512 × 10240 block of the propagation matrix by
  the 10240 × 256 activations, adds the bias row and clamps below at zero: its entry (p, q) is
  max (∑ k, a(p, k) · h(k, q) + b(0, q)) 0. At the extended reals every narrowing of the float type is the identity,
  and a product accumulated into the zero matrix is the plain sum of products.
-/
import proofs.«175171_j58583353918035_2_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.KernelIdeal.RegionValues

open Cert.KernelIdeal Cert.KernelIdeal.Gen Idealize.ShloMosaic Idealize.ShloMosaic.ValueIdx

/-! ## The 1024 × 256 by 256 × 256 product -/

theorem lhsT_0 (i : S1024x256.Idx) (q : dot_S1024x256_S256x256_S1024x256_1_0_0_1_n_n.contr.Idx) :
    (dot_S1024x256_S256x256_S1024x256_1_0_0_1_n_n.lhsIdx i q 0).val = (i 0).val := by
  unfold DotDims.lhsIdx
  rw [dif_neg (show ¬(0 : Fin S1024x256.rank) ∈ dot_S1024x256_S256x256_S1024x256_1_0_0_1_n_n.lhsBatch by decide), dif_pos (show (0 : Fin S1024x256.rank) ∈ dot_S1024x256_S256x256_S1024x256_1_0_0_1_n_n.lhsNonContracting by decide)]
  rfl
theorem lhsT_1 (i : S1024x256.Idx) (q : dot_S1024x256_S256x256_S1024x256_1_0_0_1_n_n.contr.Idx) :
    (dot_S1024x256_S256x256_S1024x256_1_0_0_1_n_n.lhsIdx i q 1).val = (q ⟨0, by decide⟩).val :=
  dot_S1024x256_S256x256_S1024x256_1_0_0_1_n_n.lhsIdx_val_of_single rfl i q
theorem rhsT_0 (i : S1024x256.Idx) (q : dot_S1024x256_S256x256_S1024x256_1_0_0_1_n_n.contr.Idx) :
    (dot_S1024x256_S256x256_S1024x256_1_0_0_1_n_n.rhsIdx i q 0).val = (q ⟨0, by decide⟩).val :=
  dot_S1024x256_S256x256_S1024x256_1_0_0_1_n_n.rhsIdx_val_of_single rfl i q
theorem rhsT_1 (i : S1024x256.Idx) (q : dot_S1024x256_S256x256_S1024x256_1_0_0_1_n_n.contr.Idx) :
    (dot_S1024x256_S256x256_S1024x256_1_0_0_1_n_n.rhsIdx i q 1).val = (i 1).val := by
  unfold DotDims.rhsIdx
  rw [dif_neg (show ¬(1 : Fin S256x256.rank) ∈ dot_S1024x256_S256x256_S1024x256_1_0_0_1_n_n.rhsBatch by decide), dif_pos (show (1 : Fin S256x256.rank) ∈ dot_S1024x256_S256x256_S1024x256_1_0_0_1_n_n.rhsNonContracting by decide)]
  rfl

/-- The block product into the zero matrix, at entry (p, q): the sum over k of a(p, k) · b(k, q). -/
theorem matmulT_apply (a : FVec Ideal S1024x256 .bf16) (b : FVec Ideal S256x256 .bf16) (p : Fin 1024) (q : Fin 256) :
    matmul dot_S1024x256_S256x256_S1024x256_1_0_0_1_n_n none a b (constant (F := Ideal) S1024x256 .f32 0x00000000#32) (ix2 p q)
      = ∑ k : Fin 256, a (ix2 p k) * b (ix2 k q) := by
  simp only [matmul]
  rw [Ideal.matmul_constant_zero_apply, ← Equiv.sum_comp (ValueIdx.contrEquiv1 dot_S1024x256_S256x256_S1024x256_1_0_0_1_n_n 256 rfl rfl).symm]
  refine Finset.sum_congr rfl fun k _ => ?_
  have hk := ValueIdx.contrEquiv1_symm_val dot_S1024x256_S256x256_S1024x256_1_0_0_1_n_n 256 rfl rfl k
  have el : dot_S1024x256_S256x256_S1024x256_1_0_0_1_n_n.lhsIdx (ix2 p q) ((ValueIdx.contrEquiv1 dot_S1024x256_S256x256_S1024x256_1_0_0_1_n_n 256 rfl rfl).symm k) = ix2 p k := funext fun d => Fin.ext (by
    match d with
    | ⟨0, _⟩ => exact lhsT_0 _ _
    | ⟨1, _⟩ => exact (lhsT_1 _ _).trans hk)
  have er : dot_S1024x256_S256x256_S1024x256_1_0_0_1_n_n.rhsIdx (ix2 p q) ((ValueIdx.contrEquiv1 dot_S1024x256_S256x256_S1024x256_1_0_0_1_n_n 256 rfl rfl).symm k) = ix2 k q := funext fun d => Fin.ext (by
    match d with
    | ⟨0, _⟩ => exact (rhsT_0 _ _).trans hk
    | ⟨1, _⟩ => exact rhsT_1 _ _)
  rw [el, er]

/-- The transform body at entry (p, q). -/
theorem transformPay_apply (x0 : Vec Ideal S1024x256 .f32) (x1 : Vec Ideal S256x256 .f32) (p : Fin 1024) (q : Fin 256) :
    k0_pay1 (F := Ideal) x0 x1 (ix2 p q) = ∑ k : Fin 256, x0 (ix2 p k) * x1 (ix2 k q) := by
  unfold k0_pay1
  rw [shapeCast_self]
  rw [truncf_apply, matmulT_apply]
  rfl

theorem k2_pay1_eq : @k2_pay1 = @k0_pay1 := rfl
theorem k4_pay1_eq : @k4_pay1 = @k0_pay1 := rfl

/-- Regions 2 and 4 run the same body. -/
theorem transformPay2_apply (x0 : Vec Ideal S1024x256 .f32) (x1 : Vec Ideal S256x256 .f32) (p : Fin 1024) (q : Fin 256) :
    k2_pay1 (F := Ideal) x0 x1 (ix2 p q) = ∑ k : Fin 256, x0 (ix2 p k) * x1 (ix2 k q) := transformPay_apply x0 x1 p q
theorem transformPay4_apply (x0 : Vec Ideal S1024x256 .f32) (x1 : Vec Ideal S256x256 .f32) (p : Fin 1024) (q : Fin 256) :
    k4_pay1 (F := Ideal) x0 x1 (ix2 p q) = ∑ k : Fin 256, x0 (ix2 p k) * x1 (ix2 k q) := transformPay_apply x0 x1 p q

/-! ## The 512 × 10240 by 10240 × 256 product -/

theorem lhsA_0 (i : S512x256.Idx) (q : dot_S512x10240_S10240x256_S512x256_1_0_0_1_n_n.contr.Idx) :
    (dot_S512x10240_S10240x256_S512x256_1_0_0_1_n_n.lhsIdx i q 0).val = (i 0).val := by
  unfold DotDims.lhsIdx
  rw [dif_neg (show ¬(0 : Fin S512x10240.rank) ∈ dot_S512x10240_S10240x256_S512x256_1_0_0_1_n_n.lhsBatch by decide), dif_pos (show (0 : Fin S512x10240.rank) ∈ dot_S512x10240_S10240x256_S512x256_1_0_0_1_n_n.lhsNonContracting by decide)]
  rfl
theorem lhsA_1 (i : S512x256.Idx) (q : dot_S512x10240_S10240x256_S512x256_1_0_0_1_n_n.contr.Idx) :
    (dot_S512x10240_S10240x256_S512x256_1_0_0_1_n_n.lhsIdx i q 1).val = (q ⟨0, by decide⟩).val :=
  dot_S512x10240_S10240x256_S512x256_1_0_0_1_n_n.lhsIdx_val_of_single rfl i q
theorem rhsA_0 (i : S512x256.Idx) (q : dot_S512x10240_S10240x256_S512x256_1_0_0_1_n_n.contr.Idx) :
    (dot_S512x10240_S10240x256_S512x256_1_0_0_1_n_n.rhsIdx i q 0).val = (q ⟨0, by decide⟩).val :=
  dot_S512x10240_S10240x256_S512x256_1_0_0_1_n_n.rhsIdx_val_of_single rfl i q
theorem rhsA_1 (i : S512x256.Idx) (q : dot_S512x10240_S10240x256_S512x256_1_0_0_1_n_n.contr.Idx) :
    (dot_S512x10240_S10240x256_S512x256_1_0_0_1_n_n.rhsIdx i q 1).val = (i 1).val := by
  unfold DotDims.rhsIdx
  rw [dif_neg (show ¬(1 : Fin S10240x256.rank) ∈ dot_S512x10240_S10240x256_S512x256_1_0_0_1_n_n.rhsBatch by decide), dif_pos (show (1 : Fin S10240x256.rank) ∈ dot_S512x10240_S10240x256_S512x256_1_0_0_1_n_n.rhsNonContracting by decide)]
  rfl

/-- The block product into the zero matrix, at entry (p, q): the sum over k of a(p, k) · b(k, q). -/
theorem matmulA_apply (a : FVec Ideal S512x10240 .bf16) (b : FVec Ideal S10240x256 .bf16) (p : Fin 512) (q : Fin 256) :
    matmul dot_S512x10240_S10240x256_S512x256_1_0_0_1_n_n none a b (constant (F := Ideal) S512x256 .f32 0x00000000#32) (ix2 p q)
      = ∑ k : Fin 10240, a (ix2 p k) * b (ix2 k q) := by
  simp only [matmul]
  rw [Ideal.matmul_constant_zero_apply, ← Equiv.sum_comp (ValueIdx.contrEquiv1 dot_S512x10240_S10240x256_S512x256_1_0_0_1_n_n 10240 rfl rfl).symm]
  refine Finset.sum_congr rfl fun k _ => ?_
  have hk := ValueIdx.contrEquiv1_symm_val dot_S512x10240_S10240x256_S512x256_1_0_0_1_n_n 10240 rfl rfl k
  have el : dot_S512x10240_S10240x256_S512x256_1_0_0_1_n_n.lhsIdx (ix2 p q) ((ValueIdx.contrEquiv1 dot_S512x10240_S10240x256_S512x256_1_0_0_1_n_n 10240 rfl rfl).symm k) = ix2 p k := funext fun d => Fin.ext (by
    match d with
    | ⟨0, _⟩ => exact lhsA_0 _ _
    | ⟨1, _⟩ => exact (lhsA_1 _ _).trans hk)
  have er : dot_S512x10240_S10240x256_S512x256_1_0_0_1_n_n.rhsIdx (ix2 p q) ((ValueIdx.contrEquiv1 dot_S512x10240_S10240x256_S512x256_1_0_0_1_n_n 10240 rfl rfl).symm k) = ix2 k q := funext fun d => Fin.ext (by
    match d with
    | ⟨0, _⟩ => exact (rhsA_0 _ _).trans hk
    | ⟨1, _⟩ => exact rhsA_1 _ _)
  rw [el, er]

/-- The bias row spread over the 512 rows, at entry (p, q): the row's entry q. -/
theorem biasRow_apply (b : FVec Ideal S1x256 .f32) (p : Fin 512) (q : Fin 256) :
    broadcastTo S512x256 b broadcasts_S1x256_S512x256 (ix2 p q) = b (ix2 (0 : Fin 1) q) :=
  broadcastTo_apply b broadcasts_S1x256_S512x256 (ix2 p q) (ix2 (0 : Fin 1) q) (fun d => by
    match d with
    | ⟨0, _⟩ => rfl
    | ⟨1, _⟩ => rfl)

/-- The aggregate body at entry (p, q). -/
theorem aggregatePay_apply (x0 : Vec Ideal S512x10240 .bf16) (x1 : Vec Ideal S10240x256 .bf16) (x2 : Vec Ideal S1x256 .f32)
    (p : Fin 512) (q : Fin 256) :
    k1_pay1 (F := Ideal) x0 x1 x2 (ix2 p q)
      = max (∑ k : Fin 10240, x0 (ix2 p k) * x1 (ix2 k q) + x2 (ix2 (0 : Fin 1) q)) 0 := by
  unfold k1_pay1
  rw [shapeCast_self, shapeCast_self, shapeCast_self]
  rw [maximumf_apply, addf_apply, matmulA_apply, biasRow_apply, broadcast_apply]
  show max _ (Ideal.ofBits .f32 0x00000000#32) = _
  rw [Ideal.ofBits_zero_f32]

theorem k3_pay1_eq : @k3_pay1 = @k1_pay1 := rfl
theorem k5_pay1_eq : @k5_pay1 = @k1_pay1 := rfl

/-- Regions 3 and 5 run the same body. -/
theorem aggregatePay3_apply (x0 : Vec Ideal S512x10240 .bf16) (x1 : Vec Ideal S10240x256 .bf16) (x2 : Vec Ideal S1x256 .f32)
    (p : Fin 512) (q : Fin 256) :
    k3_pay1 (F := Ideal) x0 x1 x2 (ix2 p q)
      = max (∑ k : Fin 10240, x0 (ix2 p k) * x1 (ix2 k q) + x2 (ix2 (0 : Fin 1) q)) 0 := aggregatePay_apply x0 x1 x2 p q
theorem aggregatePay5_apply (x0 : Vec Ideal S512x10240 .bf16) (x1 : Vec Ideal S10240x256 .bf16) (x2 : Vec Ideal S1x256 .f32)
    (p : Fin 512) (q : Fin 256) :
    k5_pay1 (F := Ideal) x0 x1 x2 (ix2 p q)
      = max (∑ k : Fin 10240, x0 (ix2 p k) * x1 (ix2 k q) + x2 (ix2 (0 : Fin 1) q)) 0 := aggregatePay_apply x0 x1 x2 p q

end Cert.KernelIdeal.RegionValues

end
-- ==== Proof.RegionValues0.lean ====
/-
  Region 0: the transform stage over the whole array.

  The region runs the transform body at the ten points of its grid. Point t reads rows 1024·t … 1024·t + 1023 of the
  activations and the whole weight matrix, and writes the same rows of the result. So the result array, after the last
  point, is the product of the activations with the weight matrix, entry by entry.
-/
import proofs.«175171_j58583353918035_2_alg».proof.Proof.Gen.KernelIdeal.Frame
import proofs.«175171_j58583353918035_2_alg».proof.Proof.Spec
import proofs.«175171_j58583353918035_2_alg».proof.Proof.RegionValuesPay
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValues

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeroOffsets0 : (![0, 0] : Fin 2 → Nat) = fun _ => 0 := funext fun a => by fin_cases a <;> rfl

/-- The printed index maps over the grid: the activations' and the result's block index is (t, 0), the weights' (0, 0). -/
theorem blockIndex0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 10 :=
  (by decide +kernel : ∀ t : Fin grid0.N, _)

/-- The activations' block at point t, entry (p, k), is the array's entry (1024·t + p, k). -/
theorem actBlock0_apply (c : Dev nD) (t : Fin cfg0.N) (p : Fin 1024) (k : Fin 256) (r : Fin 10240)
    (hr : r.val = t.val * 1024 + p.val) :
    (iblk0 V c 0 t : Vec Ideal S1024x256 .f32) (ix2 p k)
      = (V c (Pipeline.arrRef spec0 0) : S10240x256.Idx → Elt Ideal .f32) (ix2 r k) := by
  obtain ⟨e0, e1, -⟩ := blockIndex0 t
  unfold iblk0
  rw [View.read_apply]
  show V c main_v48 _ = V c main_v48 _
  congr 1
  funext a
  apply Fin.ext
  match a with
  | ⟨0, _⟩ => show win0_0.index t (0 : Fin 2) * 1024 + 1 * p.val = r.val; rw [e0, hr]; omega
  | ⟨1, _⟩ => show win0_0.index t (1 : Fin 2) * 256 + 1 * k.val = k.val; rw [e1]; omega

/-- The weights' block at any point is the whole weight matrix. -/
theorem weightBlock0_apply (c : Dev nD) (t : Fin cfg0.N) (k : Fin 256) (q : Fin 256) :
    (iblk0 V c 1 t : Vec Ideal S256x256 .f32) (ix2 k q)
      = (V c (Pipeline.arrRef spec0 1) : S256x256.Idx → Elt Ideal .f32) (ix2 k q) := by
  obtain ⟨-, -, e0, e1, -⟩ := blockIndex0 t
  unfold iblk0
  rw [View.read_apply]
  show V c main_arg1 _ = V c main_arg1 _
  congr 1
  funext a
  apply Fin.ext
  match a with
  | ⟨0, _⟩ => show win0_1.index t (0 : Fin 2) * 256 + 1 * k.val = k.val; rw [e0]; omega
  | ⟨1, _⟩ => show win0_1.index t (1 : Fin 2) * 256 + 1 * q.val = q.val; rw [e1]; omega

/-- The result's block at point t sits at rows 1024·t … of the array. -/
theorem outBlock0_emb (t : Fin cfg0.N) (p : Fin 1024) (q : Fin 256) (r : Fin 10240)
    (hr : r.val = t.val * 1024 + p.val) :
    ((cfg0.win 2).blk t).view.emb (ix2 p q : S1024x256.Idx) = (ix2 r q : S10240x256.Idx) := by
  obtain ⟨-, -, -, -, e0, e1, -⟩ := blockIndex0 t
  funext a
  apply Fin.ext
  match a with
  | ⟨0, _⟩ => show win0_2.index t (0 : Fin 2) * 1024 + 1 * p.val = r.val; rw [e0, hr]; omega
  | ⟨1, _⟩ => show win0_2.index t (1 : Fin 2) * 256 + 1 * q.val = q.val; rw [e1]; omega

/-- An index of the result array is in point t's block iff each coordinate is in the block's range on its axis. -/
theorem mem_outBlock0 (t : Fin cfg0.N) (i : S10240x256.Idx) :
    i ∈ ((cfg0.win 2).blk t).view.set ↔ ∀ a : Fin 2, win0_2.index t a * S1024x256.size a ≤ (i a).val ∧ (i a).val < win0_2.index t a * S1024x256.size a + S1024x256.size a := by
  show i ∈ ((View.whole main_v49).slice (win0_2.rect t)).set ↔ _
  rw [View.set_slice_whole, Rect.mem_set_unit]
  exact Iff.rfl

/-- Every block index (n, 0) with n < 10 is some point's. -/
theorem blockOnto0 : ∀ n : Fin 10, ∃ t : Fin cfg0.N, win0_2.index t = ![n.val, 0] :=
  (by decide +kernel : ∀ n : Fin 10, ∃ t : Fin grid0.N, win0_2.index t = ![n.val, 0])

/-- Every index of the result array is in some writing point's block: row r is in the block of point r / 1024. -/
theorem covered0 (i : S10240x256.Idx) :
    ∃ t : Fin cfg0.N, (cfg0.win 2).flush t = true ∧ i ∈ ((cfg0.win 2).blk t).view.set := by
  have hi0 : (i 0).val < 10240 := (i 0).isLt
  have hi1 : (i 1).val < 256 := (i 1).isLt
  obtain ⟨t, ht⟩ := blockOnto0 ⟨(i 0).val / 1024, by omega⟩
  have q0 : win0_2.index t (0 : Fin 2) = (i 0).val / 1024 := congrFun ht 0
  have q1 : win0_2.index t (1 : Fin 2) = 0 := congrFun ht 1
  refine ⟨t, flush0_2 t, ?_⟩
  rw [mem_outBlock0]
  intro a
  match a with
  | ⟨0, _⟩ => show win0_2.index t (0 : Fin 2) * 1024 ≤ (i 0).val ∧ (i 0).val < win0_2.index t (0 : Fin 2) * 1024 + 1024; omega
  | ⟨1, _⟩ => show win0_2.index t (1 : Fin 2) * 256 ≤ (i 1).val ∧ (i 1).val < win0_2.index t (1 : Fin 2) * 256 + 256; omega

/-- What the result array ends holding: the activations times the weight matrix, as the region finds them. -/
abbrev product0 (c : Dev nD) : Cert.Gcn.Mat 10240 256 :=
  Cert.Gcn.transform (n := 10240) (V c (Pipeline.arrRef spec0 0) : S10240x256.Idx → Elt Ideal .f32)
    (V c (Pipeline.arrRef spec0 1) : S256x256.Idx → Elt Ideal .f32)

/-- What point t writes back is block t of the product. -/
theorem written0 (c : Dev nD) (t : Fin cfg0.N) :
    (dat0 (F := Ideal) V c).flushed 2 t = ((cfg0.win 2).blk t).view.read (Elt Ideal) (product0 V c) := by
  show (cfg0.win 2).cut (grid0.coords t) ((dat0 (F := Ideal) V c).after 2 t) = _
  rw [after0_2]
  unfold out0_2
  rw [View.canon_unit_zero zeroOffsets0]
  simp only [View.ld_unit_zero (S := S1024x256) zeroOffsets0, View.ld_unit_zero (S := S256x256) zeroOffsets0]
  refine funext fun (j : S1024x256.Idx) => ?_
  obtain ⟨p, q, rfl⟩ : ∃ (p : Fin 1024) (q : Fin 256), j = ix2 p q := ⟨j 0, j 1, eq_ix2 j⟩
  have ht : t.val < 10 := (blockIndex0 t).2.2.2.2.2.2
  have hp : p.val < 1024 := p.isLt
  show k0_pay1 (F := Ideal) (iblk0 V c 0 t) (iblk0 V c 1 t) (ix2 p q) = product0 V c (((cfg0.win 2).blk t).view.emb (ix2 p q : S1024x256.Idx))
  rw [outBlock0_emb t p q ⟨t.val * 1024 + p.val, by omega⟩ rfl]
  refine (transformPay_apply _ _ p q).trans ?_
  refine Eq.trans ?_ (Cert.Gcn.transform_apply _ _ _ q).symm
  refine Finset.sum_congr rfl fun k _ => ?_
  exact congrArg₂ (· * ·) (actBlock0_apply V c t p k _ rfl) (weightBlock0_apply V c t k q)

/-- The result array after the region's last point is the product of the activations with the weight matrix. -/
theorem transform0 (c : Dev nD) :
    (dat0 (F := Ideal) V c).arrAt 2 cfg0.N
      = Cert.Gcn.transform (n := 10240) (V c (Pipeline.arrRef spec0 0) : S10240x256.Idx → Elt Ideal .f32)
          (V c (Pipeline.arrRef spec0 1) : S256x256.Idx → Elt Ideal .f32) :=
  (dat0 (F := Ideal) V c).arrAt_eq_of_cover 2 (product0 V c) (fun t _ => written0 V c t) (covered0)

end Cert.KernelIdeal.RegionValues

end
-- ==== Proof.RegionValues1.lean ====
/-
  Region 1: the aggregate stage over the whole array.

  The region runs the aggregate body at the twenty points of its grid. Point t reads rows 512·t … 512·t + 511 of the
  propagation matrix, all of the activations and the bias row, and writes the same rows of the result. So the result
  array, after the last point, is one propagation step: entry (r, q) is max (∑ k, A(r, k) · X(k, q) + B(0, q)) 0.
-/
import proofs.«175171_j58583353918035_2_alg».proof.Proof.Gen.KernelIdeal.Frame
import proofs.«175171_j58583353918035_2_alg».proof.Proof.Spec
import proofs.«175171_j58583353918035_2_alg».proof.Proof.RegionValuesPay
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValues

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeroOffsets1 : (![0, 0] : Fin 2 → Nat) = fun _ => 0 := funext fun a => by fin_cases a <;> rfl

/-- The printed index maps over the grid: the propagation matrix's and the result's block index is (t, 0), the
    activations' and the bias row's (0, 0). -/
theorem blockIndex1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 ∧ t.val < 20 :=
  (by decide +kernel : ∀ t : Fin grid1.N, _)

/-- The propagation matrix's block at point t, entry (p, k), is the array's entry (512·t + p, k). -/
theorem propBlock1_apply (c : Dev nD) (t : Fin cfg1.N) (p : Fin 512) (k : Fin 10240) (r : Fin 10240)
    (hr : r.val = t.val * 512 + p.val) :
    (iblk1 V c 0 t : Vec Ideal S512x10240 .bf16) (ix2 p k)
      = (V c (Pipeline.arrRef spec1 0) : S10240x10240.Idx → Elt Ideal .bf16) (ix2 r k) := by
  obtain ⟨e0, e1, -⟩ := blockIndex1 t
  unfold iblk1
  rw [View.read_apply]
  show V c main_v47 _ = V c main_v47 _
  congr 1
  funext a
  apply Fin.ext
  match a with
  | ⟨0, _⟩ => show win1_0.index t (0 : Fin 2) * 512 + 1 * p.val = r.val; rw [e0, hr]; omega
  | ⟨1, _⟩ => show win1_0.index t (1 : Fin 2) * 10240 + 1 * k.val = k.val; rw [e1]; omega

/-- The activations' block at any point is the whole array. -/
theorem actBlock1_apply (c : Dev nD) (t : Fin cfg1.N) (k : Fin 10240) (q : Fin 256) :
    (iblk1 V c 1 t : Vec Ideal S10240x256 .bf16) (ix2 k q)
      = (V c (Pipeline.arrRef spec1 1) : S10240x256.Idx → Elt Ideal .bf16) (ix2 k q) := by
  obtain ⟨-, -, e0, e1, -⟩ := blockIndex1 t
  unfold iblk1
  rw [View.read_apply]
  show V c main_v49 _ = V c main_v49 _
  congr 1
  funext a
  apply Fin.ext
  match a with
  | ⟨0, _⟩ => show win1_1.index t (0 : Fin 2) * 10240 + 1 * k.val = k.val; rw [e0]; omega
  | ⟨1, _⟩ => show win1_1.index t (1 : Fin 2) * 256 + 1 * q.val = q.val; rw [e1]; omega

/-- The bias row's block at any point is the whole row. -/
theorem biasBlock1_apply (c : Dev nD) (t : Fin cfg1.N) (z : Fin 1) (q : Fin 256) :
    (iblk1 V c 2 t : Vec Ideal S1x256 .f32) (ix2 z q)
      = (V c (Pipeline.arrRef spec1 2) : S1x256.Idx → Elt Ideal .f32) (ix2 z q) := by
  obtain ⟨-, -, -, -, e0, e1, -⟩ := blockIndex1 t
  unfold iblk1
  rw [View.read_apply]
  show V c main_v50 _ = V c main_v50 _
  congr 1
  funext a
  apply Fin.ext
  match a with
  | ⟨0, _⟩ => show win1_2.index t (0 : Fin 2) * 1 + 1 * z.val = z.val; rw [e0]; omega
  | ⟨1, _⟩ => show win1_2.index t (1 : Fin 2) * 256 + 1 * q.val = q.val; rw [e1]; omega

/-- The result's block at point t sits at rows 512·t … of the array. -/
theorem outBlock1_emb (t : Fin cfg1.N) (p : Fin 512) (q : Fin 256) (r : Fin 10240)
    (hr : r.val = t.val * 512 + p.val) :
    ((cfg1.win 3).blk t).view.emb (ix2 p q : S512x256.Idx) = (ix2 r q : S10240x256.Idx) := by
  obtain ⟨-, -, -, -, -, -, e0, e1, -⟩ := blockIndex1 t
  funext a
  apply Fin.ext
  match a with
  | ⟨0, _⟩ => show win1_3.index t (0 : Fin 2) * 512 + 1 * p.val = r.val; rw [e0, hr]; omega
  | ⟨1, _⟩ => show win1_3.index t (1 : Fin 2) * 256 + 1 * q.val = q.val; rw [e1]; omega

/-- An index of the result array is in point t's block iff each coordinate is in the block's range on its axis. -/
theorem mem_outBlock1 (t : Fin cfg1.N) (i : S10240x256.Idx) :
    i ∈ ((cfg1.win 3).blk t).view.set ↔ ∀ a : Fin 2, win1_3.index t a * S512x256.size a ≤ (i a).val ∧ (i a).val < win1_3.index t a * S512x256.size a + S512x256.size a := by
  show i ∈ ((View.whole main_v51).slice (win1_3.rect t)).set ↔ _
  rw [View.set_slice_whole, Rect.mem_set_unit]
  exact Iff.rfl

/-- Every block index (n, 0) with n < 20 is some point's. -/
theorem blockOnto1 : ∀ n : Fin 20, ∃ t : Fin cfg1.N, win1_3.index t = ![n.val, 0] :=
  (by decide +kernel : ∀ n : Fin 20, ∃ t : Fin grid1.N, win1_3.index t = ![n.val, 0])

/-- Every index of the result array is in some writing point's block: row r is in the block of point r / 512. -/
theorem covered1 (i : S10240x256.Idx) :
    ∃ t : Fin cfg1.N, (cfg1.win 3).flush t = true ∧ i ∈ ((cfg1.win 3).blk t).view.set := by
  have hi0 : (i 0).val < 10240 := (i 0).isLt
  have hi1 : (i 1).val < 256 := (i 1).isLt
  obtain ⟨t, ht⟩ := blockOnto1 ⟨(i 0).val / 512, by omega⟩
  have q0 : win1_3.index t (0 : Fin 2) = (i 0).val / 512 := congrFun ht 0
  have q1 : win1_3.index t (1 : Fin 2) = 0 := congrFun ht 1
  refine ⟨t, flush1_3 t, ?_⟩
  rw [mem_outBlock1]
  intro a
  match a with
  | ⟨0, _⟩ => show win1_3.index t (0 : Fin 2) * 512 ≤ (i 0).val ∧ (i 0).val < win1_3.index t (0 : Fin 2) * 512 + 512; omega
  | ⟨1, _⟩ => show win1_3.index t (1 : Fin 2) * 256 ≤ (i 1).val ∧ (i 1).val < win1_3.index t (1 : Fin 2) * 256 + 256; omega

/-- What the result array ends holding: one propagation step of the arrays as the region finds them. -/
abbrev propagated1 (c : Dev nD) : Cert.Gcn.Mat 10240 256 :=
  Cert.Gcn.aggregate (n := 10240) (V c (Pipeline.arrRef spec1 0) : S10240x10240.Idx → Elt Ideal .bf16)
    (V c (Pipeline.arrRef spec1 1) : S10240x256.Idx → Elt Ideal .bf16)
    (V c (Pipeline.arrRef spec1 2) : S1x256.Idx → Elt Ideal .f32)

/-- What point t writes back is block t of the propagation step. -/
theorem written1 (c : Dev nD) (t : Fin cfg1.N) :
    (dat1 (F := Ideal) V c).flushed 3 t = ((cfg1.win 3).blk t).view.read (Elt Ideal) (propagated1 V c) := by
  show (cfg1.win 3).cut (grid1.coords t) ((dat1 (F := Ideal) V c).after 3 t) = _
  rw [after1_3]
  unfold out1_3
  rw [View.canon_unit_zero zeroOffsets1]
  simp only [View.ld_unit_zero (S := S512x10240) zeroOffsets1, View.ld_unit_zero (S := S10240x256) zeroOffsets1, View.ld_unit_zero (S := S1x256) zeroOffsets1]
  refine funext fun (j : S512x256.Idx) => ?_
  obtain ⟨p, q, rfl⟩ : ∃ (p : Fin 512) (q : Fin 256), j = ix2 p q := ⟨j 0, j 1, eq_ix2 j⟩
  have ht : t.val < 20 := (blockIndex1 t).2.2.2.2.2.2.2.2
  have hp : p.val < 512 := p.isLt
  show k1_pay1 (F := Ideal) (iblk1 V c 0 t) (iblk1 V c 1 t) (iblk1 V c 2 t) (ix2 p q) = propagated1 V c (((cfg1.win 3).blk t).view.emb (ix2 p q : S512x256.Idx))
  rw [outBlock1_emb t p q ⟨t.val * 512 + p.val, by omega⟩ rfl]
  refine (aggregatePay_apply _ _ _ p q).trans ?_
  refine Eq.trans ?_ (Cert.Gcn.aggregate_apply _ _ _ _ q).symm
  refine congrArg (fun s => max s 0) ?_
  refine congrArg₂ (· + ·) (Finset.sum_congr rfl fun k _ => ?_) (biasBlock1_apply V c t 0 q)
  exact congrArg₂ (· * ·) (propBlock1_apply V c t p k _ rfl) (actBlock1_apply V c t k q)

/-- The result array after the region's last point is one propagation step of the arrays the region finds. -/
theorem aggregate1 (c : Dev nD) :
    (dat1 (F := Ideal) V c).arrAt 3 cfg1.N
      = Cert.Gcn.aggregate (n := 10240) (V c (Pipeline.arrRef spec1 0) : S10240x10240.Idx → Elt Ideal .bf16)
          (V c (Pipeline.arrRef spec1 1) : S10240x256.Idx → Elt Ideal .bf16)
          (V c (Pipeline.arrRef spec1 2) : S1x256.Idx → Elt Ideal .f32) :=
  (dat1 (F := Ideal) V c).arrAt_eq_of_cover 3 (propagated1 V c) (fun t _ => written1 V c t) (covered1)

end Cert.KernelIdeal.RegionValues

end
-- ==== Proof.RegionValues2.lean ====
/-
  Region 2: the transform stage over the whole array.

  The region runs the transform body at the ten points of its grid. Point t reads rows 1024·t … 1024·t + 1023 of the
  activations and the whole weight matrix, and writes the same rows of the result. So the result array, after the last
  point, is the product of the activations with the weight matrix, entry by entry.
-/
import proofs.«175171_j58583353918035_2_alg».proof.Proof.Gen.KernelIdeal.Frame
import proofs.«175171_j58583353918035_2_alg».proof.Proof.Spec
import proofs.«175171_j58583353918035_2_alg».proof.Proof.RegionValuesPay
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValues

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeroOffsets2 : (![0, 0] : Fin 2 → Nat) = fun _ => 0 := funext fun a => by fin_cases a <;> rfl

/-- The printed index maps over the grid: the activations' and the result's block index is (t, 0), the weights' (0, 0). -/
theorem blockIndex2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 10 :=
  (by decide +kernel : ∀ t : Fin grid2.N, _)

/-- The activations' block at point t, entry (p, k), is the array's entry (1024·t + p, k). -/
theorem actBlock2_apply (c : Dev nD) (t : Fin cfg2.N) (p : Fin 1024) (k : Fin 256) (r : Fin 10240)
    (hr : r.val = t.val * 1024 + p.val) :
    (iblk2 V c 0 t : Vec Ideal S1024x256 .f32) (ix2 p k)
      = (V c (Pipeline.arrRef spec2 0) : S10240x256.Idx → Elt Ideal .f32) (ix2 r k) := by
  obtain ⟨e0, e1, -⟩ := blockIndex2 t
  unfold iblk2
  rw [View.read_apply]
  show V c main_v51 _ = V c main_v51 _
  congr 1
  funext a
  apply Fin.ext
  match a with
  | ⟨0, _⟩ => show win2_0.index t (0 : Fin 2) * 1024 + 1 * p.val = r.val; rw [e0, hr]; omega
  | ⟨1, _⟩ => show win2_0.index t (1 : Fin 2) * 256 + 1 * k.val = k.val; rw [e1]; omega

/-- The weights' block at any point is the whole weight matrix. -/
theorem weightBlock2_apply (c : Dev nD) (t : Fin cfg2.N) (k : Fin 256) (q : Fin 256) :
    (iblk2 V c 1 t : Vec Ideal S256x256 .f32) (ix2 k q)
      = (V c (Pipeline.arrRef spec2 1) : S256x256.Idx → Elt Ideal .f32) (ix2 k q) := by
  obtain ⟨-, -, e0, e1, -⟩ := blockIndex2 t
  unfold iblk2
  rw [View.read_apply]
  show V c main_arg3 _ = V c main_arg3 _
  congr 1
  funext a
  apply Fin.ext
  match a with
  | ⟨0, _⟩ => show win2_1.index t (0 : Fin 2) * 256 + 1 * k.val = k.val; rw [e0]; omega
  | ⟨1, _⟩ => show win2_1.index t (1 : Fin 2) * 256 + 1 * q.val = q.val; rw [e1]; omega

/-- The result's block at point t sits at rows 1024·t … of the array. -/
theorem outBlock2_emb (t : Fin cfg2.N) (p : Fin 1024) (q : Fin 256) (r : Fin 10240)
    (hr : r.val = t.val * 1024 + p.val) :
    ((cfg2.win 2).blk t).view.emb (ix2 p q : S1024x256.Idx) = (ix2 r q : S10240x256.Idx) := by
  obtain ⟨-, -, -, -, e0, e1, -⟩ := blockIndex2 t
  funext a
  apply Fin.ext
  match a with
  | ⟨0, _⟩ => show win2_2.index t (0 : Fin 2) * 1024 + 1 * p.val = r.val; rw [e0, hr]; omega
  | ⟨1, _⟩ => show win2_2.index t (1 : Fin 2) * 256 + 1 * q.val = q.val; rw [e1]; omega

/-- An index of the result array is in point t's block iff each coordinate is in the block's range on its axis. -/
theorem mem_outBlock2 (t : Fin cfg2.N) (i : S10240x256.Idx) :
    i ∈ ((cfg2.win 2).blk t).view.set ↔ ∀ a : Fin 2, win2_2.index t a * S1024x256.size a ≤ (i a).val ∧ (i a).val < win2_2.index t a * S1024x256.size a + S1024x256.size a := by
  show i ∈ ((View.whole main_v52).slice (win2_2.rect t)).set ↔ _
  rw [View.set_slice_whole, Rect.mem_set_unit]
  exact Iff.rfl

/-- Every block index (n, 0) with n < 10 is some point's. -/
theorem blockOnto2 : ∀ n : Fin 10, ∃ t : Fin cfg2.N, win2_2.index t = ![n.val, 0] :=
  (by decide +kernel : ∀ n : Fin 10, ∃ t : Fin grid2.N, win2_2.index t = ![n.val, 0])

/-- Every index of the result array is in some writing point's block: row r is in the block of point r / 1024. -/
theorem covered2 (i : S10240x256.Idx) :
    ∃ t : Fin cfg2.N, (cfg2.win 2).flush t = true ∧ i ∈ ((cfg2.win 2).blk t).view.set := by
  have hi0 : (i 0).val < 10240 := (i 0).isLt
  have hi1 : (i 1).val < 256 := (i 1).isLt
  obtain ⟨t, ht⟩ := blockOnto2 ⟨(i 0).val / 1024, by omega⟩
  have q0 : win2_2.index t (0 : Fin 2) = (i 0).val / 1024 := congrFun ht 0
  have q1 : win2_2.index t (1 : Fin 2) = 0 := congrFun ht 1
  refine ⟨t, flush2_2 t, ?_⟩
  rw [mem_outBlock2]
  intro a
  match a with
  | ⟨0, _⟩ => show win2_2.index t (0 : Fin 2) * 1024 ≤ (i 0).val ∧ (i 0).val < win2_2.index t (0 : Fin 2) * 1024 + 1024; omega
  | ⟨1, _⟩ => show win2_2.index t (1 : Fin 2) * 256 ≤ (i 1).val ∧ (i 1).val < win2_2.index t (1 : Fin 2) * 256 + 256; omega

/-- What the result array ends holding: the activations times the weight matrix, as the region finds them. -/
abbrev product2 (c : Dev nD) : Cert.Gcn.Mat 10240 256 :=
  Cert.Gcn.transform (n := 10240) (V c (Pipeline.arrRef spec2 0) : S10240x256.Idx → Elt Ideal .f32)
    (V c (Pipeline.arrRef spec2 1) : S256x256.Idx → Elt Ideal .f32)

/-- What point t writes back is block t of the product. -/
theorem written2 (c : Dev nD) (t : Fin cfg2.N) :
    (dat2 (F := Ideal) V c).flushed 2 t = ((cfg2.win 2).blk t).view.read (Elt Ideal) (product2 V c) := by
  show (cfg2.win 2).cut (grid2.coords t) ((dat2 (F := Ideal) V c).after 2 t) = _
  rw [after2_2]
  unfold out2_2
  rw [View.canon_unit_zero zeroOffsets2]
  simp only [View.ld_unit_zero (S := S1024x256) zeroOffsets2, View.ld_unit_zero (S := S256x256) zeroOffsets2]
  refine funext fun (j : S1024x256.Idx) => ?_
  obtain ⟨p, q, rfl⟩ : ∃ (p : Fin 1024) (q : Fin 256), j = ix2 p q := ⟨j 0, j 1, eq_ix2 j⟩
  have ht : t.val < 10 := (blockIndex2 t).2.2.2.2.2.2
  have hp : p.val < 1024 := p.isLt
  show k2_pay1 (F := Ideal) (iblk2 V c 0 t) (iblk2 V c 1 t) (ix2 p q) = product2 V c (((cfg2.win 2).blk t).view.emb (ix2 p q : S1024x256.Idx))
  rw [outBlock2_emb t p q ⟨t.val * 1024 + p.val, by omega⟩ rfl]
  refine (transformPay2_apply _ _ p q).trans ?_
  refine Eq.trans ?_ (Cert.Gcn.transform_apply _ _ _ q).symm
  refine Finset.sum_congr rfl fun k _ => ?_
  exact congrArg₂ (· * ·) (actBlock2_apply V c t p k _ rfl) (weightBlock2_apply V c t k q)

/-- The result array after the region's last point is the product of the activations with the weight matrix. -/
theorem transform2 (c : Dev nD) :
    (dat2 (F := Ideal) V c).arrAt 2 cfg2.N
      = Cert.Gcn.transform (n := 10240) (V c (Pipeline.arrRef spec2 0) : S10240x256.Idx → Elt Ideal .f32)
          (V c (Pipeline.arrRef spec2 1) : S256x256.Idx → Elt Ideal .f32) :=
  (dat2 (F := Ideal) V c).arrAt_eq_of_cover 2 (product2 V c) (fun t _ => written2 V c t) (covered2)

end Cert.KernelIdeal.RegionValues

end
-- ==== Proof.RegionValues3.lean ====
/-
  Region 3: the aggregate stage over the whole array.

  The region runs the aggregate body at the twenty points of its grid. Point t reads rows 512·t … 512·t + 511 of the
  propagation matrix, all of the activations and the bias row, and writes the same rows of the result. So the result
  array, after the last point, is one propagation step: entry (r, q) is max (∑ k, A(r, k) · X(k, q) + B(0, q)) 0.
-/
import proofs.«175171_j58583353918035_2_alg».proof.Proof.Gen.KernelIdeal.Frame
import proofs.«175171_j58583353918035_2_alg».proof.Proof.Spec
import proofs.«175171_j58583353918035_2_alg».proof.Proof.RegionValuesPay
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValues

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeroOffsets3 : (![0, 0] : Fin 2 → Nat) = fun _ => 0 := funext fun a => by fin_cases a <;> rfl

/-- The printed index maps over the grid: the propagation matrix's and the result's block index is (t, 0), the
    activations' and the bias row's (0, 0). -/
theorem blockIndex3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 ∧ t.val < 20 :=
  (by decide +kernel : ∀ t : Fin grid3.N, _)

/-- The propagation matrix's block at point t, entry (p, k), is the array's entry (512·t + p, k). -/
theorem propBlock3_apply (c : Dev nD) (t : Fin cfg3.N) (p : Fin 512) (k : Fin 10240) (r : Fin 10240)
    (hr : r.val = t.val * 512 + p.val) :
    (iblk3 V c 0 t : Vec Ideal S512x10240 .bf16) (ix2 p k)
      = (V c (Pipeline.arrRef spec3 0) : S10240x10240.Idx → Elt Ideal .bf16) (ix2 r k) := by
  obtain ⟨e0, e1, -⟩ := blockIndex3 t
  unfold iblk3
  rw [View.read_apply]
  show V c main_v47 _ = V c main_v47 _
  congr 1
  funext a
  apply Fin.ext
  match a with
  | ⟨0, _⟩ => show win3_0.index t (0 : Fin 2) * 512 + 1 * p.val = r.val; rw [e0, hr]; omega
  | ⟨1, _⟩ => show win3_0.index t (1 : Fin 2) * 10240 + 1 * k.val = k.val; rw [e1]; omega

/-- The activations' block at any point is the whole array. -/
theorem actBlock3_apply (c : Dev nD) (t : Fin cfg3.N) (k : Fin 10240) (q : Fin 256) :
    (iblk3 V c 1 t : Vec Ideal S10240x256 .bf16) (ix2 k q)
      = (V c (Pipeline.arrRef spec3 1) : S10240x256.Idx → Elt Ideal .bf16) (ix2 k q) := by
  obtain ⟨-, -, e0, e1, -⟩ := blockIndex3 t
  unfold iblk3
  rw [View.read_apply]
  show V c main_v52 _ = V c main_v52 _
  congr 1
  funext a
  apply Fin.ext
  match a with
  | ⟨0, _⟩ => show win3_1.index t (0 : Fin 2) * 10240 + 1 * k.val = k.val; rw [e0]; omega
  | ⟨1, _⟩ => show win3_1.index t (1 : Fin 2) * 256 + 1 * q.val = q.val; rw [e1]; omega

/-- The bias row's block at any point is the whole row. -/
theorem biasBlock3_apply (c : Dev nD) (t : Fin cfg3.N) (z : Fin 1) (q : Fin 256) :
    (iblk3 V c 2 t : Vec Ideal S1x256 .f32) (ix2 z q)
      = (V c (Pipeline.arrRef spec3 2) : S1x256.Idx → Elt Ideal .f32) (ix2 z q) := by
  obtain ⟨-, -, -, -, e0, e1, -⟩ := blockIndex3 t
  unfold iblk3
  rw [View.read_apply]
  show V c main_v53 _ = V c main_v53 _
  congr 1
  funext a
  apply Fin.ext
  match a with
  | ⟨0, _⟩ => show win3_2.index t (0 : Fin 2) * 1 + 1 * z.val = z.val; rw [e0]; omega
  | ⟨1, _⟩ => show win3_2.index t (1 : Fin 2) * 256 + 1 * q.val = q.val; rw [e1]; omega

/-- The result's block at point t sits at rows 512·t … of the array. -/
theorem outBlock3_emb (t : Fin cfg3.N) (p : Fin 512) (q : Fin 256) (r : Fin 10240)
    (hr : r.val = t.val * 512 + p.val) :
    ((cfg3.win 3).blk t).view.emb (ix2 p q : S512x256.Idx) = (ix2 r q : S10240x256.Idx) := by
  obtain ⟨-, -, -, -, -, -, e0, e1, -⟩ := blockIndex3 t
  funext a
  apply Fin.ext
  match a with
  | ⟨0, _⟩ => show win3_3.index t (0 : Fin 2) * 512 + 1 * p.val = r.val; rw [e0, hr]; omega
  | ⟨1, _⟩ => show win3_3.index t (1 : Fin 2) * 256 + 1 * q.val = q.val; rw [e1]; omega

/-- An index of the result array is in point t's block iff each coordinate is in the block's range on its axis. -/
theorem mem_outBlock3 (t : Fin cfg3.N) (i : S10240x256.Idx) :
    i ∈ ((cfg3.win 3).blk t).view.set ↔ ∀ a : Fin 2, win3_3.index t a * S512x256.size a ≤ (i a).val ∧ (i a).val < win3_3.index t a * S512x256.size a + S512x256.size a := by
  show i ∈ ((View.whole main_v54).slice (win3_3.rect t)).set ↔ _
  rw [View.set_slice_whole, Rect.mem_set_unit]
  exact Iff.rfl

/-- Every block index (n, 0) with n < 20 is some point's. -/
theorem blockOnto3 : ∀ n : Fin 20, ∃ t : Fin cfg3.N, win3_3.index t = ![n.val, 0] :=
  (by decide +kernel : ∀ n : Fin 20, ∃ t : Fin grid3.N, win3_3.index t = ![n.val, 0])

/-- Every index of the result array is in some writing point's block: row r is in the block of point r / 512. -/
theorem covered3 (i : S10240x256.Idx) :
    ∃ t : Fin cfg3.N, (cfg3.win 3).flush t = true ∧ i ∈ ((cfg3.win 3).blk t).view.set := by
  have hi0 : (i 0).val < 10240 := (i 0).isLt
  have hi1 : (i 1).val < 256 := (i 1).isLt
  obtain ⟨t, ht⟩ := blockOnto3 ⟨(i 0).val / 512, by omega⟩
  have q0 : win3_3.index t (0 : Fin 2) = (i 0).val / 512 := congrFun ht 0
  have q1 : win3_3.index t (1 : Fin 2) = 0 := congrFun ht 1
  refine ⟨t, flush3_3 t, ?_⟩
  rw [mem_outBlock3]
  intro a
  match a with
  | ⟨0, _⟩ => show win3_3.index t (0 : Fin 2) * 512 ≤ (i 0).val ∧ (i 0).val < win3_3.index t (0 : Fin 2) * 512 + 512; omega
  | ⟨1, _⟩ => show win3_3.index t (1 : Fin 2) * 256 ≤ (i 1).val ∧ (i 1).val < win3_3.index t (1 : Fin 2) * 256 + 256; omega

/-- What the result array ends holding: one propagation step of the arrays as the region finds them. -/
abbrev propagated3 (c : Dev nD) : Cert.Gcn.Mat 10240 256 :=
  Cert.Gcn.aggregate (n := 10240) (V c (Pipeline.arrRef spec3 0) : S10240x10240.Idx → Elt Ideal .bf16)
    (V c (Pipeline.arrRef spec3 1) : S10240x256.Idx → Elt Ideal .bf16)
    (V c (Pipeline.arrRef spec3 2) : S1x256.Idx → Elt Ideal .f32)

/-- What point t writes back is block t of the propagation step. -/
theorem written3 (c : Dev nD) (t : Fin cfg3.N) :
    (dat3 (F := Ideal) V c).flushed 3 t = ((cfg3.win 3).blk t).view.read (Elt Ideal) (propagated3 V c) := by
  show (cfg3.win 3).cut (grid3.coords t) ((dat3 (F := Ideal) V c).after 3 t) = _
  rw [after3_3]
  unfold out3_3
  rw [View.canon_unit_zero zeroOffsets3]
  simp only [View.ld_unit_zero (S := S512x10240) zeroOffsets3, View.ld_unit_zero (S := S10240x256) zeroOffsets3, View.ld_unit_zero (S := S1x256) zeroOffsets3]
  refine funext fun (j : S512x256.Idx) => ?_
  obtain ⟨p, q, rfl⟩ : ∃ (p : Fin 512) (q : Fin 256), j = ix2 p q := ⟨j 0, j 1, eq_ix2 j⟩
  have ht : t.val < 20 := (blockIndex3 t).2.2.2.2.2.2.2.2
  have hp : p.val < 512 := p.isLt
  show k3_pay1 (F := Ideal) (iblk3 V c 0 t) (iblk3 V c 1 t) (iblk3 V c 2 t) (ix2 p q) = propagated3 V c (((cfg3.win 3).blk t).view.emb (ix2 p q : S512x256.Idx))
  rw [outBlock3_emb t p q ⟨t.val * 512 + p.val, by omega⟩ rfl]
  refine (aggregatePay3_apply _ _ _ p q).trans ?_
  refine Eq.trans ?_ (Cert.Gcn.aggregate_apply _ _ _ _ q).symm
  refine congrArg (fun s => max s 0) ?_
  refine congrArg₂ (· + ·) (Finset.sum_congr rfl fun k _ => ?_) (biasBlock3_apply V c t 0 q)
  exact congrArg₂ (· * ·) (propBlock3_apply V c t p k _ rfl) (actBlock3_apply V c t k q)

/-- The result array after the region's last point is one propagation step of the arrays the region finds. -/
theorem aggregate3 (c : Dev nD) :
    (dat3 (F := Ideal) V c).arrAt 3 cfg3.N
      = Cert.Gcn.aggregate (n := 10240) (V c (Pipeline.arrRef spec3 0) : S10240x10240.Idx → Elt Ideal .bf16)
          (V c (Pipeline.arrRef spec3 1) : S10240x256.Idx → Elt Ideal .bf16)
          (V c (Pipeline.arrRef spec3 2) : S1x256.Idx → Elt Ideal .f32) :=
  (dat3 (F := Ideal) V c).arrAt_eq_of_cover 3 (propagated3 V c) (fun t _ => written3 V c t) (covered3)

end Cert.KernelIdeal.RegionValues

end
-- ==== Proof.RegionValues4.lean ====
/-
  Region 4: the transform stage over the whole array.

  The region runs the transform body at the ten points of its grid. Point t reads rows 1024·t … 1024·t + 1023 of the
  activations and the whole weight matrix, and writes the same rows of the result. So the result array, after the last
  point, is the product of the activations with the weight matrix, entry by entry.
-/
import proofs.«175171_j58583353918035_2_alg».proof.Proof.Gen.KernelIdeal.Frame
import proofs.«175171_j58583353918035_2_alg».proof.Proof.Spec
import proofs.«175171_j58583353918035_2_alg».proof.Proof.RegionValuesPay
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValues

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeroOffsets4 : (![0, 0] : Fin 2 → Nat) = fun _ => 0 := funext fun a => by fin_cases a <;> rfl

/-- The printed index maps over the grid: the activations' and the result's block index is (t, 0), the weights' (0, 0). -/
theorem blockIndex4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 ∧ t.val < 10 :=
  (by decide +kernel : ∀ t : Fin grid4.N, _)

/-- The activations' block at point t, entry (p, k), is the array's entry (1024·t + p, k). -/
theorem actBlock4_apply (c : Dev nD) (t : Fin cfg4.N) (p : Fin 1024) (k : Fin 256) (r : Fin 10240)
    (hr : r.val = t.val * 1024 + p.val) :
    (iblk4 V c 0 t : Vec Ideal S1024x256 .f32) (ix2 p k)
      = (V c (Pipeline.arrRef spec4 0) : S10240x256.Idx → Elt Ideal .f32) (ix2 r k) := by
  obtain ⟨e0, e1, -⟩ := blockIndex4 t
  unfold iblk4
  rw [View.read_apply]
  show V c main_v54 _ = V c main_v54 _
  congr 1
  funext a
  apply Fin.ext
  match a with
  | ⟨0, _⟩ => show win4_0.index t (0 : Fin 2) * 1024 + 1 * p.val = r.val; rw [e0, hr]; omega
  | ⟨1, _⟩ => show win4_0.index t (1 : Fin 2) * 256 + 1 * k.val = k.val; rw [e1]; omega

/-- The weights' block at any point is the whole weight matrix. -/
theorem weightBlock4_apply (c : Dev nD) (t : Fin cfg4.N) (k : Fin 256) (q : Fin 256) :
    (iblk4 V c 1 t : Vec Ideal S256x256 .f32) (ix2 k q)
      = (V c (Pipeline.arrRef spec4 1) : S256x256.Idx → Elt Ideal .f32) (ix2 k q) := by
  obtain ⟨-, -, e0, e1, -⟩ := blockIndex4 t
  unfold iblk4
  rw [View.read_apply]
  show V c main_arg5 _ = V c main_arg5 _
  congr 1
  funext a
  apply Fin.ext
  match a with
  | ⟨0, _⟩ => show win4_1.index t (0 : Fin 2) * 256 + 1 * k.val = k.val; rw [e0]; omega
  | ⟨1, _⟩ => show win4_1.index t (1 : Fin 2) * 256 + 1 * q.val = q.val; rw [e1]; omega

/-- The result's block at point t sits at rows 1024·t … of the array. -/
theorem outBlock4_emb (t : Fin cfg4.N) (p : Fin 1024) (q : Fin 256) (r : Fin 10240)
    (hr : r.val = t.val * 1024 + p.val) :
    ((cfg4.win 2).blk t).view.emb (ix2 p q : S1024x256.Idx) = (ix2 r q : S10240x256.Idx) := by
  obtain ⟨-, -, -, -, e0, e1, -⟩ := blockIndex4 t
  funext a
  apply Fin.ext
  match a with
  | ⟨0, _⟩ => show win4_2.index t (0 : Fin 2) * 1024 + 1 * p.val = r.val; rw [e0, hr]; omega
  | ⟨1, _⟩ => show win4_2.index t (1 : Fin 2) * 256 + 1 * q.val = q.val; rw [e1]; omega

/-- An index of the result array is in point t's block iff each coordinate is in the block's range on its axis. -/
theorem mem_outBlock4 (t : Fin cfg4.N) (i : S10240x256.Idx) :
    i ∈ ((cfg4.win 2).blk t).view.set ↔ ∀ a : Fin 2, win4_2.index t a * S1024x256.size a ≤ (i a).val ∧ (i a).val < win4_2.index t a * S1024x256.size a + S1024x256.size a := by
  show i ∈ ((View.whole main_v55).slice (win4_2.rect t)).set ↔ _
  rw [View.set_slice_whole, Rect.mem_set_unit]
  exact Iff.rfl

/-- Every block index (n, 0) with n < 10 is some point's. -/
theorem blockOnto4 : ∀ n : Fin 10, ∃ t : Fin cfg4.N, win4_2.index t = ![n.val, 0] :=
  (by decide +kernel : ∀ n : Fin 10, ∃ t : Fin grid4.N, win4_2.index t = ![n.val, 0])

/-- Every index of the result array is in some writing point's block: row r is in the block of point r / 1024. -/
theorem covered4 (i : S10240x256.Idx) :
    ∃ t : Fin cfg4.N, (cfg4.win 2).flush t = true ∧ i ∈ ((cfg4.win 2).blk t).view.set := by
  have hi0 : (i 0).val < 10240 := (i 0).isLt
  have hi1 : (i 1).val < 256 := (i 1).isLt
  obtain ⟨t, ht⟩ := blockOnto4 ⟨(i 0).val / 1024, by omega⟩
  have q0 : win4_2.index t (0 : Fin 2) = (i 0).val / 1024 := congrFun ht 0
  have q1 : win4_2.index t (1 : Fin 2) = 0 := congrFun ht 1
  refine ⟨t, flush4_2 t, ?_⟩
  rw [mem_outBlock4]
  intro a
  match a with
  | ⟨0, _⟩ => show win4_2.index t (0 : Fin 2) * 1024 ≤ (i 0).val ∧ (i 0).val < win4_2.index t (0 : Fin 2) * 1024 + 1024; omega
  | ⟨1, _⟩ => show win4_2.index t (1 : Fin 2) * 256 ≤ (i 1).val ∧ (i 1).val < win4_2.index t (1 : Fin 2) * 256 + 256; omega

/-- What the result array ends holding: the activations times the weight matrix, as the region finds them. -/
abbrev product4 (c : Dev nD) : Cert.Gcn.Mat 10240 256 :=
  Cert.Gcn.transform (n := 10240) (V c (Pipeline.arrRef spec4 0) : S10240x256.Idx → Elt Ideal .f32)
    (V c (Pipeline.arrRef spec4 1) : S256x256.Idx → Elt Ideal .f32)

/-- What point t writes back is block t of the product. -/
theorem written4 (c : Dev nD) (t : Fin cfg4.N) :
    (dat4 (F := Ideal) V c).flushed 2 t = ((cfg4.win 2).blk t).view.read (Elt Ideal) (product4 V c) := by
  show (cfg4.win 2).cut (grid4.coords t) ((dat4 (F := Ideal) V c).after 2 t) = _
  rw [after4_2]
  unfold out4_2
  rw [View.canon_unit_zero zeroOffsets4]
  simp only [View.ld_unit_zero (S := S1024x256) zeroOffsets4, View.ld_unit_zero (S := S256x256) zeroOffsets4]
  refine funext fun (j : S1024x256.Idx) => ?_
  obtain ⟨p, q, rfl⟩ : ∃ (p : Fin 1024) (q : Fin 256), j = ix2 p q := ⟨j 0, j 1, eq_ix2 j⟩
  have ht : t.val < 10 := (blockIndex4 t).2.2.2.2.2.2
  have hp : p.val < 1024 := p.isLt
  show k4_pay1 (F := Ideal) (iblk4 V c 0 t) (iblk4 V c 1 t) (ix2 p q) = product4 V c (((cfg4.win 2).blk t).view.emb (ix2 p q : S1024x256.Idx))
  rw [outBlock4_emb t p q ⟨t.val * 1024 + p.val, by omega⟩ rfl]
  refine (transformPay4_apply _ _ p q).trans ?_
  refine Eq.trans ?_ (Cert.Gcn.transform_apply _ _ _ q).symm
  refine Finset.sum_congr rfl fun k _ => ?_
  exact congrArg₂ (· * ·) (actBlock4_apply V c t p k _ rfl) (weightBlock4_apply V c t k q)

/-- The result array after the region's last point is the product of the activations with the weight matrix. -/
theorem transform4 (c : Dev nD) :
    (dat4 (F := Ideal) V c).arrAt 2 cfg4.N
      = Cert.Gcn.transform (n := 10240) (V c (Pipeline.arrRef spec4 0) : S10240x256.Idx → Elt Ideal .f32)
          (V c (Pipeline.arrRef spec4 1) : S256x256.Idx → Elt Ideal .f32) :=
  (dat4 (F := Ideal) V c).arrAt_eq_of_cover 2 (product4 V c) (fun t _ => written4 V c t) (covered4)

end Cert.KernelIdeal.RegionValues

end
-- ==== Proof.RegionValues5.lean ====
/-
  Region 5: the aggregate stage over the whole array.

  The region runs the aggregate body at the twenty points of its grid. Point t reads rows 512·t … 512·t + 511 of the
  propagation matrix, all of the activations and the bias row, and writes the same rows of the result. So the result
  array, after the last point, is one propagation step: entry (r, q) is max (∑ k, A(r, k) · X(k, q) + B(0, q)) 0.
-/
import proofs.«175171_j58583353918035_2_alg».proof.Proof.Gen.KernelIdeal.Frame
import proofs.«175171_j58583353918035_2_alg».proof.Proof.Spec
import proofs.«175171_j58583353918035_2_alg».proof.Proof.RegionValuesPay
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.RegionValues

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

theorem zeroOffsets5 : (![0, 0] : Fin 2 → Nat) = fun _ => 0 := funext fun a => by fin_cases a <;> rfl

/-- The printed index maps over the grid: the propagation matrix's and the result's block index is (t, 0), the
    activations' and the bias row's (0, 0). -/
theorem blockIndex5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 ∧ t.val < 20 :=
  (by decide +kernel : ∀ t : Fin grid5.N, _)

/-- The propagation matrix's block at point t, entry (p, k), is the array's entry (512·t + p, k). -/
theorem propBlock5_apply (c : Dev nD) (t : Fin cfg5.N) (p : Fin 512) (k : Fin 10240) (r : Fin 10240)
    (hr : r.val = t.val * 512 + p.val) :
    (iblk5 V c 0 t : Vec Ideal S512x10240 .bf16) (ix2 p k)
      = (V c (Pipeline.arrRef spec5 0) : S10240x10240.Idx → Elt Ideal .bf16) (ix2 r k) := by
  obtain ⟨e0, e1, -⟩ := blockIndex5 t
  unfold iblk5
  rw [View.read_apply]
  show V c main_v47 _ = V c main_v47 _
  congr 1
  funext a
  apply Fin.ext
  match a with
  | ⟨0, _⟩ => show win5_0.index t (0 : Fin 2) * 512 + 1 * p.val = r.val; rw [e0, hr]; omega
  | ⟨1, _⟩ => show win5_0.index t (1 : Fin 2) * 10240 + 1 * k.val = k.val; rw [e1]; omega

/-- The activations' block at any point is the whole array. -/
theorem actBlock5_apply (c : Dev nD) (t : Fin cfg5.N) (k : Fin 10240) (q : Fin 256) :
    (iblk5 V c 1 t : Vec Ideal S10240x256 .bf16) (ix2 k q)
      = (V c (Pipeline.arrRef spec5 1) : S10240x256.Idx → Elt Ideal .bf16) (ix2 k q) := by
  obtain ⟨-, -, e0, e1, -⟩ := blockIndex5 t
  unfold iblk5
  rw [View.read_apply]
  show V c main_v55 _ = V c main_v55 _
  congr 1
  funext a
  apply Fin.ext
  match a with
  | ⟨0, _⟩ => show win5_1.index t (0 : Fin 2) * 10240 + 1 * k.val = k.val; rw [e0]; omega
  | ⟨1, _⟩ => show win5_1.index t (1 : Fin 2) * 256 + 1 * q.val = q.val; rw [e1]; omega

/-- The bias row's block at any point is the whole row. -/
theorem biasBlock5_apply (c : Dev nD) (t : Fin cfg5.N) (z : Fin 1) (q : Fin 256) :
    (iblk5 V c 2 t : Vec Ideal S1x256 .f32) (ix2 z q)
      = (V c (Pipeline.arrRef spec5 2) : S1x256.Idx → Elt Ideal .f32) (ix2 z q) := by
  obtain ⟨-, -, -, -, e0, e1, -⟩ := blockIndex5 t
  unfold iblk5
  rw [View.read_apply]
  show V c main_v56 _ = V c main_v56 _
  congr 1
  funext a
  apply Fin.ext
  match a with
  | ⟨0, _⟩ => show win5_2.index t (0 : Fin 2) * 1 + 1 * z.val = z.val; rw [e0]; omega
  | ⟨1, _⟩ => show win5_2.index t (1 : Fin 2) * 256 + 1 * q.val = q.val; rw [e1]; omega

/-- The result's block at point t sits at rows 512·t … of the array. -/
theorem outBlock5_emb (t : Fin cfg5.N) (p : Fin 512) (q : Fin 256) (r : Fin 10240)
    (hr : r.val = t.val * 512 + p.val) :
    ((cfg5.win 3).blk t).view.emb (ix2 p q : S512x256.Idx) = (ix2 r q : S10240x256.Idx) := by
  obtain ⟨-, -, -, -, -, -, e0, e1, -⟩ := blockIndex5 t
  funext a
  apply Fin.ext
  match a with
  | ⟨0, _⟩ => show win5_3.index t (0 : Fin 2) * 512 + 1 * p.val = r.val; rw [e0, hr]; omega
  | ⟨1, _⟩ => show win5_3.index t (1 : Fin 2) * 256 + 1 * q.val = q.val; rw [e1]; omega

/-- An index of the result array is in point t's block iff each coordinate is in the block's range on its axis. -/
theorem mem_outBlock5 (t : Fin cfg5.N) (i : S10240x256.Idx) :
    i ∈ ((cfg5.win 3).blk t).view.set ↔ ∀ a : Fin 2, win5_3.index t a * S512x256.size a ≤ (i a).val ∧ (i a).val < win5_3.index t a * S512x256.size a + S512x256.size a := by
  show i ∈ ((View.whole main_v57).slice (win5_3.rect t)).set ↔ _
  rw [View.set_slice_whole, Rect.mem_set_unit]
  exact Iff.rfl

/-- Every block index (n, 0) with n < 20 is some point's. -/
theorem blockOnto5 : ∀ n : Fin 20, ∃ t : Fin cfg5.N, win5_3.index t = ![n.val, 0] :=
  (by decide +kernel : ∀ n : Fin 20, ∃ t : Fin grid5.N, win5_3.index t = ![n.val, 0])

/-- Every index of the result array is in some writing point's block: row r is in the block of point r / 512. -/
theorem covered5 (i : S10240x256.Idx) :
    ∃ t : Fin cfg5.N, (cfg5.win 3).flush t = true ∧ i ∈ ((cfg5.win 3).blk t).view.set := by
  have hi0 : (i 0).val < 10240 := (i 0).isLt
  have hi1 : (i 1).val < 256 := (i 1).isLt
  obtain ⟨t, ht⟩ := blockOnto5 ⟨(i 0).val / 512, by omega⟩
  have q0 : win5_3.index t (0 : Fin 2) = (i 0).val / 512 := congrFun ht 0
  have q1 : win5_3.index t (1 : Fin 2) = 0 := congrFun ht 1
  refine ⟨t, flush5_3 t, ?_⟩
  rw [mem_outBlock5]
  intro a
  match a with
  | ⟨0, _⟩ => show win5_3.index t (0 : Fin 2) * 512 ≤ (i 0).val ∧ (i 0).val < win5_3.index t (0 : Fin 2) * 512 + 512; omega
  | ⟨1, _⟩ => show win5_3.index t (1 : Fin 2) * 256 ≤ (i 1).val ∧ (i 1).val < win5_3.index t (1 : Fin 2) * 256 + 256; omega

/-- What the result array ends holding: one propagation step of the arrays as the region finds them. -/
abbrev propagated5 (c : Dev nD) : Cert.Gcn.Mat 10240 256 :=
  Cert.Gcn.aggregate (n := 10240) (V c (Pipeline.arrRef spec5 0) : S10240x10240.Idx → Elt Ideal .bf16)
    (V c (Pipeline.arrRef spec5 1) : S10240x256.Idx → Elt Ideal .bf16)
    (V c (Pipeline.arrRef spec5 2) : S1x256.Idx → Elt Ideal .f32)

/-- What point t writes back is block t of the propagation step. -/
theorem written5 (c : Dev nD) (t : Fin cfg5.N) :
    (dat5 (F := Ideal) V c).flushed 3 t = ((cfg5.win 3).blk t).view.read (Elt Ideal) (propagated5 V c) := by
  show (cfg5.win 3).cut (grid5.coords t) ((dat5 (F := Ideal) V c).after 3 t) = _
  rw [after5_3]
  unfold out5_3
  rw [View.canon_unit_zero zeroOffsets5]
  simp only [View.ld_unit_zero (S := S512x10240) zeroOffsets5, View.ld_unit_zero (S := S10240x256) zeroOffsets5, View.ld_unit_zero (S := S1x256) zeroOffsets5]
  refine funext fun (j : S512x256.Idx) => ?_
  obtain ⟨p, q, rfl⟩ : ∃ (p : Fin 512) (q : Fin 256), j = ix2 p q := ⟨j 0, j 1, eq_ix2 j⟩
  have ht : t.val < 20 := (blockIndex5 t).2.2.2.2.2.2.2.2
  have hp : p.val < 512 := p.isLt
  show k5_pay1 (F := Ideal) (iblk5 V c 0 t) (iblk5 V c 1 t) (iblk5 V c 2 t) (ix2 p q) = propagated5 V c (((cfg5.win 3).blk t).view.emb (ix2 p q : S512x256.Idx))
  rw [outBlock5_emb t p q ⟨t.val * 512 + p.val, by omega⟩ rfl]
  refine (aggregatePay5_apply _ _ _ p q).trans ?_
  refine Eq.trans ?_ (Cert.Gcn.aggregate_apply _ _ _ _ q).symm
  refine congrArg (fun s => max s 0) ?_
  refine congrArg₂ (· + ·) (Finset.sum_congr rfl fun k _ => ?_) (biasBlock5_apply V c t 0 q)
  exact congrArg₂ (· * ·) (propBlock5_apply V c t p k _ rfl) (actBlock5_apply V c t k q)

/-- The result array after the region's last point is one propagation step of the arrays the region finds. -/
theorem aggregate5 (c : Dev nD) :
    (dat5 (F := Ideal) V c).arrAt 3 cfg5.N
      = Cert.Gcn.aggregate (n := 10240) (V c (Pipeline.arrRef spec5 0) : S10240x10240.Idx → Elt Ideal .bf16)
          (V c (Pipeline.arrRef spec5 1) : S10240x256.Idx → Elt Ideal .bf16)
          (V c (Pipeline.arrRef spec5 2) : S1x256.Idx → Elt Ideal .f32) :=
  (dat5 (F := Ideal) V c).arrAt_eq_of_cover 3 (propagated5 V c) (fun t _ => written5 V c t) (covered5)

end Cert.KernelIdeal.RegionValues

end
-- ==== Proof.RegionValues.lean ====
/-
  What each of the six regions writes, as one function of the arrays it finds: regions 0, 2, 4 the product of the
  activations with a weight matrix, regions 1, 3, 5 one propagation step. One module per region.
-/
import proofs.«175171_j58583353918035_2_alg».proof.Proof.RegionValues0
import proofs.«175171_j58583353918035_2_alg».proof.Proof.RegionValues1
import proofs.«175171_j58583353918035_2_alg».proof.Proof.RegionValues2
import proofs.«175171_j58583353918035_2_alg».proof.Proof.RegionValues3
import proofs.«175171_j58583353918035_2_alg».proof.Proof.RegionValues4
import proofs.«175171_j58583353918035_2_alg».proof.Proof.RegionValues5
-- ==== Proof.KernelValue.lean ====
/-
  The idealized kernel program's result as a function of its arguments.

  Each of the six regions writes one whole-array function of the arrays it reads (the two dense stages of
  `Cert.Gcn`); the host operations between them only re-lay a bias as one row; the operations after the last region are
  the reference's own tail applied to the real rows of the last region's result. Composing the stages along the
  program's segments: the result is the tail of the first 10000 rows of

    H3 = aggregate A (transform H2 W3) b3,  H2 = aggregate A (transform H1 W2) b2,  H1 = aggregate A (transform X W1) b1,

  with A the propagation matrix and X the padded input.
-/
import proofs.«175171_j58583353918035_2_alg».proof.Proof.KernelWalk
import proofs.«175171_j58583353918035_2_alg».proof.Proof.KernelPrelude
import proofs.«175171_j58583353918035_2_alg».proof.Proof.KernelTail
import proofs.«175171_j58583353918035_2_alg».proof.Proof.RegionValues
import proofs.«175171_j58583353918035_2_alg».proof.Proof.Spec

noncomputable section

namespace Cert.KernelIdeal.Value

open Cert.KernelIdeal Cert.KernelIdeal.Gen Cert.LibStages Cert.KernelIdeal.Walk Cert.KernelIdeal.Prelude
open Idealize.ShloMosaic Idealize.ShloMosaic.TcCoe Idealize.SL.Sem Idealize.ShloMosaic.StableHlo

variable (m : (ℓ : Loc nD τ sig) → Buf (Elt Ideal) ℓ) (ρ : Dev nD → PrngReg)

/-- The three biases as launched, re-laid as one row each. -/
def biasRow (b : FVec Ideal S256 .f32) : FVec Ideal S1x256 .f32 := shapeCast S1x256 b shapeCasts_S256_S1x256

/-- The padded input. -/
def padded (x : FVec Ideal S10000x256 .f32) : FVec Ideal S10240x256 .f32 :=
  pad S10240x256 ![0, 0] ![240, 0] ![0, 0] x (sitofp (F := Ideal) .f32 (constantI S_ 32 0#32)) pads_S10000x256_S10240x256_02400_000 h_S_

/-- One layer of the kernel program: the transform then the propagation. -/
def layer (A : FVec Ideal S10240x10240 .bf16) (H : FVec Ideal S10240x256 .f32) (W : FVec Ideal S256x256 .f32)
    (b : FVec Ideal S256 .f32) : FVec Ideal S10240x256 .f32 :=
  Cert.Gcn.aggregate (n := 10240) A (Cert.Gcn.transform (n := 10240) H W) (biasRow b)

/-! ## The bias rows -/

theorem bias1 (c : Dev nD) : W6 m ρ c (Proc.devRef .tc main_v50) = biasRow (m ((c : Thread nD τ).loc main_arg2)) := by
  rw [← arg2_at5 m ρ c]
  show StableHlo.after hostOps1 (W5 m ρ c) _ = _
  reads_stretch [hostOps1]

theorem bias2 (c : Dev nD) : W9 m ρ c (Proc.devRef .tc main_v53) = biasRow (m ((c : Thread nD τ).loc main_arg4)) := by
  rw [← arg4_at8 m ρ c]
  show StableHlo.after hostOps3 (W8 m ρ c) _ = _
  reads_stretch [hostOps3]

theorem bias3 (c : Dev nD) : W12 m ρ c (Proc.devRef .tc main_v56) = biasRow (m ((c : Thread nD τ).loc main_arg6)) := by
  rw [← arg6_at11 m ρ c]
  show StableHlo.after hostOps5 (W11 m ρ c) _ = _
  reads_stretch [hostOps5]

/-! ## The six regions' results, in order -/

/-- The propagation matrix, as every propagation region finds it. -/
abbrev A (c : Dev nD) : FVec Ideal S10240x10240 .bf16 := adjOf (m ((c : Thread nD τ).loc main_arg9))

theorem xw1 (c : Dev nD) : W5 m ρ c (Proc.devRef .tc main_v49)
    = Cert.Gcn.transform (n := 10240) (padded (m ((c : Thread nD τ).loc main_arg0))) (m ((c : Thread nD τ).loc main_arg1)) := by
  refine ((W5_arr m ρ c 2).trans (Cert.KernelIdeal.RegionValues.transform0 (V4 m ρ) c)).trans ?_
  show Cert.Gcn.transform (n := 10240) (W4 m ρ c (Proc.devRef .tc main_v48)) (W4 m ρ c (Proc.devRef .tc main_arg1)) = _
  rw [x0_eq, arg1_at4]
  rfl

theorem h1 (c : Dev nD) : W7 m ρ c (Proc.devRef .tc main_v51)
    = layer (A m c) (padded (m ((c : Thread nD τ).loc main_arg0))) (m ((c : Thread nD τ).loc main_arg1)) (m ((c : Thread nD τ).loc main_arg2)) := by
  refine ((W7_arr m ρ c 3).trans (Cert.KernelIdeal.RegionValues.aggregate1 (V6 m ρ) c)).trans ?_
  show Cert.Gcn.aggregate (n := 10240) (W6 m ρ c (Proc.devRef .tc main_v47)) (W6 m ρ c (Proc.devRef .tc main_v49)) (W6 m ρ c (Proc.devRef .tc main_v50)) = _
  rw [adj_at6, adj_eq, xw1_at6, xw1, bias1]
  rfl

theorem xw2 (c : Dev nD) : W8 m ρ c (Proc.devRef .tc main_v52)
    = Cert.Gcn.transform (n := 10240) (W7 m ρ c (Proc.devRef .tc main_v51)) (m ((c : Thread nD τ).loc main_arg3)) := by
  refine ((W8_arr m ρ c 2).trans (Cert.KernelIdeal.RegionValues.transform2 (V7 m ρ) c)).trans ?_
  show Cert.Gcn.transform (n := 10240) (W7 m ρ c (Proc.devRef .tc main_v51)) (W7 m ρ c (Proc.devRef .tc main_arg3)) = _
  rw [arg3_at7]

theorem h2 (c : Dev nD) : W10 m ρ c (Proc.devRef .tc main_v54)
    = layer (A m c) (W7 m ρ c (Proc.devRef .tc main_v51)) (m ((c : Thread nD τ).loc main_arg3)) (m ((c : Thread nD τ).loc main_arg4)) := by
  refine ((W10_arr m ρ c 3).trans (Cert.KernelIdeal.RegionValues.aggregate3 (V9 m ρ) c)).trans ?_
  show Cert.Gcn.aggregate (n := 10240) (W9 m ρ c (Proc.devRef .tc main_v47)) (W9 m ρ c (Proc.devRef .tc main_v52)) (W9 m ρ c (Proc.devRef .tc main_v53)) = _
  rw [adj_at9, adj_at6, adj_eq, xw2_at9, xw2, bias2]
  rfl

theorem xw3 (c : Dev nD) : W11 m ρ c (Proc.devRef .tc main_v55)
    = Cert.Gcn.transform (n := 10240) (W10 m ρ c (Proc.devRef .tc main_v54)) (m ((c : Thread nD τ).loc main_arg5)) := by
  refine ((W11_arr m ρ c 2).trans (Cert.KernelIdeal.RegionValues.transform4 (V10 m ρ) c)).trans ?_
  show Cert.Gcn.transform (n := 10240) (W10 m ρ c (Proc.devRef .tc main_v54)) (W10 m ρ c (Proc.devRef .tc main_arg5)) = _
  rw [arg5_at10]

theorem h3 (c : Dev nD) : W13 m ρ c (Proc.devRef .tc main_v57)
    = layer (A m c) (W10 m ρ c (Proc.devRef .tc main_v54)) (m ((c : Thread nD τ).loc main_arg5)) (m ((c : Thread nD τ).loc main_arg6)) := by
  refine ((W13_arr m ρ c 3).trans (Cert.KernelIdeal.RegionValues.aggregate5 (V12 m ρ) c)).trans ?_
  show Cert.Gcn.aggregate (n := 10240) (W12 m ρ c (Proc.devRef .tc main_v47)) (W12 m ρ c (Proc.devRef .tc main_v55)) (W12 m ρ c (Proc.devRef .tc main_v56)) = _
  rw [adj_at12, adj_at9, adj_at6, adj_eq, xw3_at12, xw3, bias3]
  rfl

/-- The three layers' results as functions of the arguments. -/
def H1 (c : Dev nD) : FVec Ideal S10240x256 .f32 :=
  layer (A m c) (padded (m ((c : Thread nD τ).loc main_arg0))) (m ((c : Thread nD τ).loc main_arg1)) (m ((c : Thread nD τ).loc main_arg2))
def H2 (c : Dev nD) : FVec Ideal S10240x256 .f32 :=
  layer (A m c) (H1 m c) (m ((c : Thread nD τ).loc main_arg3)) (m ((c : Thread nD τ).loc main_arg4))
def H3 (c : Dev nD) : FVec Ideal S10240x256 .f32 :=
  layer (A m c) (H2 m c) (m ((c : Thread nD τ).loc main_arg5)) (m ((c : Thread nD τ).loc main_arg6))

theorem h3_eq (c : Dev nD) : W13 m ρ c (Proc.devRef .tc main_v57) = H3 m c := by
  rw [h3, h2, h1]; rfl

/-- THE RESULT: the reference's tail of the real rows of the third layer's result. -/
theorem result (c : Dev nD) : W15 m ρ c (Proc.devRef .tc main_v75)
    = Cert.ReferenceIdeal.Layer.tailOf (F := Ideal)
        (extractStridedSlice S10000x256 ![0, 0] (H3 m c) slices_S10240x256_S10000x256_0_0)
        (m ((c : Thread nD τ).loc main_arg7)) (m ((c : Thread nD τ).loc main_arg8)) (m ((c : Thread nD τ).loc main_arg10)) := by
  rw [Cert.KernelIdeal.Tail.tail_value, h3_eq, arg7_at13, arg8_at13, arg10_at13]

end Cert.KernelIdeal.Value

end
-- ==== Proof.LayerAlgebra.lean ====
/-
  The algebra that joins the two ways of propagating along edges.

  Each edge e carries a non-negative weight w e, a source s e and a destination d e. One side first adds the weights of
  the edges with the same (destination, source) into a dense matrix entry and then multiplies the matrix with the
  transformed activations X; the other side multiplies each edge's weight with the transformed activations of its source
  and adds the products per destination. On the extended reals the two agree because the weights are non-negative:
  a sum of non-negative terms times any c is the sum of the products (`EReal.right_distrib_of_nonneg`), and grouping
  the edges of one destination by their source does not change their sum.
-/
import Idealize.ShloMosaic.PureOps.Ideal

noncomputable section

open scoped BigOperators

namespace Cert.Gcn

/-- A finite sum of non-negative extended reals, times any extended real, is the sum of the products. -/
theorem sum_mul_of_nonneg {ι : Type*} (s : Finset ι) (f : ι → EReal) (hf : ∀ i ∈ s, 0 ≤ f i) (c : EReal) :
    (∑ i ∈ s, f i) * c = ∑ i ∈ s, f i * c := by
  classical
  induction s using Finset.induction_on with
  | empty => simp
  | insert a s ha ih =>
    rw [Finset.sum_insert ha, Finset.sum_insert ha,
      EReal.right_distrib_of_nonneg (hf a (Finset.mem_insert_self _ _))
        (Finset.sum_nonneg fun i hi => hf i (Finset.mem_insert_of_mem hi)),
      ih fun i hi => hf i (Finset.mem_insert_of_mem hi)]

/-- Grouping weighted terms by a key: `∑ k, (∑ e ∈ S with g e = k, w e) · X k = ∑ e ∈ S, w e · X (g e)` when the
    weights are non-negative. -/
theorem sum_fiber_mul {E κ : Type*} [Fintype κ] [DecidableEq κ] (S : Finset E) (g : E → κ) (w : E → EReal)
    (hw : ∀ e, 0 ≤ w e) (X : κ → EReal) :
    ∑ k : κ, (∑ e ∈ S.filter (fun e => g e = k), w e) * X k = ∑ e ∈ S, w e * X (g e) := by
  rw [← Finset.sum_fiberwise S g (fun e => w e * X (g e))]
  refine Finset.sum_congr rfl fun k _ => ?_
  rw [sum_mul_of_nonneg _ _ (fun e _ => hw e)]
  refine Finset.sum_congr rfl fun e he => ?_
  rw [(Finset.mem_filter.mp he).2]

/-- ONE LAYER. `N` real nodes inside `n ≥ N` padded ones; edges `E` with sources `s` and destinations `d` among the real
    nodes and non-negative weights `w`; padded activations `H` agreeing with the real ones `h` on the real rows. At a real
    row `r`: the dense matrix of summed weights times the transformed padded activations is the per-destination sum of
    weighted transformed source rows. -/
theorem layer_algebra {E : Type*} [Fintype E] {N n K : Nat} (hNn : N ≤ n) (s d : E → Fin N) (w : E → EReal)
    (hw : ∀ e, 0 ≤ w e) (H : Fin n → Fin K → EReal) (h : Fin N → Fin K → EReal)
    (hH : ∀ (q : Fin N) (l : Fin K), H (Fin.castLE hNn q) l = h q l) (W : Fin K → EReal) (r : Fin N) :
    ∑ k : Fin n, (0 + ∑ e ∈ Finset.univ.filter (fun e => d e = r ∧ Fin.castLE hNn (s e) = k), w e) * (∑ l : Fin K, H k l * W l)
      = 0 + ∑ e ∈ Finset.univ.filter (fun e => d e = r), (∑ l : Fin K, h (s e) l * W l) * w e := by
  classical
  have h1 : ∀ k : Fin n, (Finset.univ.filter (fun e => d e = r ∧ Fin.castLE hNn (s e) = k))
      = (Finset.univ.filter (fun e => d e = r)).filter (fun e => Fin.castLE hNn (s e) = k) := fun k => by
    rw [Finset.filter_filter]
  simp only [zero_add, h1]
  rw [sum_fiber_mul (Finset.univ.filter (fun e => d e = r)) (fun e => Fin.castLE hNn (s e)) w hw
    (fun k => ∑ l : Fin K, H k l * W l)]
  refine Finset.sum_congr rfl fun e _ => ?_
  rw [mul_comm]
  refine congrArg (· * w e) (Finset.sum_congr rfl fun l _ => ?_)
  rw [hH]

end Cert.Gcn

end
-- ==== Proof.LibScatterPoints.lean ====
/-
  A scatter of POINTS: which element an update lands on.

  `stablehlo.scatter` into a rank-2 operand [H, W] with both operand axes inserted and named by the scatter index
  (scatter_dims_to_operand_dims [0, 1], no update window axes), scatter indices [N, 2] (index vector on the last axis),
  updates [N]: update `e` lands on the element whose (row, column) are the two components of scatter index `e`, each read
  as a signed integer and NOT clamped; it is dropped when that is outside the operand.
  Generic in the extents; the record's conditions `wf` are decided on literal shapes.
-/
import Idealize.ShloMosaic.PureOps
import Idealize.ShloMosaic.Lib.ValueIdx

noncomputable section

namespace Cert.LibScatterPoints

open Idealize.ShloMosaic Idealize.ShloMosaic.ValueIdx

/-- The dimension numbers of a point scatter into `[H, W]` at scatter indices `[N, 2]` of updates `[N]`. -/
abbrev pointDims (H W N : Nat)
    (wf : ScatterDims.WF ⟨2, ![H, W]⟩ ⟨2, ![N, 2]⟩ ⟨1, ![N]⟩ [] [0, 1] [0, 1] 1) :
    ScatterDims ⟨2, ![H, W]⟩ ⟨2, ![N, 2]⟩ ⟨1, ![N]⟩ where
  updateWindowDims := []
  insertedWindowDims := [0, 1]
  scatterDimsToOperandDims := [0, 1]
  indexVectorDim := 1
  wf := wf

variable {H W N w : Nat} (wf : ScatterDims.WF ⟨2, ![H, W]⟩ ⟨2, ![N, 2]⟩ ⟨1, ![N]⟩ [] [0, 1] [0, 1] 1)
  (idx : IVec ⟨2, ![N, 2]⟩ w) (e : Fin N)

/-- The row an update aims at: component 0 of its scatter index, signed. -/
theorem start0 : (pointDims H W N wf).start (ix1 e) idx (0 : Fin 2) = (idx (ix2 e (0 : Fin 2))).toInt := by
  unfold ScatterDims.start
  rw [dif_pos (show (0 : Fin 2) ∈ (pointDims H W N wf).scatterDimsToOperandDims from List.mem_cons_self)]
  have hsi : (pointDims H W N wf).siIdx (ix1 e) ⟨List.idxOf (0 : Fin 2) (pointDims H W N wf).scatterDimsToOperandDims,
      List.idxOf_lt_length_iff.2 List.mem_cons_self⟩ = ix2 e (0 : Fin 2) := by
    funext b; refine Fin.ext ?_
    match b with
    | ⟨0, _⟩ => rfl
    | ⟨1, _⟩ => rfl
  rw [hsi]

/-- The column an update aims at: component 1 of its scatter index, signed. -/
theorem start1 : (pointDims H W N wf).start (ix1 e) idx (1 : Fin 2) = (idx (ix2 e (1 : Fin 2))).toInt := by
  unfold ScatterDims.start
  rw [dif_pos (show (1 : Fin 2) ∈ (pointDims H W N wf).scatterDimsToOperandDims from
    List.mem_cons_of_mem _ List.mem_cons_self)]
  have hsi : (pointDims H W N wf).siIdx (ix1 e) ⟨List.idxOf (1 : Fin 2) (pointDims H W N wf).scatterDimsToOperandDims,
      List.idxOf_lt_length_iff.2 (List.mem_cons_of_mem _ List.mem_cons_self)⟩ = ix2 e (1 : Fin 2) := by
    funext b; refine Fin.ext ?_
    match b with
    | ⟨0, _⟩ => rfl
    | ⟨1, _⟩ => rfl
  rw [hsi]

/-- No window: both operand axes are inserted, so the window coordinate is 0 on each. -/
theorem window_zero (a : Fin 2) : (pointDims H W N wf).window (ix1 e) a = 0 := by
  unfold ScatterDims.window
  rw [dif_neg]
  intro ha
  have h2 := (List.mem_filter.mp ha).2
  fin_cases a <;> simp at h2

/-- WHERE UPDATE `e` LANDS: on element (r, k) exactly when its scatter index reads (r, k). -/
theorem resultIdx?_eq_some_iff (r : Fin H) (k : Fin W) :
    (pointDims H W N wf).resultIdx? (ix1 e) idx = some (ix2 r k)
      ↔ (idx (ix2 e (0 : Fin 2))).toInt = (r.val : Int) ∧ (idx (ix2 e (1 : Fin 2))).toInt = (k.val : Int) := by
  have s0 := start0 wf idx e
  have s1 := start1 wf idx e
  have w0 := window_zero wf e (0 : Fin 2)
  have w1 := window_zero wf e (1 : Fin 2)
  have hr : r.val < H := r.isLt
  have hk : k.val < W := k.isLt
  unfold ScatterDims.resultIdx?
  split_ifs with h
  · rw [Option.some.injEq]
    constructor
    · intro heq
      have h0 : ((pointDims H W N wf).start (ix1 e) idx 0 + ((pointDims H W N wf).window (ix1 e) 0 : Nat)).toNat = r.val :=
        congrArg Fin.val (congrFun heq (0 : Fin 2))
      have h1 : ((pointDims H W N wf).start (ix1 e) idx 1 + ((pointDims H W N wf).window (ix1 e) 1 : Nat)).toNat = k.val :=
        congrArg Fin.val (congrFun heq (1 : Fin 2))
      have g0 := (h 0).1
      have g1 := (h 1).1
      rw [s0, w0] at h0 g0
      rw [s1, w1] at h1 g1
      omega
    · rintro ⟨e0, e1⟩
      funext a; refine Fin.ext ?_
      match a with
      | ⟨0, _⟩ =>
        show ((pointDims H W N wf).start (ix1 e) idx 0 + ((pointDims H W N wf).window (ix1 e) 0 : Nat)).toNat = r.val
        rw [s0, w0, e0]; omega
      | ⟨1, _⟩ =>
        show ((pointDims H W N wf).start (ix1 e) idx 1 + ((pointDims H W N wf).window (ix1 e) 1 : Nat)).toNat = k.val
        rw [s1, w1, e1]; omega
  · constructor
    · intro hc; cases hc
    · rintro ⟨e0, e1⟩
      exfalso; apply h
      intro a
      match a with
      | ⟨0, _⟩ =>
        show 0 ≤ (pointDims H W N wf).start (ix1 e) idx 0 + ((pointDims H W N wf).window (ix1 e) 0 : Nat)
          ∧ (pointDims H W N wf).start (ix1 e) idx 0 + ((pointDims H W N wf).window (ix1 e) 0 : Nat) < (H : Int)
        rw [s0, w0, e0]; omega
      | ⟨1, _⟩ =>
        show 0 ≤ (pointDims H W N wf).start (ix1 e) idx 1 + ((pointDims H W N wf).window (ix1 e) 1 : Nat)
          ∧ (pointDims H W N wf).start (ix1 e) idx 1 + ((pointDims H W N wf).window (ix1 e) 1 : Nat) < (W : Int)
        rw [s1, w1, e1]; omega

end Cert.LibScatterPoints

end
-- ==== Proof.EdgeIdx.lean ====
/-
  The reference's source and destination arrays, read at an index.

  The reference joins each row of the [2, 320000] edge array (row 0: sources, row 1: destinations) with
  the self loops 0, 1, …, 9999 into an array of 330000 node numbers. Read at position e: below 320000 it
  is the edge array's entry (row, e); from 320000 on it is the number e − 320000. Hence, when every entry
  of the edge array lies in [0, 10000), so does every source and every destination; the reference's
  wrap of a negative index (s < 0 ? s + 10000 : s) then leaves it as it is, and so does a clamp to the
  last node.
-/
import proofs.«175171_j58583353918035_2_alg».proof.Proof.RefRead

noncomputable section

namespace Cert.EdgeRange

open Idealize.ShloMosaic Idealize.ShloMosaic.ValueIdx Cert.ReferenceIdeal Cert.ReferenceIdeal.Gen Cert.ReferenceIdeal.ReadP

variable {F : FTy → Type} [FloatOps F]

/-! ## The two rows of the edge array, flattened -/

/-- Row 0 of the edge array (a slice, then a reshape to one axis) at position `k` is entry (0, k). -/
theorem v1_at (x9 : (⟨S2x320000, .i32⟩ : BufTy).Contents (Elt F)) (k : Fin 320000) :
    val_main_v1 (F := F) x9 (ix1 k) = x9 (ix2 (0 : Fin 2) k) := by
  rw [val_main_v1_apply, val_main_v0_apply]
  refine congrArg x9 (funext fun a => ?_)
  match a with
  | ⟨0, _⟩ => exact Fin.ext rfl
  | ⟨1, _⟩ => exact Fin.ext (Nat.mod_eq_of_lt k.isLt)

/-- Row 1 of the edge array (a slice, then a reshape to one axis) at position `k` is entry (1, k). -/
theorem v3_at (x9 : (⟨S2x320000, .i32⟩ : BufTy).Contents (Elt F)) (k : Fin 320000) :
    val_main_v3 (F := F) x9 (ix1 k) = x9 (ix2 (1 : Fin 2) k) := by
  rw [val_main_v3_apply, val_main_v2_apply]
  refine congrArg x9 (funext fun a => ?_)
  match a with
  | ⟨0, _⟩ => exact Fin.ext rfl
  | ⟨1, _⟩ => exact Fin.ext (Nat.mod_eq_of_lt k.isLt)

/-! ## The source and destination arrays: a row of the edge array, then the self loops 0, 1, …, 9999 -/

/-- Below 320000 the source array is row 0 of the edge array. -/
theorem v6_lo (x9 : (⟨S2x320000, .i32⟩ : BufTy).Contents (Elt F)) (e : Fin 330000) (h : e.val < 320000) :
    val_main_v6 (F := F) x9 (ix1 e) = x9 (ix2 (0 : Fin 2) ⟨e.val, h⟩) := by
  unfold val_main_v6
  refine (concatenate_pair_apply_left (t := S330000) (s₁ := S320000) (s₂ := S10000) 0 (val_main_v1 (F := F) x9)
    (val_main_v5 (F := F)) concatenates_S320000_S10000_S330000_d0 (ix1 e) rfl (ix1 ⟨e.val, h⟩) (fun b => ?_)).trans (v1_at x9 ⟨e.val, h⟩)
  match b with
  | ⟨0, _⟩ => rfl

/-- From 320000 on the source array is the self loop's node, the position less 320000. -/
theorem v6_hi (x9 : (⟨S2x320000, .i32⟩ : BufTy).Contents (Elt F)) (e : Fin 330000) (h : 320000 ≤ e.val) :
    val_main_v6 (F := F) x9 (ix1 e) = BitVec.ofNat 32 (e.val - 320000) := by
  unfold val_main_v6
  have hlt : e.val - 320000 < 10000 := by have := e.isLt; omega
  refine (concatenate_pair_apply_right (t := S330000) (s₁ := S320000) (s₂ := S10000) 0 (val_main_v1 (F := F) x9)
    (val_main_v5 (F := F)) concatenates_S320000_S10000_S330000_d0 (ix1 e) rfl rfl (ix1 ⟨e.val - 320000, hlt⟩) (fun b hb => ?_) ?_).trans ?_
  · have hb1 : b.val < 1 := b.isLt
    exact absurd (Fin.ext (show b.val = 0 by omega)) hb
  · show (e.val - 320000) + 320000 = e.val
    omega
  · rfl

/-- The source array at position `e`. -/
theorem v6_at (x9 : (⟨S2x320000, .i32⟩ : BufTy).Contents (Elt F)) (e : Fin 330000) :
    val_main_v6 (F := F) x9 (ix1 e)
      = if h : e.val < 320000 then x9 (ix2 (0 : Fin 2) ⟨e.val, h⟩) else BitVec.ofNat 32 (e.val - 320000) := by
  by_cases h : e.val < 320000
  · rw [dif_pos h]; exact v6_lo x9 e h
  · rw [dif_neg h]; exact v6_hi x9 e (Nat.le_of_not_lt h)

/-- Below 320000 the destination array is row 1 of the edge array. -/
theorem v7_lo (x9 : (⟨S2x320000, .i32⟩ : BufTy).Contents (Elt F)) (e : Fin 330000) (h : e.val < 320000) :
    val_main_v7 (F := F) x9 (ix1 e) = x9 (ix2 (1 : Fin 2) ⟨e.val, h⟩) := by
  unfold val_main_v7
  refine (concatenate_pair_apply_left (t := S330000) (s₁ := S320000) (s₂ := S10000) 0 (val_main_v3 (F := F) x9)
    (val_main_v5 (F := F)) concatenates_S320000_S10000_S330000_d0 (ix1 e) rfl (ix1 ⟨e.val, h⟩) (fun b => ?_)).trans (v3_at x9 ⟨e.val, h⟩)
  match b with
  | ⟨0, _⟩ => rfl

/-- From 320000 on the destination array is the self loop's node, the position less 320000. -/
theorem v7_hi (x9 : (⟨S2x320000, .i32⟩ : BufTy).Contents (Elt F)) (e : Fin 330000) (h : 320000 ≤ e.val) :
    val_main_v7 (F := F) x9 (ix1 e) = BitVec.ofNat 32 (e.val - 320000) := by
  unfold val_main_v7
  have hlt : e.val - 320000 < 10000 := by have := e.isLt; omega
  refine (concatenate_pair_apply_right (t := S330000) (s₁ := S320000) (s₂ := S10000) 0 (val_main_v3 (F := F) x9)
    (val_main_v5 (F := F)) concatenates_S320000_S10000_S330000_d0 (ix1 e) rfl rfl (ix1 ⟨e.val - 320000, hlt⟩) (fun b hb => ?_) ?_).trans ?_
  · have hb1 : b.val < 1 := b.isLt
    exact absurd (Fin.ext (show b.val = 0 by omega)) hb
  · show (e.val - 320000) + 320000 = e.val
    omega
  · rfl

/-- The destination array at position `e`. -/
theorem v7_at (x9 : (⟨S2x320000, .i32⟩ : BufTy).Contents (Elt F)) (e : Fin 330000) :
    val_main_v7 (F := F) x9 (ix1 e)
      = if h : e.val < 320000 then x9 (ix2 (1 : Fin 2) ⟨e.val, h⟩) else BitVec.ofNat 32 (e.val - 320000) := by
  by_cases h : e.val < 320000
  · rw [dif_pos h]; exact v7_lo x9 e h
  · rw [dif_neg h]; exact v7_hi x9 e (Nat.le_of_not_lt h)

/-! ## Every source and destination is a node number -/

/-- A small natural number as a 32-bit word reads back, signed, as itself. -/
theorem toInt_ofNat_small (n : Nat) (h : n < 10000) : (BitVec.ofNat 32 n).toInt = (n : Int) := by
  have hm : n % 2 ^ 32 = n := Nat.mod_eq_of_lt (by omega)
  rw [BitVec.toInt_eq_toNat_of_lt (by rw [BitVec.toNat_ofNat, hm]; omega), BitVec.toNat_ofNat, hm]

theorem v6_range (x9 : (⟨S2x320000, .i32⟩ : BufTy).Contents (Elt F))
    (hx : ∀ j : S2x320000.Idx, 0 ≤ (x9 j).toInt ∧ (x9 j).toInt < 10000) (e : Fin 330000) :
    0 ≤ (val_main_v6 (F := F) x9 (ix1 e)).toInt ∧ (val_main_v6 (F := F) x9 (ix1 e)).toInt < 10000 := by
  by_cases h : e.val < 320000
  · rw [v6_lo x9 e h]; exact hx _
  · have h' := Nat.le_of_not_lt h
    have hlt : e.val - 320000 < 10000 := by have := e.isLt; omega
    rw [v6_hi x9 e h', toInt_ofNat_small _ hlt]
    omega

theorem v7_range (x9 : (⟨S2x320000, .i32⟩ : BufTy).Contents (Elt F))
    (hx : ∀ j : S2x320000.Idx, 0 ≤ (x9 j).toInt ∧ (x9 j).toInt < 10000) (e : Fin 330000) :
    0 ≤ (val_main_v7 (F := F) x9 (ix1 e)).toInt ∧ (val_main_v7 (F := F) x9 (ix1 e)).toInt < 10000 := by
  by_cases h : e.val < 320000
  · rw [v7_lo x9 e h]; exact hx _
  · have h' := Nat.le_of_not_lt h
    have hlt : e.val - 320000 < 10000 := by have := e.isLt; omega
    rw [v7_hi x9 e h', toInt_ofNat_small _ hlt]
    omega

/-! ## The wrap of a negative index does nothing to a node number -/

/-- `s < 0 ? s + 10000 : s` is `s` when `s` is not negative. -/
theorem wrap_of_nonneg (s : BitVec 32) (h : 0 ≤ s.toInt) :
    Scalar.select (IntOp.cmpi .slt s 0#32) (IntOp.addi s 10000#32) s = s := by
  have hc : ¬ IntOp.cmpi .slt s 0#32 = 1#1 := by
    rw [IntOp.cmpi_slt, show (0#32 : BitVec 32).toInt = 0 from by decide]
    omega
  rw [eq_zero_of_ne_one hc, select_zero]

/-- A node number read signed, clamped to the last node, is itself. -/
theorem clamp_of_range (v : BitVec 32) (h0 : 0 ≤ v.toInt) (h1 : v.toInt < 10000) :
    min v.toInt.toNat 9999 = v.toInt.toNat := by
  omega

theorem v22_at (x9 : (⟨S2x320000, .i32⟩ : BufTy).Contents (Elt F))
    (hx : ∀ j : S2x320000.Idx, 0 ≤ (x9 j).toInt ∧ (x9 j).toInt < 10000) (e : Fin 330000) :
    val_main_v22 (F := F) x9 (ix1 e) = val_main_v6 (F := F) x9 (ix1 e) :=
  wrap_of_nonneg _ (v6_range x9 hx e).1

theorem v29_at (x9 : (⟨S2x320000, .i32⟩ : BufTy).Contents (Elt F))
    (hx : ∀ j : S2x320000.Idx, 0 ≤ (x9 j).toInt ∧ (x9 j).toInt < 10000) (e : Fin 330000) :
    val_main_v29 (F := F) x9 (ix1 e) = val_main_v7 (F := F) x9 (ix1 e) :=
  wrap_of_nonneg _ (v7_range x9 hx e).1

theorem v37_at (x9 : (⟨S2x320000, .i32⟩ : BufTy).Contents (Elt F))
    (hx : ∀ j : S2x320000.Idx, 0 ≤ (x9 j).toInt ∧ (x9 j).toInt < 10000) (e : Fin 330000) :
    val_main_v37 (F := F) x9 (ix1 e) = val_main_v6 (F := F) x9 (ix1 e) :=
  wrap_of_nonneg _ (v6_range x9 hx e).1

/-! ## The later layers' copies of the two arrays

Each of the three layers builds the source and destination arrays again, from the same rows and the same
self loops: the later copies are the first ones, term for term. -/

theorem v52_eq (x9 : (⟨S2x320000, .i32⟩ : BufTy).Contents (Elt F)) : val_main_v52 (F := F) x9 = val_main_v6 (F := F) x9 := rfl
theorem v53_eq (x9 : (⟨S2x320000, .i32⟩ : BufTy).Contents (Elt F)) : val_main_v53 (F := F) x9 = val_main_v7 (F := F) x9 := rfl
theorem v98_eq (x9 : (⟨S2x320000, .i32⟩ : BufTy).Contents (Elt F)) : val_main_v98 (F := F) x9 = val_main_v6 (F := F) x9 := rfl
theorem v99_eq (x9 : (⟨S2x320000, .i32⟩ : BufTy).Contents (Elt F)) : val_main_v99 (F := F) x9 = val_main_v7 (F := F) x9 := rfl

theorem v68_at (x9 : (⟨S2x320000, .i32⟩ : BufTy).Contents (Elt F))
    (hx : ∀ j : S2x320000.Idx, 0 ≤ (x9 j).toInt ∧ (x9 j).toInt < 10000) (e : Fin 330000) :
    val_main_v68 (F := F) x9 (ix1 e) = val_main_v6 (F := F) x9 (ix1 e) :=
  wrap_of_nonneg _ (v6_range x9 hx e).1

theorem v75_at (x9 : (⟨S2x320000, .i32⟩ : BufTy).Contents (Elt F))
    (hx : ∀ j : S2x320000.Idx, 0 ≤ (x9 j).toInt ∧ (x9 j).toInt < 10000) (e : Fin 330000) :
    val_main_v75 (F := F) x9 (ix1 e) = val_main_v7 (F := F) x9 (ix1 e) :=
  wrap_of_nonneg _ (v7_range x9 hx e).1

theorem v83_at (x9 : (⟨S2x320000, .i32⟩ : BufTy).Contents (Elt F))
    (hx : ∀ j : S2x320000.Idx, 0 ≤ (x9 j).toInt ∧ (x9 j).toInt < 10000) (e : Fin 330000) :
    val_main_v83 (F := F) x9 (ix1 e) = val_main_v6 (F := F) x9 (ix1 e) :=
  wrap_of_nonneg _ (v6_range x9 hx e).1

theorem v114_at (x9 : (⟨S2x320000, .i32⟩ : BufTy).Contents (Elt F))
    (hx : ∀ j : S2x320000.Idx, 0 ≤ (x9 j).toInt ∧ (x9 j).toInt < 10000) (e : Fin 330000) :
    val_main_v114 (F := F) x9 (ix1 e) = val_main_v6 (F := F) x9 (ix1 e) :=
  wrap_of_nonneg _ (v6_range x9 hx e).1

theorem v121_at (x9 : (⟨S2x320000, .i32⟩ : BufTy).Contents (Elt F))
    (hx : ∀ j : S2x320000.Idx, 0 ≤ (x9 j).toInt ∧ (x9 j).toInt < 10000) (e : Fin 330000) :
    val_main_v121 (F := F) x9 (ix1 e) = val_main_v7 (F := F) x9 (ix1 e) :=
  wrap_of_nonneg _ (v7_range x9 hx e).1

theorem v129_at (x9 : (⟨S2x320000, .i32⟩ : BufTy).Contents (Elt F))
    (hx : ∀ j : S2x320000.Idx, 0 ≤ (x9 j).toInt ∧ (x9 j).toInt < 10000) (e : Fin 330000) :
    val_main_v129 (F := F) x9 (ix1 e) = val_main_v6 (F := F) x9 (ix1 e) :=
  wrap_of_nonneg _ (v6_range x9 hx e).1

end Cert.EdgeRange

end
-- ==== Proof.KernelAdj.lean ====
/-
  The propagation matrix read at an entry.

  When every edge's source and destination is a node number in [0, 10000), the wrap of negative indices does nothing,
  every edge lands inside the [10240, 10240] matrix at (destination, source), and entry (r, k) of the matrix is 0 plus
  the sum of the weights of the edges with destination r and source k.
-/
import proofs.«175171_j58583353918035_2_alg».proof.Proof.KernelPrelude
import proofs.«175171_j58583353918035_2_alg».proof.Proof.LibScatterPoints
import proofs.«175171_j58583353918035_2_alg».proof.Proof.EdgeIdx
import Idealize.ShloMosaic.Lib.Pipeline.Value
import Idealize.ShloMosaic.Lib.ValueIdx
import Idealize.ShloMosaic.PureOps.Ideal.Laws

noncomputable section

open scoped BigOperators

namespace Cert.KernelIdeal.Prelude

open Cert.KernelIdeal Cert.KernelIdeal.Gen Idealize.ShloMosaic Idealize.ShloMosaic.ValueIdx Cert.ReferenceIdeal.ReadP Cert.EdgeRange

/-- A rank-1 index is its one coordinate. -/
def idx1Equiv {n : Nat} : (⟨1, ![n]⟩ : Shape).Idx ≃ Fin n where
  toFun j := ⟨(j 0).val, (j 0).isLt⟩
  invFun e := ix1 e
  left_inv j := by funext a; match a with | ⟨0, _⟩ => rfl
  right_inv _ := rfl

/-- A sum over a rank-1 index set is the sum over its coordinate. -/
theorem sum_ix1 {M : Type*} [AddCommMonoid M] {n : Nat} (f : (⟨1, ![n]⟩ : Shape).Idx → M) :
    ∑ j, f j = ∑ e : Fin n, f (ix1 e) :=
  Fintype.sum_equiv idx1Equiv _ _ (fun j => congrArg f (idx1Equiv.left_inv j).symm)

/-- The source of edge `e` as a node number. -/
def srcOf (x9 : IVec S2x320000 32) (hx : ∀ j : S2x320000.Idx, 0 ≤ (x9 j).toInt ∧ (x9 j).toInt < 10000) (e : Fin 330000) : Fin 10000 :=
  ⟨(val_main_v6 (F := Ideal) x9 (ix1 e)).toInt.toNat, by have := v6_range (F := Ideal) x9 hx e; omega⟩

/-- The destination of edge `e` as a node number. -/
def dstOf (x9 : IVec S2x320000 32) (hx : ∀ j : S2x320000.Idx, 0 ≤ (x9 j).toInt ∧ (x9 j).toInt < 10000) (e : Fin 330000) : Fin 10000 :=
  ⟨(val_main_v7 (F := Ideal) x9 (ix1 e)).toInt.toNat, by have := v7_range (F := Ideal) x9 hx e; omega⟩

/-- The wrap of a non-negative index is the index. -/
theorem wrapPad_at (v : IVec S330000 32) (e : Fin 330000) (h : 0 ≤ (v (ix1 e)).toInt) : wrapPad v (ix1 e) = v (ix1 e) := by
  show Scalar.select (IntOp.cmpi .slt (v (ix1 e)) 0#32) (IntOp.addi (v (ix1 e)) 10240#32) (v (ix1 e)) = v (ix1 e)
  have hc : ¬ IntOp.cmpi .slt (v (ix1 e)) 0#32 = 1#1 := by
    rw [IntOp.cmpi_slt, show (0#32 : BitVec 32).toInt = 0 from by decide]
    omega
  rw [eq_zero_of_ne_one hc, select_zero]

/-- Column 0 of the index pairs is the (wrapped) destination. -/
theorem idxPairs_dst (x9 : IVec S2x320000 32) (e : Fin 330000) :
    idxPairs x9 (ix2 e (0 : Fin 2)) = wrapPad (val_main_v7 (F := Ideal) x9) (ix1 e) := by
  unfold idxPairs
  refine (concatenate_pair_apply_left (t := S330000x2) (s₁ := S330000x1) (s₂ := S330000x1) (1 : Fin 2) _ _ concatenates_S330000x1_S330000x1_S330000x2_d1 (ix2 e (0 : Fin 2)) rfl
    (ix2 e (0 : Fin 1)) (fun b => by match b with | ⟨0, _⟩ => rfl | ⟨1, _⟩ => rfl)).trans ?_
  exact broadcastInDim_apply _ _ _ _ (ix1 e) (fun a => by match a with | ⟨0, _⟩ => rfl)

/-- Column 1 of the index pairs is the (wrapped) source. -/
theorem idxPairs_src (x9 : IVec S2x320000 32) (e : Fin 330000) :
    idxPairs x9 (ix2 e (1 : Fin 2)) = wrapPad (val_main_v6 (F := Ideal) x9) (ix1 e) := by
  unfold idxPairs
  refine (concatenate_pair_apply_right (t := S330000x2) (s₁ := S330000x1) (s₂ := S330000x1) (1 : Fin 2) _ _ concatenates_S330000x1_S330000x1_S330000x2_d1 (ix2 e (1 : Fin 2)) rfl rfl
    (ix2 e (0 : Fin 1)) (fun b hb => by match b with | ⟨0, _⟩ => rfl | ⟨1, _⟩ => exact absurd rfl hb) rfl).trans ?_
  exact broadcastInDim_apply _ _ _ _ (ix1 e) (fun a => by match a with | ⟨0, _⟩ => rfl)

/-- ENTRY (r, k) OF THE PROPAGATION MATRIX, r a real node: 0 plus the weights of the edges from k to r. -/
theorem adj_apply (x9 : IVec S2x320000 32) (hx : ∀ j : S2x320000.Idx, 0 ≤ (x9 j).toInt ∧ (x9 j).toInt < 10000)
    (r : Fin 10000) (k : Fin 10240) :
    adjOf x9 (ix2 (Fin.castLE (by decide : 10000 ≤ 10240) r) k)
      = 0 + ∑ e ∈ Finset.univ.filter (fun e : Fin 330000 => dstOf x9 hx e = r
            ∧ Fin.castLE (by decide : 10000 ≤ 10240) (srcOf x9 hx e) = k), val_main_v32 (F := Ideal) x9 (ix1 e) := by
  classical
  unfold adjOf
  rw [truncf_apply]
  show (broadcastInDim S10240x10240 ![] bcast_S_S10240x10240 (constant (F := Ideal) S_ .f32 0x00000000#32)) _
      + ∑ j ∈ Finset.univ.filter (fun j => scatter_S10240x10240_S330000x2_S330000_n_01_01_1.resultIdx? j (idxPairs x9)
          = some (ix2 (Fin.castLE (by decide : 10000 ≤ 10240) r) k)), val_main_v32 (F := Ideal) x9 j = _
  refine congrArg₂ (· + ·) Ideal.ofBits_zero_f32 ?_
  rw [Finset.sum_filter, sum_ix1, ← Finset.sum_filter]
  refine Finset.sum_congr (Finset.filter_congr fun e _ => ?_) fun _ _ => rfl
  have hd := v7_range (F := Ideal) x9 hx e
  have hs := v6_range (F := Ideal) x9 hx e
  have h0 := (idxPairs_dst x9 e).trans (wrapPad_at _ e hd.1)
  have h1 := (idxPairs_src x9 e).trans (wrapPad_at _ e hs.1)
  have key := Cert.LibScatterPoints.resultIdx?_eq_some_iff (H := 10240) (W := 10240) (N := 330000)
    scatter_S10240x10240_S330000x2_S330000_n_01_01_1_wf (idxPairs x9) e (Fin.castLE (by decide : 10000 ≤ 10240) r) k
  rw [h0, h1] at key
  refine Iff.trans key ?_
  unfold dstOf srcOf
  constructor
  · rintro ⟨e0, e1⟩
    refine ⟨Fin.ext ?_, Fin.ext ?_⟩
    · show (val_main_v7 (F := Ideal) x9 (ix1 e)).toInt.toNat = r.val
      have : ((Fin.castLE (by decide : 10000 ≤ 10240) r).val : Int) = (r.val : Int) := rfl
      omega
    · show (val_main_v6 (F := Ideal) x9 (ix1 e)).toInt.toNat = k.val
      omega
  · rintro ⟨e0, e1⟩
    have e0' : (val_main_v7 (F := Ideal) x9 (ix1 e)).toInt.toNat = r.val := congrArg Fin.val e0
    have e1' : (val_main_v6 (F := Ideal) x9 (ix1 e)).toInt.toNat = k.val := congrArg Fin.val e1
    have : ((Fin.castLE (by decide : 10000 ≤ 10240) r).val : Int) = (r.val : Int) := rfl
    constructor <;> omega

end Cert.KernelIdeal.Prelude

end
-- ==== Proof.NormNonneg.lean ====
/-
  The reference's edge weights are non-negative.

  The weight of edge e is the product of two normalisation factors, one read at the edge's source and one at
  its destination. A normalisation factor is the reciprocal square root of the larger of a degree and one
  where the degree is positive, and zero elsewhere; either way it is a non-negative extended real: the
  reciprocal square root of a number that is at least one is non-negative (1/√r for a real r, 0 for +∞).
  An element of a gather is some element of its operand, whatever the start indices are, so each of the
  two factors is non-negative, and a product of non-negative extended reals is non-negative. The degrees
  themselves are never opened.
-/
import proofs.«175171_j58583353918035_2_alg».proof.Proof.RefRead

noncomputable section

namespace Cert.EdgeRange

open Idealize.ShloMosaic Idealize.ShloMosaic.ValueIdx Cert.ReferenceIdeal Cert.ReferenceIdeal.Gen Cert.ReferenceIdeal.ReadP

/-- The pattern 0x3F800000 is the number one. -/
theorem ofBits_one : Ideal.ofBits .f32 0x3F800000#32 = (1 : EReal) := by
  simp [Ideal.ofBits, Ideal.ieee, -EReal.coe_mul]; norm_num

/-- The pattern 0x00000000 is the number zero. -/
theorem ofBits_zero : Ideal.ofBits .f32 0x00000000#32 = (0 : EReal) := by
  simp [Ideal.ofBits, Ideal.ieee]

/-- The reciprocal square root of a non-negative extended real is non-negative (+∞ ↦ 0, 0 ↦ +∞, r ↦ 1/√r). -/
theorem rsqrt_nonneg (y : EReal) (h : 0 ≤ y) : 0 ≤ Ideal.rsqrt y := by
  induction y using EReal.rec with
  | bot => exact absurd h (by simp)
  | top => rw [Ideal.rsqrt_top]
  | coe r =>
    have hr : (0 : ℝ) ≤ r := by exact_mod_cast h
    rw [Ideal.rsqrt_coe, if_neg (not_lt.2 hr)]
    split
    · exact le_top
    · exact_mod_cast inv_nonneg.2 (Real.sqrt_nonneg r)

/-- Every normalisation factor is non-negative: it is the reciprocal square root of a degree raised to at least one,
    or zero. -/
theorem v17_nonneg (x9 : (⟨S2x320000, .i32⟩ : BufTy).Contents (Elt Ideal)) (q : S10000.Idx) :
    (0 : EReal) ≤ val_main_v17 (F := Ideal) x9 q := by
  rw [val_main_v17_apply]
  unfold Scalar.select
  split
  · rw [val_main_v16_apply, val_main_v15_apply, val_main_v14_apply, val_main_cst_2_apply]
    generalize val_main_v11 (F := Ideal) x9 q = y
    show (0 : EReal) ≤ Ideal.rsqrt (max y (Ideal.ofBits .f32 0x3F800000#32))
    rw [ofBits_one]
    exact rsqrt_nonneg _ (le_trans zero_le_one (le_max_right _ _))
  · rw [val_main_call0_v1_apply, val_main_call0_v0_apply, val_main_cst_3_apply]
    show (0 : EReal) ≤ Ideal.ofBits .f32 0x00000000#32
    rw [ofBits_zero]

/-- An element of a gather is an element of its operand. -/
theorem gather_mem {α : Type} {s si t : Shape} {w : Nat} (d : GatherDims s si t) (x : s.Idx → α) (idx : IVec si w) (j : t.Idx) :
    ∃ q : s.Idx, Host.gather d x idx j = x q :=
  ⟨d.operandIdx j idx, rfl⟩

theorem v24_mem (x9 : (⟨S2x320000, .i32⟩ : BufTy).Contents (Elt Ideal)) (i : S330000.Idx) :
    ∃ q : S10000.Idx, val_main_v24 (F := Ideal) x9 i = val_main_v17 (F := Ideal) x9 q := by
  unfold val_main_v24
  exact gather_mem _ _ _ i

theorem v31_mem (x9 : (⟨S2x320000, .i32⟩ : BufTy).Contents (Elt Ideal)) (i : S330000.Idx) :
    ∃ q : S10000.Idx, val_main_v31 (F := Ideal) x9 i = val_main_v17 (F := Ideal) x9 q := by
  unfold val_main_v31
  exact gather_mem _ _ _ i

/-- THE EDGE WEIGHTS ARE NON-NEGATIVE: each is the product of two normalisation factors. -/
theorem v32_nonneg (x9 : (⟨S2x320000, .i32⟩ : BufTy).Contents (Elt Ideal)) (e : Fin 330000) :
    (0 : EReal) ≤ val_main_v32 (F := Ideal) x9 (ix1 e) := by
  rw [val_main_v32_apply]
  obtain ⟨q₁, h₁⟩ := v24_mem x9 (ix1 e)
  obtain ⟨q₂, h₂⟩ := v31_mem x9 (ix1 e)
  rw [h₁, h₂]
  exact mul_nonneg (v17_nonneg x9 q₁) (v17_nonneg x9 q₂)

end Cert.EdgeRange

end
-- ==== Proof.Bridge.lean ====
/-
  One layer of the network, the two ways, at a real node.

  The kernel's layer multiplies the padded activations with the weight matrix, then multiplies the dense propagation
  matrix with that product, adds the bias and clamps at 0. The reference's layer multiplies the real activations with
  the weight matrix, gathers each edge's source row, scales it by the edge's weight and adds it into the edge's
  destination row, adds the bias and clamps at 0. At every real node (row below 10000) the two results are the same
  extended real, provided the padded activations agree with the real ones on the real rows and every edge joins real
  nodes: entry (r, k) of the propagation matrix is the sum of the weights of the edges from k to r, the weights are
  non-negative, so the matrix product regroups into the per-destination sum (`Cert.Gcn.layer_algebra`).
-/
import proofs.«175171_j58583353918035_2_alg».proof.Proof.Spec
import proofs.«175171_j58583353918035_2_alg».proof.Proof.LayerAlgebra
import proofs.«175171_j58583353918035_2_alg».proof.Proof.KernelAdj
import proofs.«175171_j58583353918035_2_alg».proof.Proof.RefLayer
import proofs.«175171_j58583353918035_2_alg».proof.Proof.NormNonneg
import proofs.«175171_j58583353918035_2_alg».proof.Proof.EdgeIdx

noncomputable section

open scoped BigOperators

namespace Cert.Bridge

open Idealize.ShloMosaic Idealize.ShloMosaic.ValueIdx Cert.ReferenceIdeal.ReadP Cert.KernelIdeal.Prelude Cert.EdgeRange Cert.Gcn

/-- A real node's row among the padded rows. -/
abbrev up (r : Fin 10000) : Fin 10240 := Fin.castLE (by decide : 10000 ≤ 10240) r

/-- ONE LAYER AT A REAL NODE: the kernel's dense propagation of the transformed padded activations equals the
    reference's gather–scale–scatter of the transformed real activations. -/
theorem layer_bridge (x9 : (⟨Cert.ReferenceIdeal.S2x320000, .i32⟩ : BufTy).Contents (Elt Ideal))
    (hx : ∀ j : Cert.ReferenceIdeal.S2x320000.Idx, 0 ≤ (x9 j).toInt ∧ (x9 j).toInt < 10000)
    (H : Mat 10240 256) (h : (⟨Cert.ReferenceIdeal.S10000x256, .f32⟩ : BufTy).Contents (Elt Ideal))
    (hH : ∀ (q : Fin 10000) (l : Fin 256), H (ix2 (up q) l) = h (ix2 q l))
    (W : (⟨Cert.ReferenceIdeal.S256x256, .f32⟩ : BufTy).Contents (Elt Ideal))
    (b : (⟨Cert.ReferenceIdeal.S256, .f32⟩ : BufTy).Contents (Elt Ideal)) (B : Mat 1 256)
    (hB : ∀ q : Fin 256, B (ix2 (0 : Fin 1) q) = b (ix1 q)) (r : Fin 10000) (c : Fin 256) :
    aggregate (n := 10240) (adjOf x9) (transform (n := 10240) H W) B (ix2 (up r) c)
      = val_main_v49 (F := Ideal) h W b x9 (ix2 r c) := by
  classical
  rw [aggregate_apply, Cert.ReferenceIdeal.Layer.layer_apply h W b x9 r c, hB]
  refine congrArg (fun t => max (t + b (ix1 c)) 0) ?_
  simp only [adj_apply x9 hx r, transform_apply]
  rw [layer_algebra (by decide : 10000 ≤ 10240) (srcOf x9 hx) (dstOf x9 hx)
    (fun e => val_main_v32 (F := Ideal) x9 (ix1 e)) (fun e => v32_nonneg x9 e)
    (fun k l => H (ix2 k l)) (fun q l => h (ix2 q l)) hH (fun l => W (ix2 l c)) r]
  refine congrArg (0 + ·) ?_
  refine Finset.sum_congr (Finset.filter_congr fun e _ => ?_) fun e _ => ?_
  · have hd := v7_range (F := Ideal) x9 hx e
    constructor
    · intro he
      have : (val_main_v7 (F := Ideal) x9 (ix1 e)).toInt.toNat = r.val := congrArg Fin.val he
      omega
    · intro he
      refine Fin.ext ?_
      show (val_main_v7 (F := Ideal) x9 (ix1 e)).toInt.toNat = r.val
      omega
  · refine congrArg (· * val_main_v32 (F := Ideal) x9 (ix1 e)) ?_
    have hs := v6_range (F := Ideal) x9 hx e
    have hq : (⟨min (val_main_v37 (F := Ideal) x9 (ix1 e)).toInt.toNat 9999, by omega⟩ : Fin 10000) = srcOf x9 hx e := by
      refine Fin.ext ?_
      show min (val_main_v37 (F := Ideal) x9 (ix1 e)).toInt.toNat 9999 = (val_main_v6 (F := Ideal) x9 (ix1 e)).toInt.toNat
      rw [v37_at (F := Ideal) x9 hx e]
      exact clamp_of_range _ hs.1 hs.2
    rw [hq, val_main_v4_apply]
    refine Finset.sum_congr rfl fun l _ => ?_
    refine congrArg₂ (· * ·) (congrArg h ?_) (congrArg W ?_)
    · funext a; match a with | ⟨0, _⟩ => exact Fin.ext rfl | ⟨1, _⟩ => exact Fin.ext rfl
    · funext a; match a with | ⟨0, _⟩ => exact Fin.ext rfl | ⟨1, _⟩ => exact Fin.ext rfl

end Cert.Bridge

end
-- ==== Proof.lean ====
/-
  A three-layer graph convolution network with mean pooling, a linear output layer and a log-softmax, computed two ways.

  THE KERNEL PROGRAM builds, once, the dense propagation matrix A of the graph — a [10240, 10240] array of zeros into
  which every edge's weight (the product of the inverse square roots of its endpoints' degrees, self loops included)
  is added at (destination, source) — pads the 10000 node rows to 10240, and runs each layer as two dense stages:
  the activations times the layer's weight matrix, then relu(A · that + bias). THE REFERENCE runs each layer edge by
  edge: it multiplies the real activations with the weight matrix, gathers each edge's source row, scales it by the
  edge's weight, adds it into the edge's destination row, adds the bias and clamps at 0. After the third layer both
  apply the same operations (per-graph means, the output layer, a log-softmax) to the 10000 real rows.

  At the ideal instance (floats are extended reals, a change of format is the identity) the two agree whenever every
  entry of the edge array is a node number in [0, 10000), which the precondition states: then every edge lands inside
  the matrix, entry (r, k) of A is the sum of the weights of the edges from k to r, the weights are non-negative, and
  the product of A with the transformed activations regroups into the per-destination sum of weighted source rows
  (a sum of non-negative extended reals distributes over a product). The padded rows never matter: no edge has a
  padded source, so their columns of A are zero, and the padded rows of each layer's result are cut off before the
  pooling. The three frames are the generated ones; nothing was rewritten by the idealization.
-/
import proofs.«175171_j58583353918035_2_alg».proof.Defs
import proofs.«175171_j58583353918035_2_alg».proof.Proof.Gen.Kernel
import proofs.«175171_j58583353918035_2_alg».proof.Proof.Gen.Kernel.Skeleton
import proofs.«175171_j58583353918035_2_alg».proof.Proof.Gen.Kernel.Launch
import proofs.«175171_j58583353918035_2_alg».proof.Proof.Gen.Kernel.Points
import proofs.«175171_j58583353918035_2_alg».proof.Proof.Gen.Kernel.Frame
import proofs.«175171_j58583353918035_2_alg».proof.Proof.Gen.KernelIdeal
import proofs.«175171_j58583353918035_2_alg».proof.Proof.Gen.KernelIdeal.Skeleton
import proofs.«175171_j58583353918035_2_alg».proof.Proof.Gen.KernelIdeal.Launch
import proofs.«175171_j58583353918035_2_alg».proof.Proof.Gen.KernelIdeal.Points
import proofs.«175171_j58583353918035_2_alg».proof.Proof.Gen.KernelIdeal.Frame
import proofs.«175171_j58583353918035_2_alg».proof.Proof.Gen.ReferenceIdeal
import proofs.«175171_j58583353918035_2_alg».proof.Proof.Gen.Pre_finite_inputs
import proofs.«175171_j58583353918035_2_alg».proof.Proof.RefRun
import proofs.«175171_j58583353918035_2_alg».proof.Proof.RefRead
import proofs.«175171_j58583353918035_2_alg».proof.Proof.RefLayer
import proofs.«175171_j58583353918035_2_alg».proof.Proof.EdgeRange
import proofs.«175171_j58583353918035_2_alg».proof.Proof.KernelLayout
import proofs.«175171_j58583353918035_2_alg».proof.Proof.KernelRun
import proofs.«175171_j58583353918035_2_alg».proof.Proof.KernelValue
import proofs.«175171_j58583353918035_2_alg».proof.Proof.Bridge
import Idealize.ShloMosaic.Adequacy
import Idealize.ShloMosaic.Init

noncomputable section

namespace Cert.Proof

open Idealize.ShloMosaic Idealize.ShloMosaic.ValueIdx Idealize.ShloMosaic.TcCoe Idealize.SL.Sem
open Cert.ReferenceIdeal.ReadP Cert.ReferenceIdeal.Layer Cert.KernelIdeal.Value Cert.Bridge

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- The idealization rewrote nothing. -/
theorem preserves : Cert.preserves_Kernel_KernelIdeal := trivial

section RealRows

open Cert.KernelIdeal

variable (m : (ℓ : Loc nD τ sig) → Buf (Elt Ideal) ℓ) (c : Dev nD)

/-- On the real rows the kernel program's third layer is the reference's, when every edge joins real nodes. -/
theorem real_rows (hx : ∀ j : Cert.ReferenceIdeal.S2x320000.Idx, 0 ≤ ((m ((c : Thread nD τ).loc main_arg9)) j).toInt
      ∧ ((m ((c : Thread nD τ).loc main_arg9)) j).toInt < 10000) (r : Fin 10000) (q : Fin 256) :
    H3 m c (ix2 (up r) q)
      = val_main_v141 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg9))
          (ix2 r q) := by
  have base : ∀ (p : Fin 10000) (l : Fin 256), padded (m ((c : Thread nD τ).loc main_arg0)) (ix2 (up p) l)
      = (m ((c : Thread nD τ).loc main_arg0)) (ix2 p l) := fun p l => Cert.KernelLayout.pad_rows_apply _ _ _ _ p l
  have l1 : ∀ (p : Fin 10000) (l : Fin 256), H1 m c (ix2 (up p) l) = val_main_v49 (F := Ideal) (m ((c : Thread nD τ).loc main_arg0))
      (m ((c : Thread nD τ).loc main_arg1)) (m ((c : Thread nD τ).loc main_arg2)) (m ((c : Thread nD τ).loc main_arg9)) (ix2 p l) :=
    fun p l => layer_bridge _ hx _ _ base _ _ _ (fun t => Cert.KernelLayout.reshape_row_apply _ _ t) p l
  have l2 : ∀ (p : Fin 10000) (l : Fin 256), H2 m c (ix2 (up p) l) = val_main_v49 (F := Ideal) (val_main_v49 (F := Ideal) (m ((c : Thread nD τ).loc main_arg0))
      (m ((c : Thread nD τ).loc main_arg1)) (m ((c : Thread nD τ).loc main_arg2)) (m ((c : Thread nD τ).loc main_arg9)))
      (m ((c : Thread nD τ).loc main_arg3)) (m ((c : Thread nD τ).loc main_arg4)) (m ((c : Thread nD τ).loc main_arg9)) (ix2 p l) :=
    fun p l => layer_bridge _ hx _ _ l1 _ _ _ (fun t => Cert.KernelLayout.reshape_row_apply _ _ t) p l
  rw [layer3_eq, layer2_eq]
  exact layer_bridge _ hx _ _ l2 _ _ _ (fun t => Cert.KernelLayout.reshape_row_apply _ _ t) r q

end RealRows

/-- The two idealized programs end with equal results. -/
theorem algebraic : Cert.algebraic_KernelIdeal_ReferenceIdeal := by
  intro m ρ m' ρ' hpre hagree
  refine ⟨fun c => Cert.KernelIdeal.Gen.W15 m ρ c (Proc.devRef .tc Cert.KernelIdeal.main_v75), Cert.KernelIdeal.RunValue.run_result m ρ, ?_⟩
  refine (θ_run Cert.ReferenceIdeal.defs _ _).mono (fun _ h c => ⟨(h c).1.trans ?_, (h c).2⟩)
    (Cert.ReferenceIdeal.ValueP.run (F := Ideal) m' ρ')
  obtain ⟨e0, e1, e2, e3, e4, e5, e6, e7, e8, e9, e10⟩ := hagree c
  have hx := Cert.EdgeRange.edge_range _ _ _ _ _ _ _ _ _ _ _ (hpre c)
  rw [val_main_v158_eq, e0, e1, e2, e3, e4, e5, e6, e7, e8, e9, e10, tail_eq]
  show _ = Cert.KernelIdeal.Gen.W15 m ρ c (Proc.devRef .tc Cert.KernelIdeal.main_v75)
  rw [Cert.KernelIdeal.Value.result]
  refine congrArg (fun t => tailOf (F := Ideal) t _ _ _) ?_
  funext i
  obtain ⟨r, q, rfl⟩ : ∃ (r : Fin 10000) (q : Fin 256), i = ix2 r q := ⟨i 0, i 1, eq_ix2 i⟩
  exact ((Cert.KernelLayout.slice_rows_apply _ _ r q).trans (real_rows m c hx r q)).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
